-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.named_const.Statement Cert.KernelIdeal.κ "inv_temp" .f32 0x41649249#32 ((134217728 / 9395241 : ℝ) : EReal)
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  main_v3
-- ==== Kernel.lean ====
abbrev S8192x1024 : Shape := ⟨2, ![8192, 1024]⟩
abbrev S1024x1024 : Shape := ⟨2, ![1024, 1024]⟩
abbrev S1024 : Shape := ⟨1, ![1024]⟩
abbrev S1024x1 : Shape := ⟨2, ![1024, 1]⟩
abbrev S8192x1 : Shape := ⟨2, ![8192, 1]⟩
abbrev S2048x1024 : Shape := ⟨2, ![2048, 1024]⟩
abbrev S512x1024 : Shape := ⟨2, ![512, 1024]⟩
abbrev S2048x1 : Shape := ⟨2, ![2048, 1]⟩
abbrev S2048x512 : Shape := ⟨2, ![2048, 512]⟩
abbrev S1x512 : Shape := ⟨2, ![1, 512]⟩
abbrev S2048 : Shape := ⟨1, ![2048]⟩
abbrev S_ : Shape := ⟨0, ![]⟩

abbrev nBuf : Space → Nat
  | .hbm => 10
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1, .f32⟩
  | .hbm, ⟨3, _⟩ => ⟨S8192x1, .f32⟩
  | .hbm, ⟨4, _⟩ => ⟨S8192x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S512x1024, .bf16⟩
  | .local _ .vmem, ⟨7, _⟩ => ⟨S512x1024, .bf16⟩
  | .local _ .vmem, ⟨8, _⟩ => ⟨S2048x1, .f32⟩
  | .local _ .vmem, ⟨9, _⟩ => ⟨S2048x1, .f32⟩
  | .local _ .vmem, ⟨10, _⟩ => ⟨S2048x1, .f32⟩
  | .local _ .vmem, ⟨11, _⟩ => ⟨S2048x1, .f32⟩
  | .local _ .vmem, ⟨12, _⟩ => ⟨S2048x1, .f32⟩
  | .local _ .vmem, ⟨13, _⟩ => ⟨S2048x1, .f32⟩
  | .local _ .vmem, ⟨14, _⟩ => ⟨S2048x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc1_scratch1 : Ref sig .tc := ⟨.vmem, 13, rfl⟩
abbrev cc1_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![4, 16], ![false, false]⟩

def k1_cond2 (i : grid1.Coords) : BitVec 1 :=
  let arg1 : BitVec 32 := BitVec.ofNat 32 (i 1).val
  let c15_i32 : BitVec 32 := 15#32
  let v63 : BitVec 1 := Scalar.cmpi .eq arg1 c15_i32
  let v64 : BitVec 32 := Scalar.extui v63
  let c0_i32_26 : BitVec 32 := 0#32
  let v65 : BitVec 1 := Scalar.cmpi .ne v64 c0_i32_26
  v65

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2048x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  broadcasts_S1024x1_S1024x1024 : S1024x1.Broadcasts S1024x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  iota_S2048x1_d0_w32 : S2048x1.Iotas .tc 32 [0]
  iota_S1x512_d1_w32 : S1x512.Iotas .tc 32 [1]
  broadcasts_S2048x1_S2048x512 : S2048x1.Broadcasts S2048x512
  broadcasts_S1x512_S2048x512 : S1x512.Broadcasts S2048x512
  reduces_S2048x512_S2048 : S2048x512.Reduces [1] S2048
  shapeCasts_S2048_S2048x1 : S2048.ShapeCasts S2048x1
  reducesTo_S8192x1_S_d0_1 : S8192x1.ReducesTo [0, 1] S_
  h_S_ : 0 < S_.numel
  dot_S2048x1024_S512x1024_S2048x512_1_1_0_0_n_n_wf : DotDims.WF S2048x1024 S512x1024 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .bf16 = 32 ∨ (Rect.block (s := S8192x1024) S1024x1024.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x1024.size a
  hwx1_0 : ∀ i : grid1.Coords, EltTy.bits .bf16 = 32 ∨ (Rect.block (s := S8192x1024) S2048x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S8192x1024.size a
  hwx1_1 : ∀ i : grid1.Coords, EltTy.bits .bf16 = 32 ∨ (Rect.block (s := S8192x1024) S512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S8192x1.size a
  hwx1_2 : ∀ i : grid1.Coords, EltTy.bits .f32 = 32 ∨ (Rect.block (s := S8192x1) S2048x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1.size a ≤ S8192x1.size a
  hwx1_3 : ∀ i : grid1.Coords, EltTy.bits .f32 = 32 ∨ (Rect.block (s := S8192x1) S2048x1.size (cc1_transform_3 i) (hinb1_3 i)).WholeWords (EltTy.packing .f32)

variable [Facts₀]

def dot_S2048x1024_S512x1024_S2048x512_1_1_0_0_n_n : DotDims S2048x1024 S512x1024 S2048x512 where
  lhsContracting := [1]
  rhsContracting := [1]
  lhsNonContracting := [0]
  rhsNonContracting := [0]
  lhsBatch := []
  rhsBatch := []
  wf := dot_S2048x1024_S512x1024_S2048x512_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_0) S2048x1.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1_1) S2048x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun i => !(k1_cond2 i == 1#1) | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1024x8192 : Shape := ⟨2, ![1024, 8192]⟩
abbrev S8192x8192 : Shape := ⟨2, ![8192, 8192]⟩
abbrev S4096 : Shape := ⟨1, ![4096]⟩
abbrev S8192x2 : Shape := ⟨2, ![8192, 2]⟩

abbrev nBuf : Space → Nat
  | .hbm => 71
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x1024, .f32⟩
  | .hbm, ⟨10, _⟩ => ⟨S8192x1024, .f32⟩
  | .hbm, ⟨11, _⟩ => ⟨S1024x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S8192x8192, .i32⟩
  | .hbm, ⟨17, _⟩ => ⟨S8192x8192, .i32⟩
  | .hbm, ⟨18, _⟩ => ⟨S_, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S_, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S4096, .i32⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S4096, .i32⟩
  | .hbm, ⟨31, _⟩ => ⟨S8192, .i32⟩
  | .hbm, ⟨32, _⟩ => ⟨S_, .f32⟩
  | .hbm, ⟨33, _⟩ => ⟨S8192, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S8192x1, .f32⟩
  | .hbm, ⟨38, _⟩ => ⟨S8192x8192, .f32⟩
  | .hbm, ⟨39, _⟩ => ⟨S8192x8192, .f32⟩
  | .hbm, ⟨40, _⟩ => ⟨S8192x8192, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1, .f32⟩
  | .hbm, ⟨45, _⟩ => ⟨S8192x8192, .f32⟩
  | .hbm, ⟨46, _⟩ => ⟨S8192x8192, .f32⟩
  | .hbm, ⟨47, _⟩ => ⟨S8192, .i32⟩
  | .hbm, ⟨48, _⟩ => ⟨S_, .i32⟩
  | .hbm, ⟨49, _⟩ => ⟨S8192, .i32⟩
  | .hbm, ⟨50, _⟩ => ⟨S8192, .i1⟩
  | .hbm, ⟨51, _⟩ => ⟨S_, .i32⟩
  | .hbm, ⟨52, _⟩ => ⟨S8192, .i32⟩
  | .hbm, ⟨53, _⟩ => ⟨S8192, .i32⟩
  | .hbm, ⟨54, _⟩ => ⟨S8192, .i32⟩
  | .hbm, ⟨55, _⟩ => ⟨S_, .i32⟩
  | .hbm, ⟨56, _⟩ => ⟨S8192, .i32⟩
  | .hbm, ⟨57, _⟩ => ⟨S8192, .i1⟩
  | .hbm, ⟨58, _⟩ => ⟨S_, .i32⟩
  | .hbm, ⟨59, _⟩ => ⟨S8192, .i32⟩
  | .hbm, ⟨60, _⟩ => ⟨S8192, .i32⟩
  | .hbm, ⟨61, _⟩ => ⟨S8192, .i32⟩
  | .hbm, ⟨62, _⟩ => ⟨S8192x1, .i32⟩
  | .hbm, ⟨63, _⟩ => ⟨S8192x1, .i32⟩
  | .hbm, ⟨64, _⟩ => ⟨S8192x2, .i32⟩
  | .hbm, ⟨65, _⟩ => ⟨S8192, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_call1_v0 : Ref sig .tc := ⟨.hbm, 23, rfl⟩
abbrev main_call1_v1 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call2_cst : Ref sig .tc := ⟨.hbm, 32, rfl⟩
abbrev main_call2_v0 : Ref sig .tc := ⟨.hbm, 33, rfl⟩
abbrev main_call2_cst_0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_v5 : Ref sig .tc := ⟨.hbm, 39, rfl⟩
abbrev main_call2_v6 : Ref sig .tc := ⟨.hbm, 40, rfl⟩
abbrev main_call2_cst_1 : Ref sig .tc := ⟨.hbm, 41, rfl⟩
abbrev main_call2_v7 : Ref sig .tc := ⟨.hbm, 42, rfl⟩
abbrev main_call2_v8 : Ref sig .tc := ⟨.hbm, 43, rfl⟩
abbrev main_call2_v9 : Ref sig .tc := ⟨.hbm, 44, rfl⟩
abbrev main_call2_v10 : Ref sig .tc := ⟨.hbm, 45, rfl⟩
abbrev main_v20 : Ref sig .tc := ⟨.hbm, 46, rfl⟩
abbrev main_v21 : Ref sig .tc := ⟨.hbm, 47, rfl⟩
abbrev main_c_3 : Ref sig .tc := ⟨.hbm, 48, rfl⟩
abbrev main_v22 : Ref sig .tc := ⟨.hbm, 49, rfl⟩
abbrev main_v23 : Ref sig .tc := ⟨.hbm, 50, rfl⟩
abbrev main_c_4 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_c_5 : Ref sig .tc := ⟨.hbm, 55, rfl⟩
abbrev main_v27 : Ref sig .tc := ⟨.hbm, 56, rfl⟩
abbrev main_v28 : Ref sig .tc := ⟨.hbm, 57, rfl⟩
abbrev main_c_6 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_7 : Ref sig .tc := ⟨.hbm, 66, rfl⟩
abbrev main_v36 : Ref sig .tc := ⟨.hbm, 67, rfl⟩
abbrev main_cst_8 : Ref sig .tc := ⟨.hbm, 68, rfl⟩
abbrev main_v37 : Ref sig .tc := ⟨.hbm, 69, rfl⟩
abbrev main_v38 : Ref sig .tc := ⟨.hbm, 70, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  transposes_S8192x1024_S1024x8192_1_0 : S8192x1024.Transposes [1, 0] S1024x8192
  bcast_S_S8192x8192 : S_.BroadcastsInDim S8192x8192 (![] : Fin 0 → Fin S8192x8192.rank)
  bcast_S_S4096 : S_.BroadcastsInDim S4096 (![] : Fin 0 → Fin S4096.rank)
  concatenates_S4096_S4096_S8192_d0 : Shape.Concatenates [S4096, S4096] S8192 0
  reducesTo_S8192x8192_S8192_d1 : S8192x8192.ReducesTo [1] S8192
  bcast_S_S8192 : S_.BroadcastsInDim S8192 (![] : Fin 0 → Fin S8192.rank)
  bcast_S8192x1_S8192x8192_0_1 : S8192x1.BroadcastsInDim S8192x8192 (![0, 1] : Fin 2 → Fin S8192x8192.rank)
  concatenates_S8192x1_S8192x1_S8192x2_d1 : Shape.Concatenates [S8192x1, S8192x1] S8192x2 1
  reducesTo_S8192_S_d0 : S8192.ReducesTo [0] S_
  dot_S8192x1024_S1024x8192_S8192x8192_1_0_0_1_n_n_wf : DotDims.WF S8192x1024 S1024x8192 S8192x8192 [1] [0] [0] [1] [] []
  gather_S8192x8192_S8192x2_S8192_n_01_n_n_01_1_11_wf : GatherDims.WF S8192x8192 S8192x2 S8192 [] [0, 1] [] [0, 1] [] 1 ![1, 1]

variable [Facts₀]

def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf
def gather_S8192x8192_S8192x2_S8192_n_01_n_n_01_1_11 : GatherDims S8192x8192 S8192x2 S8192 where
  offsetDims := []
  collapsedSliceDims := [0, 1]
  operandBatchingDims := []
  startIndicesBatchingDims := []
  startIndexMap := [0, 1]
  indexVectorDim := 1
  sliceSizes := ![1, 1]
  wf := gather_S8192x8192_S8192x2_S8192_n_01_n_n_01_1_11_wf

class Facts : Prop extends Facts₀ where

variable [Facts]
-- ==== Proof.R0.lean ====
/-
  The first region: the rows of the argument array are normalised, 1024 rows at a grid point.

  At grid point t the body loads the t-th block of 1024 rows of the argument array, and stores, as the t-th block
  of the region's result, every entry divided by the floored norm of its row. Nothing is kept between points, and
  every point fetches its input block and writes its output block back; so what the output's staging buffer holds
  after the body is one function of the input block, and the region's invariant is the untouched rest of the core.
  Everything here is stated at the contents V the region is entered with, for any float instance.
-/
import proofs.«169672_j32564442038466_2_alg».proof.Proof.Gen.KernelIdeal.Launch
import proofs.«169672_j32564442038466_2_alg».proof.Proof.Gen.KernelIdeal.Skeleton
import proofs.«169672_j32564442038466_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The block of window w at point t, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's current staging buffer holds the point's block of rows, for any proof data over the entry contents
    whose body leaves that block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body reads and writes: the whole 1024 × 1024 block. -/
abbrev r0_0 : Rect S1024x1024 := Rect.unit (s := S1024x1024) ![0, 0] S1024x1024.size inb_S1024x1024_S1024x1024_0_0

/-- What the body leaves in the output's staging buffer: its one store, of the normalised block. -/
def out0_1 (x0 : Vec F S1024x1024 .f32) : Vec F S1024x1024 .bf16 :=
  View.canon [⟨r0_0, k0_pay1 (View.ld x0 r0_0)⟩]

/-- That store covers the buffer. -/
theorem cover0_1 (p0 : Vec F S1024x1024 .bf16) (y : S1024x1024.Idx) :
    ∃ pc ∈ ([⟨r0_0, p0⟩] : List (View.Piece (Elt F) S1024x1024 .bf16)), y ∈ pc.1.set :=
  View.cover_of_tiled [⟨r0_0, p0⟩] S1024x1024.size (by rfl) y

set_option maxHeartbeats 1000000 in
/-- The body on whole staging buffers: the input's contents stay, the output's become the normalised block. -/
theorem sound_kernel0 (c : Dev nD) (E : Set ℕ) (i : grid0.Coords) (arg1 : Memref sig .tc .vmem S1024x1024 .f32) (harg1 : arg1.IsWhole) (arg2 : Memref sig .tc .vmem S1024x1024 .bf16) (harg2 : arg2.IsWhole)
    (x0 : Vec F S1024x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The first region's proof data on core c: the arrays as the region finds them; after the body the input's buffer
    still at its block and the output's at the normalised block; the rest of the core untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds the point's block, the rest passes through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the first region, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.R1Runs.lean ====
/-
  The second region, what its three cases share.

  The grid is 4 row blocks of 2048 rows by 16 column blocks of 512 columns, the column block running fastest: point t
  is row block t / 16 and column block t % 16. At every point the body takes the row block's normalised rows (window 0,
  fetched when the row block changes) and the column block's normalised rows (window 1, fetched at every point), and
  updates three scratch columns of 2048 entries, carried from point to point: a running maximum, a running normaliser
  and a running partner score. At column block 0 it first resets them; at column block 15 it also stores the two output
  columns (windows 2 and 3), which are idle and not written back at every other point. So there are three cases:
  A (column block 0), B (column blocks 1 to 14), C (column block 15).
-/
import proofs.«169672_j32564442038466_2_alg».proof.Proof.R0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The block of window w at point t, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block's staging buffer holds the point's row block at every point, fetched there or not: between two
    fetches the row block does not change. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The column block's staging buffer holds the point's column block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions of the body, over the grid -/

/-- "This is column block 0": the condition under which the scratch columns are reset. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- "This is column block 15": the condition under which the two output columns are stored. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_2 : ∀ t : Fin cfg1.N, cond1_1 (grid1.coords t) → cfg1.idle 2 (grid1.coords t) = false := by decide +kernel
theorem liveAt1_3 : ∀ t : Fin cfg1.N, cond1_1 (grid1.coords t) → cfg1.idle 3 (grid1.coords t) = false := by decide +kernel

/-! ## The memrefs the body is called with -/

/-- One staging buffer of each output window, through which its contents are stated. -/
abbrev VO1_2 : View sig .tc .vmem S2048x1 .f32 := (Memref.whole cc1_stg2_0 : Memref sig .tc .vmem S2048x1 .f32).view
abbrev VO1_3 : View sig .tc .vmem S2048x1 .f32 := (Memref.whole cc1_stg3_0 : Memref sig .tc .vmem S2048x1 .f32).view
abbrev ms1_0 (t : Fin cfg1.N) : Memref sig .tc .vmem S2048x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1 .f32 := win1_3.stage (cfg1.slots t 3)
abbrev hs1_3 (t : Fin cfg1.N) : (ms1_3 t).IsWhole := hstage1_3 ((cfg1.slots t 3).cast nbuf1_3)
/-- The three scratch columns: the running maximum, the running normaliser, the running partner score. -/
abbrev scM1_0 : Memref sig .tc .vmem S2048x1 .f32 := Memref.whole cc1_scratch0
abbrev scM1_1 : Memref sig .tc .vmem S2048x1 .f32 := Memref.whole cc1_scratch1
abbrev scM1_2 : Memref sig .tc .vmem S2048x1 .f32 := Memref.whole cc1_scratch2
abbrev VS1_0 : View sig .tc .vmem S2048x1 .f32 := scM1_0.view
abbrev VS1_1 : View sig .tc .vmem S2048x1 .f32 := scM1_1.view
abbrev VS1_2 : View sig .tc .vmem S2048x1 .f32 := scM1_2.view

/-- The scoped buffers of the core that the second region never touches: the first region's four staging buffers,
    each whole at some contents. -/
abbrev rb0 (c : Dev nD) : sProp 𝕄 := iprop(∃ f : Buf (Elt F) ((c : Thread nD τ).loc cc0_stg0_0), ((c : Thread nD τ).loc cc0_stg0_0) ↦{fullShare} f)
abbrev rb1 (c : Dev nD) : sProp 𝕄 := iprop(∃ f : Buf (Elt F) ((c : Thread nD τ).loc cc0_stg0_1), ((c : Thread nD τ).loc cc0_stg0_1) ↦{fullShare} f)
abbrev rb2 (c : Dev nD) : sProp 𝕄 := iprop(∃ f : Buf (Elt F) ((c : Thread nD τ).loc cc0_stg1_0), ((c : Thread nD τ).loc cc0_stg1_0) ↦{fullShare} f)
abbrev rb3 (c : Dev nD) : sProp 𝕄 := iprop(∃ f : Buf (Elt F) ((c : Thread nD τ).loc cc0_stg1_1), ((c : Thread nD τ).loc cc0_stg1_1) ↦{fullShare} f)

/-- The class invariant of the second region with the scratch columns as memrefs owned at some contents. -/
theorem PhiA1_eq (c : Dev nD) :
    (Pipeline.ΦA spec1 c : sProp 𝕄)
      = iprop(iprop(rb0 (F := F) c ∗ rb1 (F := F) c ∗ rb2 (F := F) c ∗ rb3 (F := F) c ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.KernelIdeal.Hand

end
-- ==== Proof.R1RunA.lean ====
/-
  The second region's body at a point of case A (column block 0, not the last): the three scratch columns are reset,
  then updated from the point's row block and column block; the two output buffers are not touched.
  What each scratch column ends with is found by running the body: a list of stored pieces, last first.
-/
import proofs.«169672_j32564442038466_2_alg».proof.Proof.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- Case A: from the two input buffers at their contents, the two output buffers at contents handed back untouched, and
    the scratch columns at anything, the body runs to the continuation with the scratch columns at their pieces. -/
noncomputable def kernelRun1_A (c : Dev nD) (i : grid1.Coords) (arg2 : Memref sig .tc .vmem S2048x1024 .bf16) (harg2 : arg2.IsWhole) (arg3 : Memref sig .tc .vmem S512x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (hc0 : cond1_0 i) (hc1 : ¬cond1_1 i)
    (x0 : Vec F S2048x1024 .bf16) (x1 : Vec F S512x1024 .bf16) :
    Σ' (LS0 : List (View.Piece (Elt F) S2048x1 .f32)) (LS1 : List (View.Piece (Elt F) S2048x1 .f32)), { LS2 : List (View.Piece (Elt F) S2048x1 .f32) //
      ∀ (xi2 xi3 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨?_, ?_, ?_, fun xi2 xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.R1RunB.lean ====
/-
  The second region's body at a point of case B (column blocks 1 to 14): the three scratch columns, at what the point
  before left, are updated from the point's row block and column block; the two output buffers are not touched.
-/
import proofs.«169672_j32564442038466_2_alg».proof.Proof.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- Case B: from the two input buffers at their contents, the two output buffers at contents handed back untouched, and
    the scratch columns at the contents xs·, the body runs to the continuation with the scratch columns at their pieces. -/
noncomputable def kernelRun1_B (c : Dev nD) (i : grid1.Coords) (arg2 : Memref sig .tc .vmem S2048x1024 .bf16) (harg2 : arg2.IsWhole) (arg3 : Memref sig .tc .vmem S512x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (hc0 : ¬cond1_0 i) (hc1 : ¬cond1_1 i)
    (x0 : Vec F S2048x1024 .bf16) (x1 : Vec F S512x1024 .bf16) (xs0 xs1 xs2 : Vec F S2048x1 .f32) :
    Σ' (LS0 : List (View.Piece (Elt F) S2048x1 .f32)) (LS1 : List (View.Piece (Elt F) S2048x1 .f32)), { LS2 : List (View.Piece (Elt F) S2048x1 .f32) //
      ∀ (xi2 xi3 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare xi2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨?_, ?_, ?_, fun xi2 xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.R1RunC.lean ====
/-
  The second region's body at a point of case C (column block 15): the three scratch columns, at what the point before
  left, are updated from the point's row block and column block, and the two output columns are stored from them.
-/
import proofs.«169672_j32564442038466_2_alg».proof.Proof.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- Case C: from the two input buffers at their contents, the two output buffers at anything, and the scratch columns
    at the contents xs·, the body runs to the continuation with the outputs and the scratch columns at their pieces. -/
noncomputable def kernelRun1_C (c : Dev nD) (i : grid1.Coords) (arg2 : Memref sig .tc .vmem S2048x1024 .bf16) (harg2 : arg2.IsWhole) (arg3 : Memref sig .tc .vmem S512x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (hc0 : ¬cond1_0 i) (hc1 : cond1_1 i)
    (x0 : Vec F S2048x1024 .bf16) (x1 : Vec F S512x1024 .bf16) (xs0 xs1 xs2 : Vec F S2048x1 .f32) :
    Σ' (L2 : List (View.Piece (Elt F) S2048x1 .f32)) (L3 : List (View.Piece (Elt F) S2048x1 .f32)) (LS0 : List (View.Piece (Elt F) S2048x1 .f32)) (LS1 : List (View.Piece (Elt F) S2048x1 .f32)), { LS2 : List (View.Piece (Elt F) S2048x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨?_, ?_, ?_, ?_, ?_, fun E K => ?run⟩
  case run =>
    simp only [cc1_kernel_eq_skeleton]; unfold cc1_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    isplitl [HS1]; · iexists _; iexact HS1
    iexists _; iexact HS2

end Cert.KernelIdeal.Hand

end
-- ==== Proof.R1.lean ====
/-
  The second region: what its buffers hold point by point, its proof data and its body obligation.

  The scratch columns are followed through the grid: after point t they hold what the case of t leaves, computed from
  the point's two input blocks and, except at a column block 0 (which resets them), from what point t - 1 left. The two
  output buffers are named only at the points that store them (column block 15), which are the points that write them
  back. The region's two input windows read one array, the normalised rows; the region holds it once, split in two
  half shares.
-/
import proofs.«169672_j32564442038466_2_alg».proof.Proof.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The three cases at a grid point -/

/-- Case A at point t: the run at the point's memrefs and input blocks. -/
abbrev caseA (c : Dev nD) (t : Fin cfg1.N) (h0 : t.val % 16 = 0) (h1 : ¬t.val % 16 = 15) :=
  kernelRun1_A (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t)
/-- Case B at point t, over the scratch contents xs· the point before left. -/
abbrev caseB (c : Dev nD) (t : Fin cfg1.N) (h0 : ¬t.val % 16 = 0) (h1 : ¬t.val % 16 = 15) (xs0 xs1 xs2 : Vec F S2048x1 .f32) :=
  kernelRun1_B (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) xs0 xs1 xs2
/-- Case C at point t, over the scratch contents xs· the point before left. -/
abbrev caseC (c : Dev nD) (t : Fin cfg1.N) (h0 : ¬t.val % 16 = 0) (h1 : t.val % 16 = 15) (xs0 xs1 xs2 : Vec F S2048x1 .f32) :=
  kernelRun1_C (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) xs0 xs1 xs2

/-- A list of pieces read back through a scratch column's view (or an output buffer's) over unnamed contents. -/
abbrev rd (v : View sig .tc .vmem S2048x1 .f32) (L : List (View.Piece (Elt F) S2048x1 .f32)) : Vec F S2048x1 .f32 := v.read (Elt F) (v.writes (Elt F) v.junk L)

/-! The pieces each case stores cover the column they are stored into (every store is of the whole column). -/
theorem scoverA0 (c : Dev nD) (t : Fin cfg1.N) (h0 : t.val % 16 = 0) (h1 : ¬t.val % 16 = 15) (y : S2048x1.Idx) : ∃ pc ∈ (caseA V c t h0 h1).1, y ∈ pc.1.set :=
  View.cover_of_tiledL (caseA V c t h0 h1).1 S2048x1.size (by sl_kernel_rfl) y
theorem scoverA1 (c : Dev nD) (t : Fin cfg1.N) (h0 : t.val % 16 = 0) (h1 : ¬t.val % 16 = 15) (y : S2048x1.Idx) : ∃ pc ∈ (caseA V c t h0 h1).2.1, y ∈ pc.1.set :=
  View.cover_of_tiledL (caseA V c t h0 h1).2.1 S2048x1.size (by sl_kernel_rfl) y
theorem scoverA2 (c : Dev nD) (t : Fin cfg1.N) (h0 : t.val % 16 = 0) (h1 : ¬t.val % 16 = 15) (y : S2048x1.Idx) : ∃ pc ∈ (caseA V c t h0 h1).2.2.1, y ∈ pc.1.set :=
  View.cover_of_tiledL (caseA V c t h0 h1).2.2.1 S2048x1.size (by sl_kernel_rfl) y
theorem scoverB0 (c : Dev nD) (t : Fin cfg1.N) (h0 : ¬t.val % 16 = 0) (h1 : ¬t.val % 16 = 15) (xs0 xs1 xs2 : Vec F S2048x1 .f32) (y : S2048x1.Idx) : ∃ pc ∈ (caseB V c t h0 h1 xs0 xs1 xs2).1, y ∈ pc.1.set :=
  View.cover_of_tiledL (caseB V c t h0 h1 xs0 xs1 xs2).1 S2048x1.size (by sl_kernel_rfl) y
theorem scoverB1 (c : Dev nD) (t : Fin cfg1.N) (h0 : ¬t.val % 16 = 0) (h1 : ¬t.val % 16 = 15) (xs0 xs1 xs2 : Vec F S2048x1 .f32) (y : S2048x1.Idx) : ∃ pc ∈ (caseB V c t h0 h1 xs0 xs1 xs2).2.1, y ∈ pc.1.set :=
  View.cover_of_tiledL (caseB V c t h0 h1 xs0 xs1 xs2).2.1 S2048x1.size (by sl_kernel_rfl) y
theorem scoverB2 (c : Dev nD) (t : Fin cfg1.N) (h0 : ¬t.val % 16 = 0) (h1 : ¬t.val % 16 = 15) (xs0 xs1 xs2 : Vec F S2048x1 .f32) (y : S2048x1.Idx) : ∃ pc ∈ (caseB V c t h0 h1 xs0 xs1 xs2).2.2.1, y ∈ pc.1.set :=
  View.cover_of_tiledL (caseB V c t h0 h1 xs0 xs1 xs2).2.2.1 S2048x1.size (by sl_kernel_rfl) y
theorem coverC2 (c : Dev nD) (t : Fin cfg1.N) (h0 : ¬t.val % 16 = 0) (h1 : t.val % 16 = 15) (xs0 xs1 xs2 : Vec F S2048x1 .f32) (y : S2048x1.Idx) : ∃ pc ∈ (caseC V c t h0 h1 xs0 xs1 xs2).1, y ∈ pc.1.set :=
  View.cover_of_tiledL (caseC V c t h0 h1 xs0 xs1 xs2).1 S2048x1.size (by sl_kernel_rfl) y
theorem coverC3 (c : Dev nD) (t : Fin cfg1.N) (h0 : ¬t.val % 16 = 0) (h1 : t.val % 16 = 15) (xs0 xs1 xs2 : Vec F S2048x1 .f32) (y : S2048x1.Idx) : ∃ pc ∈ (caseC V c t h0 h1 xs0 xs1 xs2).2.1, y ∈ pc.1.set :=
  View.cover_of_tiledL (caseC V c t h0 h1 xs0 xs1 xs2).2.1 S2048x1.size (by sl_kernel_rfl) y
theorem scoverC0 (c : Dev nD) (t : Fin cfg1.N) (h0 : ¬t.val % 16 = 0) (h1 : t.val % 16 = 15) (xs0 xs1 xs2 : Vec F S2048x1 .f32) (y : S2048x1.Idx) : ∃ pc ∈ (caseC V c t h0 h1 xs0 xs1 xs2).2.2.1, y ∈ pc.1.set :=
  View.cover_of_tiledL (caseC V c t h0 h1 xs0 xs1 xs2).2.2.1 S2048x1.size (by sl_kernel_rfl) y
theorem scoverC1 (c : Dev nD) (t : Fin cfg1.N) (h0 : ¬t.val % 16 = 0) (h1 : t.val % 16 = 15) (xs0 xs1 xs2 : Vec F S2048x1 .f32) (y : S2048x1.Idx) : ∃ pc ∈ (caseC V c t h0 h1 xs0 xs1 xs2).2.2.2.1, y ∈ pc.1.set :=
  View.cover_of_tiledL (caseC V c t h0 h1 xs0 xs1 xs2).2.2.2.1 S2048x1.size (by sl_kernel_rfl) y
theorem scoverC2 (c : Dev nD) (t : Fin cfg1.N) (h0 : ¬t.val % 16 = 0) (h1 : t.val % 16 = 15) (xs0 xs1 xs2 : Vec F S2048x1 .f32) (y : S2048x1.Idx) : ∃ pc ∈ (caseC V c t h0 h1 xs0 xs1 xs2).2.2.2.2.1, y ∈ pc.1.set :=
  View.cover_of_tiledL (caseC V c t h0 h1 xs0 xs1 xs2).2.2.2.2.1 S2048x1.size (by sl_kernel_rfl) y

/-! ## What the buffers hold after each point -/

/-- The two output buffers and the three scratch columns after a point. -/
structure Outs1 (F : FTy → Type) where
  o2 : Vec F S2048x1 .f32
  o3 : Vec F S2048x1 .f32
  s0 : Vec F S2048x1 .f32
  s1 : Vec F S2048x1 .f32
  s2 : Vec F S2048x1 .f32

/-- What case A leaves at point t (the outputs unnamed: nothing consults them at such a point). -/
def outA (c : Dev nD) (t : Fin cfg1.N) (h0 : t.val % 16 = 0) (h1 : ¬t.val % 16 = 15) : Outs1 F :=
  ⟨rd VO1_2 [], rd VO1_3 [], rd VS1_0 (caseA V c t h0 h1).1, rd VS1_1 (caseA V c t h0 h1).2.1, rd VS1_2 (caseA V c t h0 h1).2.2.1⟩
/-- What case B leaves at point t over what the point before left. -/
def outB (c : Dev nD) (t : Fin cfg1.N) (h0 : ¬t.val % 16 = 0) (h1 : ¬t.val % 16 = 15) (p : Outs1 F) : Outs1 F :=
  ⟨rd VO1_2 [], rd VO1_3 [], rd VS1_0 (caseB V c t h0 h1 p.s0 p.s1 p.s2).1, rd VS1_1 (caseB V c t h0 h1 p.s0 p.s1 p.s2).2.1, rd VS1_2 (caseB V c t h0 h1 p.s0 p.s1 p.s2).2.2.1⟩
/-- What case C leaves at point t over what the point before left. -/
def outC (c : Dev nD) (t : Fin cfg1.N) (h0 : ¬t.val % 16 = 0) (h1 : t.val % 16 = 15) (p : Outs1 F) : Outs1 F :=
  ⟨rd VO1_2 (caseC V c t h0 h1 p.s0 p.s1 p.s2).1, rd VO1_3 (caseC V c t h0 h1 p.s0 p.s1 p.s2).2.1, rd VS1_0 (caseC V c t h0 h1 p.s0 p.s1 p.s2).2.2.1, rd VS1_1 (caseC V c t h0 h1 p.s0 p.s1 p.s2).2.2.2.1, rd VS1_2 (caseC V c t h0 h1 p.s0 p.s1 p.s2).2.2.2.2.1⟩

/-- THE ACCUMULATION: what the buffers hold after the body at position n, by recursion on the position. -/
def outsAt1 (c : Dev nD) : (n : ℕ) → n < cfg1.N → Outs1 F
  | 0, hn => outA V c ⟨0, hn⟩ (Nat.zero_mod _) (show ¬(0 : ℕ) % 16 = 15 by decide)
  | n + 1, hn =>
    if h0 : (n + 1) % 16 = 0 then
      if h1 : (n + 1) % 16 = 15 then
        False.elim (by omega)
      else outA V c ⟨n + 1, hn⟩ h0 h1
    else
      if h1 : (n + 1) % 16 = 15 then outC V c ⟨n + 1, hn⟩ h0 h1 (outsAt1 c n (Nat.lt_of_succ_lt hn))
      else outB V c ⟨n + 1, hn⟩ h0 h1 (outsAt1 c n (Nat.lt_of_succ_lt hn))

theorem outsAt1_A (c : Dev nD) (t : Fin cfg1.N) (h0 : t.val % 16 = 0) (h1 : ¬t.val % 16 = 15) :
    outsAt1 V c t.val t.isLt = outA V c t h0 h1 := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = outB V c t h0 h1 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = outC V c t h0 h1 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region's invariant before position n: before the first point the class's (every scratch column at anything);
    afterwards the untouched buffers, each scratch column at what the point before left, and the generator register. -/
def PhiS (c : Dev nD) : (n : ℕ) → n ≤ cfg1.N → sProp 𝕄
  | 0, _ => Pipeline.ΦA spec1 c
  | n + 1, hn => iprop(iprop(rb0 (F := F) c ∗ rb1 (F := F) c ∗ rb2 (F := F) c ∗ rb3 (F := F) c ∗ owns (c : Thread nD τ) scM1_0 fullShare ((outsAt1 V c n hn).s0) ∗ owns (c : Thread nD τ) scM1_1 fullShare ((outsAt1 V c n hn).s1) ∗ owns (c : Thread nD τ) scM1_2 fullShare ((outsAt1 V c n hn).s2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(rb0 (F := F) c ∗ rb1 (F := F) c ∗ rb2 (F := F) c ∗ rb3 (F := F) c ∗ owns (c : Thread nD τ) scM1_0 fullShare ((outsAt1 V c n hn).s0) ∗ owns (c : Thread nD τ) scM1_1 fullShare ((outsAt1 V c n hn).s1) ∗ owns (c : Thread nD τ) scM1_2 fullShare ((outsAt1 V c n hn).s2)) ∗ (∃ r, prngReg c r)) := rfl

theorem PhiS_pos (c : Dev nD) (n : ℕ) (h : n ≤ cfg1.N) (hz : n ≠ 0) :
    PhiS V c n h = iprop(iprop(rb0 (F := F) c ∗ rb1 (F := F) c ∗ rb2 (F := F) c ∗ rb3 (F := F) c ∗ owns (c : Thread nD τ) scM1_0 fullShare ((outsAt1 V c (n - 1) (by omega)).s0) ∗ owns (c : Thread nD τ) scM1_1 fullShare ((outsAt1 V c (n - 1) (by omega)).s1) ∗ owns (c : Thread nD τ) scM1_2 fullShare ((outsAt1 V c (n - 1) (by omega)).s2)) ∗ (∃ r, prngReg c r)) := by
  cases n with
  | zero => exact absurd rfl hz
  | succ n => rfl

/-! ## The proof data -/

/-- The second region's proof data on core c: the arrays as the region finds them; after the body each input's buffer
    at its block and the outputs' at the accumulation's; the invariant above; the one array behind the two input windows
    held in two half shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).o2
    | ⟨3, _⟩ => (outsAt1 V c t.val t.isLt).o3
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).o2 := by dsimp only [dat1]
theorem after1_3 (c : Dev nD) (t : Fin cfg1.N) : (dat1 V c).after 3 t = (outsAt1 V c t.val t.isLt).o3 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 8000000 in
/-- The body at any point. The two input buffers hold the point's blocks; the point's position in its row block says
    which case it is; the invariant hands the body the scratch columns at what the point before left (at anything at the
    very first point) and takes them back at this point's contents; an output buffer is handed back as found at a point
    that does not store it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 64 := lt_of_lt_of_eq t.isLt (show cfg1.N = 64 from N_1)
  by_cases h0 : t.val % 16 = 0
  · by_cases h1 : t.val % 16 = 15
    · exfalso; omega
    · have hc1 : ¬cond1_1 (grid1.coords t) := fun h => h1 ((hcond1_1 t).mp h)
      rw [Dat.leavesExact_idle (dat1 V c) 2 t (idleAt1_2 t hc1) (noFlush1_2 t hc1),
        Dat.leavesExact_idle (dat1 V c) 3 t (idleAt1_3 t hc1) (noFlush1_3 t hc1)]
      rw [outsAt1_A V c t h0 h1]
      unfold outA; (try dsimp only)
      by_cases hz : t.val = 0
      · rw [PhiS_castSucc V c t, PhiS_zero V c _ _ hz, PhiA1_eq]
        iintro ⟨⟨⟨Hr0, Hr1, Hr2, Hr3, HS0, HS1, HS2⟩, Hg⟩, Ho, ⟨%d0, H0⟩, ⟨%d1, H1⟩, ⟨%d2, H2⟩, ⟨%d3, H3⟩⟩
        iapply ((caseA V c t h0 h1).2.2.2 _ _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [Hr0 Hr1 Hr2 Hr3 HS0 HS1 HS2 Hg]
        · isplitl [Hr0 Hr1 Hr2 Hr3 HS0 HS1 HS2]
          · isplitl [Hr0]; · iexact Hr0
            isplitl [Hr1]; · iexact Hr1
            isplitl [Hr2]; · iexact Hr2
            isplitl [Hr3]; · iexact Hr3
            isplitl [HS0]
            · unfold owns; iexists _; isplitr
              swap; · iexact HS0
              ipureintro; exact View.read_writes_of_cover _ _ _ _ _ (scoverA0 V c t h0 h1)
            isplitl [HS1]
            · unfold owns; iexists _; isplitr
              swap; · iexact HS1
              ipureintro; exact View.read_writes_of_cover _ _ _ _ _ (scoverA1 V c t h0 h1)
            · unfold owns; iexists _; isplitr
              swap; · iexact HS2
              ipureintro; exact View.read_writes_of_cover _ _ _ _ _ (scoverA2 V c t h0 h1)
          iexact Hg
        isplitl [Ho]; · iexact Ho
        isplitl [H0]; · iexact H0
        isplitl [H1]; · iexact H1
        isplitl [H2]; · iexists _; iexact H2
        iexists _; iexact H3
      · rw [PhiS_castSucc V c t, PhiS_pos V c _ _ hz]
        iintro ⟨⟨⟨Hr0, Hr1, Hr2, Hr3, HS0, HS1, HS2⟩, Hg⟩, Ho, ⟨%d0, H0⟩, ⟨%d1, H1⟩, ⟨%d2, H2⟩, ⟨%d3, H3⟩⟩
        iapply ((caseA V c t h0 h1).2.2.2 _ _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [Hr0 Hr1 Hr2 Hr3 HS0 HS1 HS2 Hg]
        · isplitl [Hr0 Hr1 Hr2 Hr3 HS0 HS1 HS2]
          · isplitl [Hr0]; · iexact Hr0
            isplitl [Hr1]; · iexact Hr1
            isplitl [Hr2]; · iexact Hr2
            isplitl [Hr3]; · iexact Hr3
            isplitl [HS0]
            · unfold owns; iexists _; isplitr
              swap; · iexact HS0
              ipureintro; exact View.read_writes_of_cover _ _ _ _ _ (scoverA0 V c t h0 h1)
            isplitl [HS1]
            · unfold owns; iexists _; isplitr
              swap; · iexact HS1
              ipureintro; exact View.read_writes_of_cover _ _ _ _ _ (scoverA1 V c t h0 h1)
            · unfold owns; iexists _; isplitr
              swap; · iexact HS2
              ipureintro; exact View.read_writes_of_cover _ _ _ _ _ (scoverA2 V c t h0 h1)
          iexact Hg
        isplitl [Ho]; · iexact Ho
        isplitl [H0]; · iexact H0
        isplitl [H1]; · iexact H1
        isplitl [H2]; · iexists _; iexact H2
        iexists _; iexact H3
  · have hz : t.val ≠ 0 := fun e => h0 (by rw [e])
    by_cases h1 : t.val % 16 = 15
    · have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2 t hc1], after1_2]
      rw [show (dat1 V c).leavesExact 3 t = owns (c : Thread nD τ) (ms1_3 t) fullShare ((dat1 V c).after 3 t) from by
        unfold Dat.leavesExact; rw [liveAt1_3 t hc1], after1_3]
      rw [outsAt1_C V c t h0 h1]
      unfold outC; (try dsimp only)
      rw [PhiS_castSucc V c t, PhiS_pos V c _ _ hz]
      iintro ⟨⟨⟨Hr0, Hr1, Hr2, Hr3, HS0, HS1, HS2⟩, Hg⟩, Ho, ⟨%d0, H0⟩, ⟨%d1, H1⟩, ⟨%d2, H2⟩, ⟨%d3, H3⟩⟩
      iapply ((caseC V c t h0 h1 _ _ _).2.2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      isplitl [HS2]; · iexact HS2
      iintro ⟨H0, H1, ⟨%e2, H2⟩, ⟨%e3, H3⟩, ⟨%es0, HS0⟩, ⟨%es1, HS1⟩, ⟨%es2, HS2⟩⟩
      isplitl [Hr0 Hr1 Hr2 Hr3 HS0 HS1 HS2 Hg]
      · isplitl [Hr0 Hr1 Hr2 Hr3 HS0 HS1 HS2]
        · isplitl [Hr0]; · iexact Hr0
          isplitl [Hr1]; · iexact Hr1
          isplitl [Hr2]; · iexact Hr2
          isplitl [Hr3]; · iexact Hr3
          isplitl [HS0]
          · unfold owns; iexists _; isplitr
            swap; · iexact HS0
            ipureintro; exact View.read_writes_of_cover _ _ _ _ _ (scoverC0 V c t h0 h1 _ _ _)
          isplitl [HS1]
          · unfold owns; iexists _; isplitr
            swap; · iexact HS1
            ipureintro; exact View.read_writes_of_cover _ _ _ _ _ (scoverC1 V c t h0 h1 _ _ _)
          · unfold owns; iexists _; isplitr
            swap; · iexact HS2
            ipureintro; exact View.read_writes_of_cover _ _ _ _ _ (scoverC2 V c t h0 h1 _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverC2 V c t h0 h1 _ _ _)
      unfold owns; iexists _; isplitr
      swap; · iexact H3
      ipureintro; exact View.read_writes_of_cover _ _ _ _ _ (coverC3 V c t h0 h1 _ _ _)
    · have hc1 : ¬cond1_1 (grid1.coords t) := fun h => h1 ((hcond1_1 t).mp h)
      rw [Dat.leavesExact_idle (dat1 V c) 2 t (idleAt1_2 t hc1) (noFlush1_2 t hc1),
        Dat.leavesExact_idle (dat1 V c) 3 t (idleAt1_3 t hc1) (noFlush1_3 t hc1)]
      rw [outsAt1_B V c t h0 h1]
      unfold outB; (try dsimp only)
      rw [PhiS_castSucc V c t, PhiS_pos V c _ _ hz]
      iintro ⟨⟨⟨Hr0, Hr1, Hr2, Hr3, HS0, HS1, HS2⟩, Hg⟩, Ho, ⟨%d0, H0⟩, ⟨%d1, H1⟩, ⟨%d2, H2⟩, ⟨%d3, H3⟩⟩
      iapply ((caseB V c t h0 h1 _ _ _).2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [Hr0 Hr1 Hr2 Hr3 HS0 HS1 HS2 Hg]
      · isplitl [Hr0 Hr1 Hr2 Hr3 HS0 HS1 HS2]
        · isplitl [Hr0]; · iexact Hr0
          isplitl [Hr1]; · iexact Hr1
          isplitl [Hr2]; · iexact Hr2
          isplitl [Hr3]; · iexact Hr3
          isplitl [HS0]
          · unfold owns; iexists _; isplitr
            swap; · iexact HS0
            ipureintro; exact View.read_writes_of_cover _ _ _ _ _ (scoverB0 V c t h0 h1 _ _ _)
          isplitl [HS1]
          · unfold owns; iexists _; isplitr
            swap; · iexact HS1
            ipureintro; exact View.read_writes_of_cover _ _ _ _ _ (scoverB1 V c t h0 h1 _ _ _)
          · unfold owns; iexists _; isplitr
            swap; · iexact HS2
            ipureintro; exact View.read_writes_of_cover _ _ _ _ _ (scoverB2 V c t h0 h1 _ _ _)
        iexact Hg
      isplitl [Ho]; · iexact Ho
      isplitl [H0]; · iexact H0
      isplitl [H1]; · iexact H1
      isplitl [H2]; · iexists _; iexact H2
      iexists _; iexact H3

/-- The body obligation of the second region, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the scratch columns' named contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA1_eq]
  iintro ⟨⟨Hr0, Hr1, Hr2, Hr3, HS0, HS1, HS2⟩, Hg⟩
  isplitl [Hr0 Hr1 Hr2 Hr3 HS0 HS1 HS2]
  · isplitl [Hr0]; · iexact Hr0
    isplitl [Hr1]; · iexact Hr1
    isplitl [Hr2]; · iexact Hr2
    isplitl [Hr3]; · iexact Hr3
    isplitl [HS0]; · iexists _; iexact HS0
    isplitl [HS1]; · iexists _; iexact HS1
    iexists _; iexact HS2
  iexact Hg

end Cert.KernelIdeal.Hand

end
-- ==== Proof.Run.lean ====
/-
  The whole run: @main is the first region, the second region, then six host operations.

  The contents of the core's unscoped buffers are followed through the three segments: at launch the memory's; after the
  first region the same but for the normalised rows, which hold what the region's write-backs left; after the second
  region the same but for the two result columns; after the host operations what those compute. Each region is entered
  from the state "every unscoped buffer at the boundary's contents, the generator register at some state, nothing owed"
  and left at the next such state. The second region reads the normalised rows through two windows: it takes that one
  buffer split in two half shares and gives it back whole.
-/
import proofs.«169672_j32564442038466_2_alg».proof.Proof.R1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => m (c, b)
/-- The same read at the TensorCore's references: what the first region is entered with. -/
abbrev VV0 : (c : Dev nD) → (b : Ref sig .tc) → Buf (Elt F) ((c : Thread nD τ).loc b) := fun c b => W0 m c b
/-- After the first region: its arrays at what the pipeline leaves, every other buffer as entered. -/
def W1 (c : Dev nD) : Valuation τ sig (Elt F) :=
  Pipeline.withArrays spec0 c (W0 m c) fun w => (dat0 (VV0 m) c).arrAt w cfg0.N
theorem W1_arr (c : Dev nD) (w : Fin cfg0.W) :
    W1 m c (Proc.devRef .tc (Pipeline.arrRef spec0 w)) = (dat0 (VV0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references: what the second region is entered with. -/
abbrev VV1 : (c : Dev nD) → (b : Ref sig .tc) → Buf (Elt F) ((c : Thread nD τ).loc b) := fun c b => W1 m c b
theorem hF0 (c : Dev nD) (w : Fin cfg0.W) : (dat0 (VV0 m) c).arrAt w cfg0.N = VV1 m c (Pipeline.arrRef spec0 w) :=
  (W1_arr m c w).symm
theorem hrest0 (c : Dev nD) : ∀ b, b ∉ Finset.univ.image (Pipeline.arrRef spec0) → VV1 m c b = VV0 m c b :=
  fun b hb => W1_of_ne m c b fun w e => hb (Finset.mem_image.mpr ⟨w, Finset.mem_univ _, e⟩)

/-- After the second region: the two result columns at what the pipeline leaves, every other buffer as entered. -/
def W2 (c : Dev nD) : Valuation τ sig (Elt F) :=
  Function.update (Function.update (W1 m c) (Proc.devRef .tc main_v1_0) ((dat1 (VV1 m) c).arrAt 2 cfg1.N))
    (Proc.devRef .tc main_v1_1) ((dat1 (VV1 m) c).arrAt 3 cfg1.N)
/-- After the host operations. -/
abbrev W3 (c : Dev nD) : Valuation τ sig (Elt F) := StableHlo.after hostOps2 (W2 m c)

theorem W2_v1_1 (c : Dev nD) : W2 m c (Proc.devRef .tc main_v1_1) = (dat1 (VV1 m) c).arrAt 3 cfg1.N := by
  unfold W2; exact Function.update_self ..
theorem W2_v1_0 (c : Dev nD) : W2 m c (Proc.devRef .tc main_v1_0) = (dat1 (VV1 m) c).arrAt 2 cfg1.N := by
  unfold W2
  rw [Function.update_of_ne (StableHlo.devRef_ne_of_ne (by decide) : (Proc.devRef .tc main_v1_0 : DevRef τ sig) ≠ Proc.devRef .tc main_v1_1)]
  exact Function.update_self ..
theorem W2_of_ne (c : Dev nD) (b : Ref sig .tc) (h0 : b ≠ main_v1_0) (h1 : b ≠ main_v1_1) :
    W2 m c (Proc.devRef .tc b) = W1 m c (Proc.devRef .tc b) := by
  unfold W2
  rw [Function.update_of_ne (StableHlo.devRef_ne_of_ne h1 : (Proc.devRef .tc b : DevRef τ sig) ≠ Proc.devRef .tc main_v1_1),
    Function.update_of_ne (StableHlo.devRef_ne_of_ne h0 : (Proc.devRef .tc b : DevRef τ sig) ≠ Proc.devRef .tc main_v1_0)]

/-! ## The proof data family and the thread state -/

abbrev admH : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) admH p) c
  | ⟨0, _⟩ => fun c => dat0 (VV0 m) c
  | ⟨1, _⟩ => fun c => dat1 (VV1 m) c
abbrev 𝒱₀ : Variants := Variants.none
abbrev LL : GSem nD τ sig → Finset Unit := fun _ => ∅
abbrev lvv : GSem nD τ sig → Unit → ℕ := fun _ _ => 0
/-- What rides beside the buffers through every segment: the generator register at some state, nothing owed. -/
abbrev RR (c : Dev nD) : sProp 𝕄 := iprop((∃ r, prngReg c r) ∗ ∃ W, owes (c : Thread nD τ) (0 : CellTallies nD τ sig Unit) W)

theorem hostOps2_fresh : (hostOps2 : List (HloOp τ sig (Elt F))).Forall fun op => op.fresh = ∅ := by
  simp only [List.Forall]; repeat' constructor

/-- The host operations as a segment, from the contents the second region leaves. -/
abbrev hseg2 : Pipeline.HostSeg (Name := ℕ) (U := UR sig nD τ) (pcfgs (F := F)) defs₀ 𝒱₀ LL lvv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m) RR

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The first region as a segment -/

set_option backward.isDefEq.respectTransparency.types false in
/-- The first region: entered from every unscoped buffer at the launch contents, left at W1. Its two arrays are split
    out of the unscoped buffers and put back at the exit contents; the generator register goes into the class invariant
    and comes back; nothing is owed. -/
def reg0 : Pipeline.RegionSeg (pcfgs (F := F)) admH (pdats m) () defs₀ 𝒱₀ LL lvv 0 where
  win := launch0.win.to₀
  block_pos := launch0.block_pos
  stage_whole := launch0.stage_whole
  K := PEmpty
  osem k := k.elim
  ho := Pipeline.OwnSemFacts.none _
  hbody c := (body_obligation0 (VV0 m) c).loose
  hwaits := Pipeline.hwaits_of_owed_zero _ _ _ _ LL lvv 0 fun _ _ => rfl
  pre c := iprop(StableHlo.held (c : Thread nD τ) (Pipeline.ucRefs τ sig) (W0 m c) ∗ RR c)
  post c := iprop(StableHlo.held (c : Thread nD τ) (Pipeline.ucRefs τ sig) (W1 m c) ∗ RR c)
  X c := iprop(∃ r, prngReg c r)
  Y c := iprop(∃ r, prngReg c r)
  Z c := Pipeline.unscopedRest (Ix := Unit) (Name := ℕ) (U := UR sig nD τ) (Lvl := ℕ) spec0 c (VV0 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (VV0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (VV0 m c) (VV1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region as a segment -/

/-- The core's ten unscoped buffers, one by one: the three the second region's windows read or write, then the rest. -/
theorem ub_eq (c : Dev nD) (Vb : (b : Ref sig .tc) → Buf (Elt F) ((c : Thread nD τ).loc b)) :
    (unscopedBufs c Vb : sProp 𝕄)
      = iprop((((c : Thread nD τ).loc main_v0) ↦{fullShare} Vb main_v0) ∗ (((c : Thread nD τ).loc main_v1_0) ↦{fullShare} Vb main_v1_0) ∗ (((c : Thread nD τ).loc main_v1_1) ↦{fullShare} Vb main_v1_1)
          ∗ (((c : Thread nD τ).loc main_arg0) ↦{fullShare} Vb main_arg0) ∗ (((c : Thread nD τ).loc main_v2) ↦{fullShare} Vb main_v2) ∗ (((c : Thread nD τ).loc main_cst) ↦{fullShare} Vb main_cst) ∗ (((c : Thread nD τ).loc main_v3) ↦{fullShare} Vb main_v3) ∗ (((c : Thread nD τ).loc main_cst_0) ↦{fullShare} Vb main_cst_0) ∗ (((c : Thread nD τ).loc main_v4) ↦{fullShare} Vb main_v4) ∗ (((c : Thread nD τ).loc main_v5) ↦{fullShare} Vb main_v5)) := by
  unfold unscopedBufs
  exact bigSep_eq_bigSepL_of_eq [main_v0, main_v1_0, main_v1_1, main_arg0, main_v2, main_cst, main_v3, main_cst_0, main_v4, main_v5] (by decide) (by decide) _

/-- The second region's arrays: the normalised rows twice, in two half shares, and the two result columns whole. -/
theorem arrays1_eq (Vb : (c : Dev nD) → (b : Ref sig .tc) → Buf (Elt F) ((c : Thread nD τ).loc b)) (c : Dev nD)
    (Fa : (w : Fin cfg1.W) → Buf (Elt F) ((cfg1.win w).arr.view.loc (c : Thread nD τ))) :
    ((dat1 Vb c).arrays Fa : sProp 𝕄)
      = iprop((((c : Thread nD τ).loc main_v0) ↦{fullShare.left} Fa 0) ∗ (((c : Thread nD τ).loc main_v0) ↦{fullShare.right} Fa 1) ∗ (((c : Thread nD τ).loc main_v1_0) ↦{fullShare} Fa 2) ∗ (((c : Thread nD τ).loc main_v1_1) ↦{fullShare} Fa 3)) := by
  unfold Dat.arrays
  rw [bigSep_W1, (arr_whole1 0).set_eq_univ, (arr_whole1 2).set_eq_univ, (arr_whole1 3).set_eq_univ]
  rfl

set_option backward.isDefEq.respectTransparency.types false in
/-- The second region: entered from every unscoped buffer at W1, left at W2. The normalised rows are split in two half
    shares for the two input windows and joined again at the exit; the two result columns go in at their entry contents
    and come out at what the write-backs left. -/
def reg1 : Pipeline.RegionSeg (pcfgs (F := F)) admH (pdats m) () defs₀ 𝒱₀ LL lvv 1 where
  win := winFacts₀1
  block_pos := block_pos1
  stage_whole := stage_whole1
  K := PEmpty
  osem k := k.elim
  ho := Pipeline.OwnSemFacts.none _
  hbody c := (body_obligation1 (VV1 m) c).loose
  hwaits := Pipeline.hwaits_of_owed_zero _ _ _ _ LL lvv 1 fun _ _ => rfl
  pre c := iprop(StableHlo.held (c : Thread nD τ) (Pipeline.ucRefs τ sig) (W1 m c) ∗ RR c)
  post c := iprop(StableHlo.held (c : Thread nD τ) (Pipeline.ucRefs τ sig) (W2 m c) ∗ RR c)
  X c := iprop(∃ r, prngReg c r)
  Y c := iprop(∃ r, prngReg c r)
  Z c := Pipeline.unscopedRest (Ix := Unit) (Name := ℕ) (U := UR sig nD τ) (Lvl := ℕ) spec1 c (VV1 m c)
  hentry c := by
    rw [Pipeline.ownSems0_none, ← Pipeline.unscopedBufs_held c (W1 m c), ub_eq c (VV1 m c),
      show (pdats m 1 c) = dat1 (VV1 m) c from rfl, arrays1_eq, unscopedRest1_eq]
    iintro ⟨⟨⟨Hv0, Hv10, Hv11, Hrest⟩, Hp, HO⟩, -, -⟩
    ihave Hh := (pointsTo_share (PosShare.mem_left_op_right fullShare)).1 $$ Hv0
    icases Hh with ⟨HvL, HvR⟩
    imodintro
    isplitl [HvL HvR Hv10 Hv11]
    · isplitl [HvL]; · iexact HvL
      isplitl [HvR]; · iexact HvR
      isplitl [Hv10]; · iexact Hv10
      iexact Hv11
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (admH (F := F) 1).1 ∗ Pipeline.scopedRest spec1 c) : sProp 𝕄)
        ⊢ Pipeline.ΦA spec1 c := by
      unfold Pipeline.ΦA
      iintro ⟨Hp, -, Hr⟩
      isplitl [Hr]; · iexact Hr
      iexact Hp
    exact h.trans (hin1 (VV1 m) c)
  hout c := by
    rw [Pipeline.ownSems0_none]
    have h : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (VV1 m) c).trans h
  hexit c := by
    rw [← Pipeline.unscopedBufs_held c (W2 m c), ub_eq c (fun b => W2 m c b),
      show (pdats m 1 c) = dat1 (VV1 m) c from rfl, arrays1_eq, unscopedRest1_eq,
      (dat1 (VV1 m) c).arrAt_in 0 rfl, (dat1 (VV1 m) c).arrAt_in 1 rfl, A_eq1, A_eq1,
      W2_v1_0, W2_v1_1, W2_of_ne m c main_v0 (by decide) (by decide), W2_of_ne m c main_arg0 (by decide) (by decide), W2_of_ne m c main_v2 (by decide) (by decide), W2_of_ne m c main_cst (by decide) (by decide), W2_of_ne m c main_v3 (by decide) (by decide), W2_of_ne m c main_cst_0 (by decide) (by decide), W2_of_ne m c main_v4 (by decide) (by decide), W2_of_ne m c main_v5 (by decide) (by decide)]
    iintro ⟨⟨HvL, HvR, Hv10, Hv11⟩, HO, HY, Hrest⟩
    ihave Hv0 := (pointsTo_share (PosShare.mem_left_op_right fullShare)).2 $$ [HvL HvR]
    · isplitl [HvL] <;> iassumption
    imodintro
    isplitl [Hv0 Hv10 Hv11 Hrest]
    · isplitl [Hv0]; · iexact Hv0
      isplitl [Hv10]; · iexact Hv10
      isplitl [Hv11]; · iexact Hv11
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) admH (pdats m) () defs₀ 𝒱₀ LL lvv) :=
  [ .region (reg0 m), .region (reg1 m), .host (hseg2 m) ]

theorem main_run (c : Dev nD) : main (F := F) c = Pipeline.Seg.run (segs m) := (main_chain c).trans (by chain_rfl)

set_option backward.isDefEq.respectTransparency.types false in
/-- THE RUN. From any memory with zero counters every weakly fair execution of @main terminates, nothing faulting, and
    every final state holds every unscoped buffer of every core at the last boundary's contents W3. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) admH (pdats m) () cellOf_inj emb₁ defs₀ 𝒱₀ LL lvv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RR c))
    (Tₙ := fun c => StableHlo.held (c : Thread nD τ) (Pipeline.ucRefs τ sig) (W3 m c))
    (hch := ⟨fun _ => .rfl, fun _ => .rfl, fun _ => .rfl, fun c => sep_mono .rfl (by iintro ⟨-, HO⟩; iexact HO)⟩)
    (hinit := by
      refine Pipeline.initEach LL lvv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨Hh, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: the argument array ends as launched. No host operation and no region writes it. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg0) := W2_of_ne m c main_arg0 (by decide) (by decide)
    _ = W0 m c (Proc.devRef .tc main_arg0) := (W1_arr m c 0).trans (((dat0 (VV0 m) c).arrAt_in 0 rfl _).trans (A_eq0 (VV0 m) c 0))
    _ = m ((c : Thread nD τ).loc main_arg0) := rfl

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (W3_main_arg0 m c)) (run_all m ρ)

end Cert.KernelIdeal.Hand

end
-- ==== Proof.Spec.lean ====
/-
  The mathematics of the contrastive loss, with no program in sight.

  For an array `x` of 8192 rows and 1024 features, over the extended reals:
  each row is divided by `max (sqrt (sum of its squares)) eps`; `dot i j` is the inner product of two
  normalised rows; a score is that inner product times the reciprocal temperature; on the diagonal the score
  is replaced by -∞; the positive partner of row `i` is the row half the array away.

  Two ways of taking the log-softmax of a row of masked scores at the partner's column are written down:

  * `kloss`: a running triple (maximum so far, normaliser relative to it, partner's score so far) is pushed
    through the sixteen column blocks of 512 columns, and `lse = m + log l` is read at the end;
  * `rloss`: the whole row's maximum is taken at once, and the shifted scores are exponentiated and summed.

  Both finish with minus the mean over the rows.
-/
import Idealize.ShloMosaic.PureOps.Ideal
import Mathlib

noncomputable section

namespace Cert.Spec

open Idealize.ShloMosaic

/-- An array of 8192 rows and 1024 features. -/
abbrev Arr : Type := Fin 8192 → Fin 1024 → EReal

/-- The reciprocal of the temperature: the exact reciprocal of the binary value of the word for 0.07. -/
def invTemp : EReal := ((134217728 / 9395241 : ℝ) : EReal)

/-- The temperature itself: the binary value of the word for 0.07. -/
def temp : EReal := Ideal.ofBits .f32 0x3D8F5C29#32

/-- The floor under a row's norm. -/
def eps : EReal := Ideal.ofBits .f32 0x322BCC77#32

/-- A row's norm, floored. -/
def nrm (x : Arr) (i : Fin 8192) : EReal := max (Ideal.sqrt (∑ k : Fin 1024, x i k * x i k)) eps

/-- The normalised array. -/
def fn (x : Arr) (i : Fin 8192) (k : Fin 1024) : EReal := Ideal.div (x i k) (nrm x i)

/-- The inner product of two normalised rows. -/
def dot (x : Arr) (i j : Fin 8192) : EReal := ∑ k : Fin 1024, fn x i k * fn x j k

/-- A score: the inner product times the reciprocal temperature. -/
def sco (x : Arr) (i j : Fin 8192) : EReal := dot x i j * invTemp

/-- A masked score: -∞ on the diagonal. -/
def msk (x : Arr) (i j : Fin 8192) : EReal := if i = j then ⊥ else sco x i j

/-- The positive partner of a row: the row half the array away. -/
def lab (i : Fin 8192) : Fin 8192 :=
  if h : i.val < 4096 then ⟨i.val + 4096, by omega⟩ else ⟨i.val - 4096, by omega⟩

/-- Column `b` of column block `n`. -/
def col (n : Fin 16) (b : Fin 512) : Fin 8192 := ⟨n.val * 512 + b.val, by omega⟩

/-- The running triple of one row: the maximum so far, the normaliser relative to it, the partner's score so far. -/
structure St where
  m : EReal
  l : EReal
  p : EReal

/-- Before any column block. -/
def st0 : St := ⟨⊥, 0, 0⟩

/-- The maximum of a row's masked scores over one column block. -/
def blkMax (x : Arr) (i : Fin 8192) (n : Fin 16) : EReal :=
  (Finset.univ : Finset (Fin 512)).fold max ⊥ (fun b => msk x i (col n b))

/-- One column block pushed into the running triple. -/
def step (x : Arr) (i : Fin 8192) (n : Fin 16) (s : St) : St :=
  let m' := max s.m (blkMax x i n)
  ⟨m',
   Ideal.exp (s.m - m') * s.l + ∑ b : Fin 512, Ideal.exp (msk x i (col n b) - m'),
   s.p + ∑ b : Fin 512, (if lab i = col n b then sco x i (col n b) else 0)⟩

/-- The running triple after the first `n` column blocks. -/
def st (x : Arr) (i : Fin 8192) : ℕ → St
  | 0 => st0
  | n + 1 => if h : n < 16 then step x i ⟨n, h⟩ (st x i n) else st x i n

/-- The log of the row's normaliser, as the running triple leaves it. -/
def lse (x : Arr) (i : Fin 8192) : EReal := (st x i 16).m + Ideal.log (st x i 16).l

/-- The partner's score, as the running triple leaves it. -/
def lpos (x : Arr) (i : Fin 8192) : EReal := (st x i 16).p

/-- The loss, block by block: minus the mean of `lpos - lse`. -/
def kloss (x : Arr) : EReal :=
  -(Ideal.div (0 + ∑ i : Fin 8192, (lpos x i - lse x i)) (Ideal.ofBits .f32 0x46000000#32))

/-- The maximum of a whole row of masked scores. -/
def rowMax (x : Arr) (i : Fin 8192) : EReal :=
  (Finset.univ : Finset (Fin 8192)).fold max ⊥ (fun j => msk x i j)

/-- The log-probability of column `j` in row `i`: shifted score minus the log of the sum of the shifted exponentials. -/
def logp (x : Arr) (i j : Fin 8192) : EReal :=
  (msk x i j - rowMax x i) - Ideal.log (0 + ∑ j' : Fin 8192, Ideal.exp (msk x i j' - rowMax x i))

/-- The loss, a whole row at a time: minus the mean of the partner's log-probability. -/
def rloss (x : Arr) : EReal :=
  -(Ideal.div (0 + ∑ i : Fin 8192, logp x i (lab i)) (Ideal.ofBits .f32 0x46000000#32))

end Cert.Spec

end
-- ==== Proof.LibRowOps.lean ====
/-
  Dense two-axis arrays on the extended reals, read at coordinates.

  * keepdims layout: a length-`a` vector as an `[a, 1]` column, and an `[a, 1]` column repeated across `b` columns;
  * a row sum and a row maximum of an `[a, b]` array, kept as a length-`a` vector: the `Fin b`-indexed sum of the row,
    and the fold of `max` over the row from the accumulator's value (the host's reduce over the last axis of a
    rank-3 array likewise);
  * the two products of two-axis arrays a dense layer meets, into a zero accumulator: both operands contracted on
    their SECOND axis, `out (i, j) = Σ k, A (i, k) · B (j, k)`, and both on their FIRST, `out (i, j) = Σ k, A (k, i) · B (k, j)`.
    The dimension numbers enter through four coordinate facts of their index maps, so one statement serves every
    extent;
  * `max b (fold max b f) = fold max b f`: a maximum taken once more with its own starting value.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

open scoped BigOperators

namespace Cert.RowOps

open Idealize.ShloMosaic Idealize.ShloMosaic.ValueIdx

/-! ## Keepdims layout -/

section Layout
variable {α : Type}

/-- A length-`a` vector cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` repeated across `b` columns reads, at `(i, j)`, the column at `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Layout

/-! ## A row's sum and a row's maximum -/

/-- The reduced index `i` with the coordinate `k` of the second axis put back is `(i, k)`. -/
theorem lift_row {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A sum over the second axis of an `[a, b]` array reads, at `i`, the sum of row `i`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_row h i k))

/-- A maximum over the second axis of an `[a, b]` array reads, at `i`, the fold of `max` over row `i` from the
    accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) :=
  (Ideal.multiReduction_maximumf_single src acc h hφ hacc (ix1 i)).trans
    (congrArg (fun f => Finset.fold max (Ideal.ofBits φ acc) f (Finset.univ : Finset (Fin b)))
      (funext fun k => congrArg src (lift_row h i k)))

/-- The reduced index `(a, b)` of a three-axis array with the coordinate `k` of the last axis put back is `(a, b, k)`. -/
theorem lift_last3 {n0 n1 n2 : ℕ} (h : (⟨3, ![n0, n1, n2]⟩ : Shape).Reduces [2] (⟨2, ![n0, n1]⟩ : Shape)) (a : Fin n0) (b : Fin n1)
    (k : Fin ((⟨3, ![n0, n1, n2]⟩ : Shape).size 2)) : h.lift (ix2 a b) k = ix3 a b (⟨k.val, k.isLt⟩ : Fin n2) := by
  funext c; apply Fin.ext
  fin_cases c <;> rfl

/-- The host's reduce with a maximum body over the last axis of a three-axis array reads, at `(a, b)`, the fold of
    `max` over that row from the initial value. -/
theorem hostRowMax3_apply {n0 n1 n2 : ℕ} {u : Shape} (x : FVec Ideal ⟨3, ![n0, n1, n2]⟩ .f32) (init : u.Idx → Ideal .f32)
    (h' : (⟨3, ![n0, n1, n2]⟩ : Shape).ReducesTo [2] ⟨2, ![n0, n1]⟩) (h : (⟨3, ![n0, n1, n2]⟩ : Shape).Reduces [2] ⟨2, ![n0, n1]⟩)
    (hu : 0 < u.numel) (a : Fin n0) (b : Fin n1) :
    Host.reduce FloatOps.maximumf x init h' hu (ix2 a b)
      = (Finset.univ : Finset (Fin n2)).fold max (init (Shape.Idx.first hu)) (fun k => x (ix3 a b k)) :=
  (Host.reduce_eq_fold_single FloatOps.maximumf x init h' h hu (ix2 a b)).trans
    (congrArg (fun f => Finset.fold max (init (Shape.Idx.first hu)) f (Finset.univ : Finset (Fin n2)))
      (funext fun k => congrArg x (lift_last3 h a b k)))

/-- A maximum taken once more with its own starting value is unchanged. -/
theorem max_fold_max {ι : Type} (s : Finset ι) (b : EReal) (f : ι → EReal) :
    max b (s.fold max b f) = s.fold max b f :=
  max_eq_right ((Finset.le_fold_max b).mpr (Or.inl le_rfl))

/-! ## The products of two-axis arrays -/

/-- Both operands contracted on their SECOND axis, into a zero accumulator: `out (i, j) = Σ k, A (i, k) · B (j, k)`. -/
theorem matmul_nt_apply {M K N : ℕ} {φ₁ φ₂ : FTy} (d : DotDims ⟨2, ![M, K]⟩ ⟨2, ![N, K]⟩ ⟨2, ![M, N]⟩)
    (prec : Option ContractPrecision) (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (j 1).val) (hr1 : ∀ j q, (d.rhsIdx j q 1).val = (q ⟨0, by omega⟩).val)
    (A : FVec Ideal ⟨2, ![M, K]⟩ φ₁) (B : FVec Ideal ⟨2, ![N, K]⟩ φ₂) (i : Fin M) (j : Fin N) :
    matmul d prec A B (constant ⟨2, ![M, N]⟩ .f32 0x00000000#32) (ix2 i j) = ∑ k : Fin K, A (ix2 i k) * B (ix2 j k) := by
  refine (Ideal.matmul_constant_zero_apply d prec A B (ix2 i j)).trans ?_
  rw [← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact hl0 _ _
    | ⟨1, _⟩ => exact (hl1 _ _).trans hk)
  have er : d.rhsIdx (ix2 i j) ((contrEquiv1 d K hr hs).symm k) = ix2 j k := funext fun a => Fin.ext (by
    match a with
    | ⟨0, _⟩ => exact hr0 _ _
    | ⟨1, _⟩ => exact (hr1 _ _).trans hk)
  rw [el, er]

/-- Both operands contracted on their FIRST axis, into a zero accumulator: `out (i, j) = Σ k, A (k, i) · B (k, j)`. -/
theorem matmul_tn_apply {M K N : ℕ} {φ₁ φ₂ : FTy} (d : DotDims ⟨2, ![K, M]⟩ ⟨2, ![K, N]⟩ ⟨2, ![M, N]⟩)
    (prec : Option ContractPrecision) (hr : d.contr.rank = 1) (hs : d.contr.size ⟨0, by omega⟩ = K)
    (hl0 : ∀ j q, (d.lhsIdx j q 0).val = (q ⟨0, by omega⟩).val) (hl1 : ∀ j q, (d.lhsIdx j q 1).val = (j 0).val)
    (hr0 : ∀ j q, (d.rhsIdx j q 0).val = (q ⟨0, by omega⟩).val) (hr1 : ∀ j q, (d.rhsIdx j q 1).val = (j 1).val)
    (A : FVec Ideal ⟨2, ![K, M]⟩ φ₁) (B : FVec Ideal ⟨2, ![K, N]⟩ φ₂) (i : Fin M) (j : Fin N) :
    matmul d prec A B (constant ⟨2, ![M, N]⟩ .f32 0x00000000#32) (ix2 i j) = ∑ k : Fin K, A (ix2 k i) * B (ix2 k j) := by
  refine (Ideal.matmul_constant_zero_apply d prec A B (ix2 i j)).trans ?_
  rw [← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 k i := funext fun a => Fin.ext (by
    match a with
    | ⟨0, _⟩ => exact (hl0 _ _).trans hk
    | ⟨1, _⟩ => exact hl1 _ _)
  have er : d.rhsIdx (ix2 i j) ((contrEquiv1 d K hr hs).symm k) = ix2 k j := funext fun a => Fin.ext (by
    match a with
    | ⟨0, _⟩ => exact (hr0 _ _).trans hk
    | ⟨1, _⟩ => exact hr1 _ _)
  rw [el, er]

end Cert.RowOps

end
-- ==== Proof.PayAt.lean ====
/-
  The kernel's payloads read at an index, on the extended reals.

  Each value a kernel body stores is a pure function of the values it loaded. Here each is read at one
  index: the row normalisation (a row divided by the floored square root of its sum of squares), the block
  of scores (inner products of rows times the reciprocal temperature), the diagonal mask and the partner
  pick (integer comparisons of a global row number with a global column number), and the running maximum,
  normaliser and log-sum-exp updates of one column block.
-/
import proofs.«169672_j32564442038466_2_alg».proof.Proof.Gen.KernelIdeal.Skeleton
import proofs.«169672_j32564442038466_2_alg».proof.Proof.Spec
import proofs.«169672_j32564442038466_2_alg».proof.Proof.LibRowOps
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.PayAt

open Idealize.ShloMosaic Idealize.ShloMosaic.ValueIdx Cert.KernelIdeal Cert.KernelIdeal.Gen

/-! ## The unary operations at an index, and the constants -/

section Unary
variable {s : Shape} {φ : FTy}

/-- A square root at an index is the square root of the element … -/
theorem sqrt_apply (a : FVec Ideal s φ) (i : s.Idx) : sqrt a i = Ideal.sqrt (a i) := rfl
/-- … an exponential the exponential … -/
theorem exp_apply (a : FVec Ideal s φ) (i : s.Idx) : exp a i = Ideal.exp (a i) := rfl
/-- … and a logarithm the logarithm of the element. -/
theorem log_apply (a : FVec Ideal s φ) (i : s.Idx) : log a i = Ideal.log (a i) := rfl

end Unary

/-- The word of minus infinity is the bottom extended real. -/
theorem ofBits_neg_inf : Ideal.ofBits .f32 0xFF800000#32 = (⊥ : EReal) := by
  simp [Ideal.ofBits, Ideal.ieee]

/-- The reciprocal temperature, by the table of named constants. -/
theorem inv_temp : Named.named (F := Ideal) κ "inv_temp" (φ := .f32) 0x41649249#32 = Cert.Spec.invTemp :=
  IdealRules.named_const.ideal_named_scalar _ _ _ _ rfl

/-- The mask value, by the table of named constants: minus infinity. -/
theorem neg_big : Named.named (F := Ideal) κ "neg_big" (φ := .f32) 0xFF333332#32 = (⊥ : EReal) :=
  IdealRules.named_const.ideal_named_scalar _ _ _ _ rfl

/-! ## The payloads that only copy, add a logarithm, or splat a constant -/

theorem pay1 (v : FVec Ideal S2048x1 .f32) : k1_pay1 (F := Ideal) v = v := by
  unfold k1_pay1
  exact shapeCast_self v _

theorem pay4 (S : FVec Ideal S2048x512 .f32) (M : Vec Ideal S2048x1 .f32) : k1_pay4 (F := Ideal) S M = k1_pay2 (F := Ideal) S M := by
  unfold k1_pay4
  exact shapeCast_self _ _

theorem pay5 (M L : Vec Ideal S2048x1 .f32) (r : Fin 2048) : k1_pay5 (F := Ideal) M L (ix2 r 0) = M (ix2 r 0) + Ideal.log (L (ix2 r 0)) := by
  unfold k1_pay5
  rfl

theorem pay6 (r : Fin 2048) : k1_pay6 (F := Ideal) (ix2 r 0) = (⊥ : EReal) := by
  unfold k1_pay6
  rw [shapeCast_self]
  exact ofBits_neg_inf

theorem pay7 (r : Fin 2048) : k1_pay7 (F := Ideal) (ix2 r 0) = (0 : EReal) := by
  unfold k1_pay7
  rw [shapeCast_self]
  exact Ideal.ofBits_zero_f32

theorem pay8 (r : Fin 2048) : k1_pay8 (F := Ideal) (ix2 r 0) = (0 : EReal) := by
  unfold k1_pay8
  rw [shapeCast_self]
  exact Ideal.ofBits_zero_f32

/-! ## The row normalisation -/

theorem pay0 (v0 : Vec Ideal S1024x1024 .f32) (p q : Fin 1024) :
    k0_pay1 (F := Ideal) v0 (ix2 p q)
      = Ideal.div (v0 (ix2 p q)) (max (Ideal.sqrt (∑ k : Fin 1024, v0 (ix2 p k) * v0 (ix2 p k))) Cert.Spec.eps) := by
  unfold k0_pay1
  dsimp only
  rw [truncf_apply, divf_apply, RowOps.broadcastTo_a1_ab_apply, maximumf_apply, broadcast_apply, sqrt_apply,
    RowOps.shapeCast_a_a1_apply]
  refine congrArg (fun t => Ideal.div (v0 (ix2 p q)) (max (Ideal.sqrt t) _)) ?_
  exact RowOps.rowSum_apply _ _ _ _ _ p

/-! ## One column block pushed into the running maximum and normaliser -/

theorem pay2 (S : FVec Ideal S2048x512 .f32) (M : Vec Ideal S2048x1 .f32) (r : Fin 2048) :
    k1_pay2 (F := Ideal) S M (ix2 r 0)
      = max (M (ix2 r 0)) ((Finset.univ : Finset (Fin 512)).fold max (⊥ : EReal) (fun b => S (ix2 r b))) := by
  unfold k1_pay2
  dsimp only
  rw [maximumf_apply, RowOps.shapeCast_a_a1_apply]
  refine congrArg (fun t => max (M (ix2 r 0)) t) ?_
  refine (RowOps.rowMax_apply _ _ _ _ _ r).trans ?_
  rw [ofBits_neg_inf]

theorem pay3 (S : FVec Ideal S2048x512 .f32) (M M' L : Vec Ideal S2048x1 .f32) (r : Fin 2048) :
    k1_pay3 (F := Ideal) S M M' L (ix2 r 0)
      = Ideal.exp (M' (ix2 r 0) - k1_pay2 (F := Ideal) S M (ix2 r 0)) * L (ix2 r 0)
        + ∑ b : Fin 512, Ideal.exp (S (ix2 r b) - k1_pay2 (F := Ideal) S M (ix2 r 0)) := by
  unfold k1_pay3
  dsimp only
  rw [shapeCast_self, addf_apply, mulf_apply, exp_apply, subf_apply, RowOps.shapeCast_a_a1_apply]
  refine congrArg (fun t => Ideal.exp (M' (ix2 r 0) - k1_pay2 (F := Ideal) S M (ix2 r 0)) * L (ix2 r 0) + t) ?_
  refine (RowOps.rowSum_apply _ _ _ _ _ r).trans ?_
  refine Finset.sum_congr rfl fun b _ => ?_
  rw [exp_apply, subf_apply, RowOps.broadcastTo_a1_ab_apply]

/-! ## The block of scores -/

/-- The dimension numbers of the scores' product: both operands contracted on their second axis. -/
theorem dot_rank : dot_S2048x1024_S512x1024_S2048x512_1_1_0_0_n_n.contr.rank = 1 := rfl

theorem pay9 (Q : Vec Ideal S2048x1024 .bf16) (K : Vec Ideal S512x1024 .bf16) (r : Fin 2048) (b : Fin 512) :
    k1_pay9 (F := Ideal) Q K (ix2 r b) = (∑ k : Fin 1024, Q (ix2 r k) * K (ix2 b k)) * Cert.Spec.invTemp := by
  unfold k1_pay9
  rw [mulf_apply, broadcast_apply, inv_temp, shapeCast_self, shapeCast_self]
  refine congrArg (fun t => t * Cert.Spec.invTemp) ?_
  refine RowOps.matmul_nt_apply dot_S2048x1024_S512x1024_S2048x512_1_1_0_0_n_n none rfl rfl ?_ ?_ ?_ ?_ Q K r b
  · intro j q
    unfold DotDims.lhsIdx
    rw [dif_neg (show ¬(0 : Fin S2048x1024.rank) ∈ dot_S2048x1024_S512x1024_S2048x512_1_1_0_0_n_n.lhsBatch by decide),
      dif_pos (show (0 : Fin S2048x1024.rank) ∈ dot_S2048x1024_S512x1024_S2048x512_1_1_0_0_n_n.lhsNonContracting by decide)]
    rfl
  · intro j q
    exact dot_S2048x1024_S512x1024_S2048x512_1_1_0_0_n_n.lhsIdx_val_of_single rfl j q
  · intro j q
    unfold DotDims.rhsIdx
    rw [dif_neg (show ¬(0 : Fin S512x1024.rank) ∈ dot_S2048x1024_S512x1024_S2048x512_1_1_0_0_n_n.rhsBatch by decide),
      dif_pos (show (0 : Fin S512x1024.rank) ∈ dot_S2048x1024_S512x1024_S2048x512_1_1_0_0_n_n.rhsNonContracting by decide)]
    rfl
  · intro j q
    exact dot_S2048x1024_S512x1024_S2048x512_1_1_0_0_n_n.rhsIdx_val_of_single rfl j q

/-! ## Words of small numbers -/

section Words
variable {s : Shape} {w : ℕ}

/-- An integer comparison at an index compares the elements … -/
theorem cmpi_apply (p : CmpIPredicate) (x y : IVec s w) (i : s.Idx) : cmpi p x y i = IntOp.cmpi p (x i) (y i) := rfl
/-- … an integer sum adds them … -/
theorem addi_apply (x y : IVec s w) (i : s.Idx) : addi x y i = IntOp.addi (x i) (y i) := rfl
/-- … and an integer difference subtracts them. -/
theorem subi_apply (x y : IVec s w) (i : s.Idx) : subi x y i = IntOp.subi (x i) (y i) := rfl

end Words

/-- A float word read as a scalar is the extended real it encodes. -/
theorem scalar_ofBits (φ : FTy) (b : BitVec φ.bits) : Scalar.ofBits (F := Ideal) φ b = Ideal.ofBits φ b := rfl

/-- Two words of numbers below 2³² are equal only if the numbers are. -/
theorem ofNat_inj32 {x y : ℕ} (hx : x < 2 ^ 32) (hy : y < 2 ^ 32) (h : BitVec.ofNat 32 x = BitVec.ofNat 32 y) : x = y := by
  have := congrArg BitVec.toNat h
  rwa [BitVec.toNat_ofNat, BitVec.toNat_ofNat, Nat.mod_eq_of_lt hx, Nat.mod_eq_of_lt hy] at this

/-- A select on the equality of two such words is the `if` on the equality of the numbers. -/
theorem select_eq_ofNat {α : Type} {x y : ℕ} (hx : x < 2 ^ 32) (hy : y < 2 ^ 32) (A B : α) :
    Scalar.select (IntOp.cmpi .eq (BitVec.ofNat 32 x) (BitVec.ofNat 32 y)) A B = if x = y then A else B := by
  by_cases h : x = y
  · subst h
    have hc : IntOp.cmpi .eq (BitVec.ofNat 32 x) (BitVec.ofNat 32 x) = 1#1 := by
      show BitVec.ofBool (BitVec.ofNat 32 x == BitVec.ofNat 32 x) = 1#1
      rw [beq_self_eq_true]; rfl
    rw [hc, select_one, if_pos rfl]
  · have h' : ¬BitVec.ofNat 32 x = BitVec.ofNat 32 y := fun e => h (ofNat_inj32 hx hy e)
    have hc : IntOp.cmpi .eq (BitVec.ofNat 32 x) (BitVec.ofNat 32 y) = 0#1 := by
      show BitVec.ofBool (BitVec.ofNat 32 x == BitVec.ofNat 32 y) = 0#1
      rw [beq_eq_false_iff_ne.mpr h']; rfl
    rw [hc, select_zero, if_neg h]

/-- The partner of a row in the lower half is the row 4096 further on … -/
theorem lab_lo {x : ℕ} (hx : x < 8192) (h : x < 4096) : (Cert.Spec.lab ⟨x, hx⟩).val = x + 4096 := by
  unfold Cert.Spec.lab
  rw [dif_pos (show (⟨x, hx⟩ : Fin 8192).val < 4096 from h)]
/-- … and of a row in the upper half the row 4096 before. -/
theorem lab_hi {x : ℕ} (hx : x < 8192) (h : ¬x < 4096) : (Cert.Spec.lab ⟨x, hx⟩).val = x - 4096 := by
  unfold Cert.Spec.lab
  rw [dif_neg (show ¬(⟨x, hx⟩ : Fin 8192).val < 4096 from h)]

/-- The partner's row number as the words compute it: a signed comparison with 4096, then 4096 added or taken away. -/
theorem lab_word {x : ℕ} (hx : x < 8192) :
    Scalar.select (IntOp.cmpi .slt (BitVec.ofNat 32 x) 4096#32) (IntOp.addi (BitVec.ofNat 32 x) 4096#32)
        (IntOp.subi (BitVec.ofNat 32 x) 4096#32)
      = BitVec.ofNat 32 (Cert.Spec.lab ⟨x, hx⟩).val := by
  have hx32 : x < 2 ^ 32 := by omega
  have hnx : (BitVec.ofNat 32 x).toNat = x := by rw [BitVec.toNat_ofNat, Nat.mod_eq_of_lt hx32]
  have htx : (BitVec.ofNat 32 x).toInt = (x : ℤ) := by
    rw [BitVec.toInt_eq_toNat_of_lt (by rw [hnx]; omega), hnx]
  have ht4 : (4096#32 : BitVec 32).toInt = 4096 := by decide
  have hslt : (BitVec.ofNat 32 x).slt 4096#32 = decide (x < 4096) := by
    rw [BitVec.slt_eq_decide, htx, ht4]
    exact decide_eq_decide.mpr ⟨fun h => by omega, fun h => by omega⟩
  by_cases h : x < 4096
  · have hc : IntOp.cmpi .slt (BitVec.ofNat 32 x) 4096#32 = 1#1 := by
      show BitVec.ofBool ((BitVec.ofNat 32 x).slt 4096#32) = 1#1
      rw [hslt, decide_eq_true h]; rfl
    rw [hc, select_one, lab_lo hx h]
    show BitVec.ofNat 32 x + BitVec.ofNat 32 4096 = _
    rw [← BitVec.ofNat_add]
  · have hc : IntOp.cmpi .slt (BitVec.ofNat 32 x) 4096#32 = 0#1 := by
      show BitVec.ofBool ((BitVec.ofNat 32 x).slt 4096#32) = 0#1
      rw [hslt, decide_eq_false h]; rfl
    rw [hc, select_zero, lab_hi hx h]
    show BitVec.ofNat 32 x - BitVec.ofNat 32 4096 = _
    rw [BitVec.ofNat_sub_ofNat_of_le x 4096 (by decide) (by omega)]

/-! ## The global row and column numbers -/

/-- Row `r` of row block `i 0` has global number `(i 0) · 2048 + r`, as a word. -/
theorem pay10_apply (i : grid1.Coords) (r : Fin 2048) (u : Fin 1) :
    k1_pay10 i (ix2 r u) = BitVec.ofNat 32 ((i 0).val * 2048 + r.val) := by
  unfold k1_pay10
  show IntOp.addi (Scalar.muli (BitVec.ofNat 32 (i 0).val) 2048#32) (iota .tc S2048x1 32 [0] iota_S2048x1_d0_w32 (ix2 r u)) = _
  rw [iota_single_apply]
  show BitVec.ofNat 32 (i 0).val * BitVec.ofNat 32 2048 + BitVec.ofNat 32 r.val = _
  rw [← BitVec.ofNat_mul, ← BitVec.ofNat_add]

/-- Column `b` of column block `i 1` has global number `(i 1) · 512 + b`, as a word. -/
theorem pay11_apply (i : grid1.Coords) (u : Fin 1) (b : Fin 512) :
    k1_pay11 i (ix2 u b) = BitVec.ofNat 32 ((i 1).val * 512 + b.val) := by
  unfold k1_pay11
  show IntOp.addi (Scalar.muli (BitVec.ofNat 32 (i 1).val) 512#32) (iota .tc S1x512 32 [1] iota_S1x512_d1_w32 (ix2 u b)) = _
  rw [iota_single_apply]
  show BitVec.ofNat 32 (i 1).val * BitVec.ofNat 32 512 + BitVec.ofNat 32 b.val = _
  rw [← BitVec.ofNat_mul, ← BitVec.ofNat_add]

/-! ## The diagonal mask and the partner's score -/

theorem pay12 (i : grid1.Coords) (a : Fin 4) (n : Fin 16) (ha : (i 0).val = a.val) (hn : (i 1).val = n.val)
    (Q : Vec Ideal S2048x1024 .bf16) (K : Vec Ideal S512x1024 .bf16) (r : Fin 2048) (b : Fin 512) :
    k1_pay12 (F := Ideal) i Q K (ix2 r b)
      = if a.val * 2048 + r.val = n.val * 512 + b.val then (⊥ : EReal) else k1_pay9 (F := Ideal) Q K (ix2 r b) := by
  unfold k1_pay12
  rw [select_apply, cmpi_apply, broadcast_apply, neg_big, RowOps.broadcastTo_a1_ab_apply, broadcastTo_1b_ab_apply,
    pay10_apply, pay11_apply, ha, hn]
  exact select_eq_ofNat (by have := a.isLt; have := r.isLt; omega) (by have := n.isLt; have := b.isLt; omega) _ _

theorem pay13 (i : grid1.Coords) (a : Fin 4) (n : Fin 16) (ha : (i 0).val = a.val) (hn : (i 1).val = n.val)
    (Q : Vec Ideal S2048x1024 .bf16) (K : Vec Ideal S512x1024 .bf16) (P : Vec Ideal S2048x1 .f32) (r : Fin 2048) :
    k1_pay13 (F := Ideal) i Q K P (ix2 r 0)
      = P (ix2 r 0) + ∑ b : Fin 512,
          (if (Cert.Spec.lab ⟨a.val * 2048 + r.val, by have := a.isLt; have := r.isLt; omega⟩).val = n.val * 512 + b.val
            then k1_pay9 (F := Ideal) Q K (ix2 r b) else 0) := by
  have hx : a.val * 2048 + r.val < 8192 := by have := a.isLt; have := r.isLt; omega
  unfold k1_pay13
  rw [addf_apply, RowOps.shapeCast_a_a1_apply]
  refine congrArg (fun t => P (ix2 r 0) + t) ?_
  refine (RowOps.rowSum_apply _ _ _ _ _ r).trans ?_
  refine Finset.sum_congr rfl fun b _ => ?_
  rw [select_apply, cmpi_apply, broadcast_apply, RowOps.broadcastTo_a1_ab_apply, broadcastTo_1b_ab_apply, pay11_apply,
    select_apply, cmpi_apply, addi_apply, subi_apply, broadcast_apply, pay10_apply, ha, hn, lab_word hx, scalar_ofBits,
    Ideal.ofBits_zero_f32]
  exact select_eq_ofNat (by have := (Cert.Spec.lab ⟨a.val * 2048 + r.val, hx⟩).isLt; omega)
    (by have := n.isLt; have := b.isLt; omega) _ _

end Cert.PayAt

end
-- ==== Proof.Final0.lean ====
/-
  The first region's result as one function of the argument array.

  At grid point t the region writes back rows t·1024 … t·1024 + 1023 of its result, each entry the argument's entry
  divided by the floored norm of its row; the eight points' row blocks fill the result array. So the result array
  ends holding the normalised array, entry by entry, and the argument array ends as it was entered.
-/
import proofs.«169672_j32564442038466_2_alg».proof.Proof.R0
import proofs.«169672_j32564442038466_2_alg».proof.Proof.PayAt
import proofs.«169672_j32564442038466_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-! ## The normalised array, and one block of it -/

/-- The normalised array: every entry over the floored norm of its row. -/
def G0 (X : S8192x1024.Idx → EReal) : S8192x1024.Idx → EReal :=
  fun j => Cert.Spec.fn (fun i' k' => X (ix2 i' k')) ⟨(j 0).val, idx2_lt0 j⟩ ⟨(j 1).val, idx2_lt1 j⟩

/-- At coordinates it is the mathematics' normalised entry. -/
theorem G0_apply (X : S8192x1024.Idx → EReal) (i : Fin 8192) (k : Fin 1024) :
    G0 X (ix2 i k) = Cert.Spec.fn (fun i' k' => X (ix2 i' k')) i k := rfl

/-- The zero offsets of the whole-block rectangle. -/
theorem zero_offsets : (![0, 0] : Fin 2 → Nat) = fun _ => 0 := funext fun a => by fin_cases a <;> rfl

/-- The body's one whole-block store of the payload of its whole-block load leaves the payload of the block. -/
theorem out0_1_eq (x0 : Vec Ideal S1024x1024 .f32) : out0_1 (F := Ideal) x0 = k0_pay1 (F := Ideal) x0 := by
  unfold out0_1
  rw [View.canon_unit_zero zero_offsets, View.ld_unit_zero (S := S1024x1024) zero_offsets]

/-- A block of 1024 rows normalised is the same rows of the normalised array: when the block `x0` is rows
    `T·1024 …` of `X`, its payload at `y` is the normalised array at the entry `i` that `y` sits at. -/
theorem norm_block_apply (X : S8192x1024.Idx → EReal) (x0 : Vec Ideal S1024x1024 .f32) (T : ℕ) (hT : T < 8)
    (y : S1024x1024.Idx) (i : S8192x1024.Idx)
    (hx : ∀ p q : Fin 1024, x0 (ix2 p q) = X (ix2 (⟨T * 1024 + p.val, by have := p.isLt; omega⟩ : Fin 8192) q))
    (hi0 : (i 0).val = T * 1024 + (y 0).val) (hi1 : (i 1).val = (y 1).val) :
    k0_pay1 (F := Ideal) x0 y = G0 X i := by
  obtain ⟨p, q, rfl⟩ : ∃ (p q : Fin 1024), y = ix2 p q := ⟨y 0, y 1, eq_ix2 y⟩
  have hi : i = ix2 (⟨T * 1024 + p.val, by have := p.isLt; omega⟩ : Fin 8192) q := by
    funext a; apply Fin.ext
    match a with
    | ⟨0, _⟩ => exact hi0
    | ⟨1, _⟩ => exact hi1
  rw [hi, Cert.PayAt.pay0, G0_apply]
  unfold Cert.Spec.fn Cert.Spec.nrm
  simp only [hx]

/-! ## The blocks of the two windows -/

/-- Both windows' block at point t is block row t, block column 0. -/
theorem block_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point t writes back is rows t·1024 … of the normalised array. -/
theorem flushed_rows (c : Dev nD) (t : Fin cfg0.N) :
    (dat0 (F := Ideal) V c).flushed 1 t = ((cfg0.win 1).blk t).view.read (Elt Ideal) (G0 (V c main_arg0)) := by
  show (cfg0.win 1).cut (grid0.coords t) ((dat0 (F := Ideal) V c).after 1 t) = _
  rw [after0_1]
  obtain ⟨e0, e1, e2, e3⟩ := block_index t
  have hN : cfg0.N = 8 := N_0
  have ht : t.val < 8 := by have := t.isLt; omega
  funext j
  show out0_1 (F := Ideal) (iblk0 V c 0 t) j = G0 (V c main_arg0) (((cfg0.win 1).blk t).view.emb j)
  refine (congrFun (out0_1_eq (iblk0 V c 0 t)) j).trans ?_
  refine norm_block_apply (V c main_arg0) (iblk0 V c 0 t) t.val ht j _ ?_ ?_ ?_
  · intro p q
    show V c main_arg0 (((cfg0.win 0).blk t).view.emb (ix2 p q)) = V c main_arg0 (ix2 (⟨t.val * 1024 + p.val, _⟩ : Fin 8192) q)
    refine congrArg _ (funext fun a => Fin.ext ?_)
    match a with
    | ⟨0, _⟩ => show win0_0.index t (0 : Fin 2) * 1024 + 1 * p.val = t.val * 1024 + p.val; omega
    | ⟨1, _⟩ => show win0_0.index t (1 : Fin 2) * 1024 + 1 * q.val = q.val; omega
  · show win0_1.index t (0 : Fin 2) * 1024 + 1 * (j 0).val = t.val * 1024 + (j 0).val; omega
  · show win0_1.index t (1 : Fin 2) * 1024 + 1 * (j 1).val = (j 1).val; omega

/-- An entry of the array is in point t's block iff each coordinate is in the block's range on its axis. -/
theorem mem_rows (t : Fin cfg0.N) (i : S8192x1024.Idx) :
    i ∈ ((cfg0.win 1).blk t).view.set ↔ ∀ a : Fin 2, win0_1.index t a * S1024x1024.size a ≤ (i a).val ∧ (i a).val < win0_1.index t a * S1024x1024.size a + S1024x1024.size a := by
  show i ∈ ((View.whole main_v0).slice (win0_1.rect t)).set ↔ _
  rw [View.set_slice_whole, Rect.mem_set_unit]
  exact Iff.rfl

/-- Every entry is in some point's block: row r in the block of point r / 1024. -/
theorem rows_cover (i : S8192x1024.Idx) : ∃ t : Fin cfg0.N, (cfg0.win 1).flush t = true ∧ i ∈ ((cfg0.win 1).blk t).view.set := by
  have hi0 : (i 0).val < 8192 := (i 0).isLt
  have hi1 : (i 1).val < 1024 := (i 1).isLt
  have hN : cfg0.N = 8 := N_0
  have hlt : (i 0).val / 1024 < cfg0.N := by rw [hN]; omega
  obtain ⟨e0, e1, e2, e3⟩ := block_index ⟨(i 0).val / 1024, hlt⟩
  have e2' : win0_1.index ⟨(i 0).val / 1024, hlt⟩ (0 : Fin 2) = (i 0).val / 1024 := e2
  refine ⟨⟨(i 0).val / 1024, hlt⟩, flush0_1 _, ?_⟩
  rw [mem_rows]
  intro a
  match a with
  | ⟨0, _⟩ =>
    show win0_1.index ⟨(i 0).val / 1024, hlt⟩ (0 : Fin 2) * 1024 ≤ (i 0).val ∧ (i 0).val < win0_1.index ⟨(i 0).val / 1024, hlt⟩ (0 : Fin 2) * 1024 + 1024
    omega
  | ⟨1, _⟩ =>
    show win0_1.index ⟨(i 0).val / 1024, hlt⟩ (1 : Fin 2) * 1024 ≤ (i 1).val ∧ (i 1).val < win0_1.index ⟨(i 0).val / 1024, hlt⟩ (1 : Fin 2) * 1024 + 1024
    omega

/-! ## The arrays after the region -/

/-- The result array ends holding the normalised array. -/
theorem final0 (c : Dev nD) : (dat0 (F := Ideal) V c).arrAt 1 cfg0.N = G0 (V c main_arg0) :=
  (dat0 (F := Ideal) V c).arrAt_eq_of_cover 1 (G0 (V c main_arg0)) (fun t _ => flushed_rows V c t) rows_cover

theorem final0_apply (V : (c : Dev nD) → (b : Ref sig .tc) → Buf (Elt Ideal) ((c : Thread nD τ).loc b)) (c : Dev nD) (i : Fin 8192) (k : Fin 1024) :
    ((dat0 (F := Ideal) V c).arrAt 1 cfg0.N : S8192x1024.Idx → EReal) (ix2 i k)
      = Cert.Spec.fn (fun i' k' => (V c main_arg0 : S8192x1024.Idx → EReal) (ix2 i' k')) i k :=
  (congrFun (final0 V c) (ix2 i k)).trans (G0_apply _ i k)

/-- The argument array ends as it was entered: the region only fetches it. -/
theorem final0_in (V : (c : Dev nD) → (b : Ref sig .tc) → Buf (Elt Ideal) ((c : Thread nD τ).loc b)) (c : Dev nD) :
    (dat0 (F := Ideal) V c).arrAt 0 cfg0.N = V c main_arg0 :=
  ((dat0 (F := Ideal) V c).arrAt_in 0 rfl _).trans (A_eq0 V c 0)

end Cert.KernelIdeal.Hand

end
-- ==== Proof.StepAt.lean ====
/-
  One column block pushed into the running triple: the kernel's three stored values, read at a row, are the
  three components of the specification's step.

  At grid point (a, n) row r of the block of rows is row a * 2048 + r of the array, and column b of the block of
  columns is column n * 512 + b. With the two operands holding the normalised rows, the block of scores at (r, b)
  is the score of that row against that column; the diagonal mask compares the two global numbers, and so does
  the partner pick. The new maximum, the rescaled normaliser plus the block's weights, and the partner's score
  added in are then the step's, component by component.
-/
import proofs.«169672_j32564442038466_2_alg».proof.Proof.PayAt
import proofs.«169672_j32564442038466_2_alg».proof.Proof.Spec

noncomputable section

open scoped BigOperators

namespace Cert.StepAt

open Idealize.ShloMosaic Idealize.ShloMosaic.ValueIdx Cert.KernelIdeal Cert.KernelIdeal.Gen

/-- Row r of the block of rows a, as a row of the array. -/
def rowOf (a : Fin 4) (r : Fin 2048) : Fin 8192 := ⟨a.val * 2048 + r.val, by omega⟩

section block

variable (x : Cert.Spec.Arr) (i : grid1.Coords) (a : Fin 4) (n : Fin 16)
  (Q : Vec Ideal S2048x1024 .bf16) (K : Vec Ideal S512x1024 .bf16)

/-- The block of scores at (r, b) is the score of row a * 2048 + r against column n * 512 + b. -/
theorem sco_at
    (hQ : ∀ (r : Fin 2048) (k : Fin 1024), Q (ix2 r k) = Cert.Spec.fn x (rowOf a r) k)
    (hK : ∀ (b : Fin 512) (k : Fin 1024), K (ix2 b k) = Cert.Spec.fn x (Cert.Spec.col n b) k)
    (r : Fin 2048) (b : Fin 512) :
    k1_pay9 (F := Ideal) Q K (ix2 r b) = Cert.Spec.sco x (rowOf a r) (Cert.Spec.col n b) := by
  refine (Cert.PayAt.pay9 Q K r b).trans ?_
  unfold Cert.Spec.sco Cert.Spec.dot
  refine congrArg (fun t => t * Cert.Spec.invTemp) ?_
  exact Finset.sum_congr rfl fun k _ => by rw [hQ r k, hK b k]

/-- The masked block of scores at (r, b) is the masked score. -/
theorem msk_at (ha : (i 0).val = a.val) (hn : (i 1).val = n.val)
    (hQ : ∀ (r : Fin 2048) (k : Fin 1024), Q (ix2 r k) = Cert.Spec.fn x (rowOf a r) k)
    (hK : ∀ (b : Fin 512) (k : Fin 1024), K (ix2 b k) = Cert.Spec.fn x (Cert.Spec.col n b) k)
    (r : Fin 2048) (b : Fin 512) :
    k1_pay12 (F := Ideal) i Q K (ix2 r b) = Cert.Spec.msk x (rowOf a r) (Cert.Spec.col n b) := by
  refine (Cert.PayAt.pay12 i a n ha hn Q K r b).trans ?_
  rw [sco_at x a n Q K hQ hK r b]
  unfold Cert.Spec.msk
  by_cases h : a.val * 2048 + r.val = n.val * 512 + b.val
  · rw [if_pos h, if_pos (show rowOf a r = Cert.Spec.col n b from Fin.ext h)]
  · rw [if_neg h, if_neg (show ¬ rowOf a r = Cert.Spec.col n b from fun h' => h (congrArg Fin.val h'))]

end block

theorem step_at (x : Cert.Spec.Arr) (i : grid1.Coords) (a : Fin 4) (n : Fin 16)
    (ha : (i 0).val = a.val) (hn : (i 1).val = n.val)
    (Q : Vec Ideal S2048x1024 .bf16) (K : Vec Ideal S512x1024 .bf16)
    (hQ : ∀ (r : Fin 2048) (k : Fin 1024), Q (ix2 r k) = Cert.Spec.fn x (rowOf a r) k)
    (hK : ∀ (b : Fin 512) (k : Fin 1024), K (ix2 b k) = Cert.Spec.fn x (Cert.Spec.col n b) k)
    (M L P : Vec Ideal S2048x1 .f32) (s : Cert.Spec.St) (r : Fin 2048)
    (hM : M (ix2 r 0) = s.m) (hL : L (ix2 r 0) = s.l) (hP : P (ix2 r 0) = s.p) :
    k1_pay4 (F := Ideal) (k1_pay12 (F := Ideal) i Q K) M (ix2 r 0) = (Cert.Spec.step x (rowOf a r) n s).m
    ∧ k1_pay3 (F := Ideal) (k1_pay12 (F := Ideal) i Q K) M M L (ix2 r 0) = (Cert.Spec.step x (rowOf a r) n s).l
    ∧ k1_pay1 (F := Ideal) (k1_pay13 (F := Ideal) i Q K P) (ix2 r 0) = (Cert.Spec.step x (rowOf a r) n s).p := by
  have hS : ∀ b : Fin 512, k1_pay12 (F := Ideal) i Q K (ix2 r b) = Cert.Spec.msk x (rowOf a r) (Cert.Spec.col n b) :=
    msk_at x i a n Q K ha hn hQ hK r
  have h2 : k1_pay2 (F := Ideal) (k1_pay12 (F := Ideal) i Q K) M (ix2 r 0)
      = max s.m (Cert.Spec.blkMax x (rowOf a r) n) := by
    refine (Cert.PayAt.pay2 _ M r).trans ?_
    rw [hM]
    unfold Cert.Spec.blkMax
    exact congrArg (fun f : Fin 512 → EReal => max s.m ((Finset.univ : Finset (Fin 512)).fold max ⊥ f)) (funext hS)
  refine ⟨?_, ?_, ?_⟩
  · rw [Cert.PayAt.pay4]
    exact h2
  · refine (Cert.PayAt.pay3 _ M M L r).trans ?_
    rw [h2, hM, hL]
    show _ = Ideal.exp (s.m - max s.m (Cert.Spec.blkMax x (rowOf a r) n)) * s.l
      + ∑ b : Fin 512, Ideal.exp (Cert.Spec.msk x (rowOf a r) (Cert.Spec.col n b) - max s.m (Cert.Spec.blkMax x (rowOf a r) n))
    refine congrArg (fun t => Ideal.exp (s.m - max s.m (Cert.Spec.blkMax x (rowOf a r) n)) * s.l + t) ?_
    exact Finset.sum_congr rfl fun b _ => by rw [hS b]
  · rw [Cert.PayAt.pay1]
    refine (Cert.PayAt.pay13 i a n ha hn Q K P r).trans ?_
    rw [hP]
    show _ = s.p + ∑ b : Fin 512,
      (if Cert.Spec.lab (rowOf a r) = Cert.Spec.col n b then Cert.Spec.sco x (rowOf a r) (Cert.Spec.col n b) else 0)
    refine congrArg (fun t => s.p + t) ?_
    refine Finset.sum_congr rfl fun b _ => ?_
    rw [sco_at x a n Q K hQ hK r b]
    by_cases h : (Cert.Spec.lab (rowOf a r)).val = n.val * 512 + b.val
    · rw [if_pos (show (Cert.Spec.lab ⟨a.val * 2048 + r.val, _⟩).val = n.val * 512 + b.val from h),
        if_pos (show Cert.Spec.lab (rowOf a r) = Cert.Spec.col n b from Fin.ext h)]
    · rw [if_neg (show ¬ (Cert.Spec.lab ⟨a.val * 2048 + r.val, _⟩).val = n.val * 512 + b.val from h),
        if_neg (show ¬ Cert.Spec.lab (rowOf a r) = Cert.Spec.col n b from fun h' => h (congrArg Fin.val h'))]

end Cert.StepAt

end
-- ==== Proof.Final1.lean ====
/-
  The second region's two result columns as functions of the row.

  Each result column has 8192 rows in four blocks of 2048. The block of rows a is written back once, at the last of
  the sixteen points of that row block, from what the body left in the column's buffer there. So when that buffer, at
  each such point, holds a function of the row, the column ends holding that function at every row; and the array
  behind the two input windows ends as it was entered.
-/
import proofs.«169672_j32564442038466_2_alg».proof.Proof.R1
import proofs.«169672_j32564442038466_2_alg».proof.Proof.Spec
import proofs.«169672_j32564442038466_2_alg».proof.Proof.StepAt
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.StepAt

variable (V : (c : Dev nD) → (b : Ref sig .tc) → Buf (Elt Ideal) ((c : Thread nD τ).loc b))

/-! ## A column from a function of the row, and one block of it -/

/-- The column whose entry in row i is `L i`. -/
def colOf (L : Fin 8192 → EReal) : S8192x1.Idx → EReal := fun j => L ⟨(j 0).val, idx2_lt0 j⟩

/-- At coordinates it is the function at the row. -/
theorem colOf_apply (L : Fin 8192 → EReal) (i : Fin 8192) (u : Fin 1) : colOf L (ix2 i u) = L i := rfl

/-- A block of 2048 rows that holds `L` at the rows of row block `A` is those rows of the column: its entry at `y`
    is the column's at the entry `i` that `y` sits at. -/
theorem col_block_apply (L : Fin 8192 → EReal) (o : Vec Ideal S2048x1 .f32) (A : Fin 4)
    (ho : ∀ r : Fin 2048, o (ix2 r 0) = L (rowOf A r))
    (y : S2048x1.Idx) (i : S8192x1.Idx) (hi0 : (i 0).val = A.val * 2048 + (y 0).val) :
    o y = colOf L i := by
  obtain ⟨r, u, rfl⟩ : ∃ (r : Fin 2048) (u : Fin 1), y = ix2 r u := ⟨y 0, y 1, eq_ix2 y⟩
  obtain rfl : u = 0 := Subsingleton.elim _ _
  rw [ho r]
  exact congrArg L (Fin.ext hi0.symm)

/-! ## The blocks of the two output windows -/

/-- Both output windows' block at point t is block row t / 16, block column 0. -/
theorem block_index1 : ∀ t : Fin cfg1.N, win1_2.index t (0 : Fin 2) = t.val / 16 ∧ win1_2.index t (1 : Fin 2) = 0
    ∧ win1_3.index t (0 : Fin 2) = t.val / 16 ∧ win1_3.index t (1 : Fin 2) = 0 :=
  (by decide +kernel : ∀ t : Fin grid1.N, _)

/-- The row block of a point. -/
abbrev rowBlock (t : Fin cfg1.N) : Fin 4 := ⟨t.val / 16, by have := t.isLt; have : cfg1.N = 64 := N_1; omega⟩

section Columns
variable (c : Dev nD) (L2 L3 : Fin 8192 → EReal)
  (hout : ∀ (t : Fin cfg1.N) (h15 : t.val % 16 = 15) (r : Fin 2048),
    (outsAt1 (F := Ideal) V c t.val t.isLt).o2 (ix2 r 0) = L2 (rowOf (rowBlock t) r)
    ∧ (outsAt1 (F := Ideal) V c t.val t.isLt).o3 (ix2 r 0) = L3 (rowOf (rowBlock t) r))
include hout

/-- What a point that writes the first column back writes is its row block's rows of the column. -/
theorem flushed_col2 (t : Fin cfg1.N) (hf : (cfg1.win 2).flush t = true) :
    (dat1 (F := Ideal) V c).flushed 2 t = ((cfg1.win 2).blk t).view.read (Elt Ideal) (colOf L2) := by
  have h15 : t.val % 16 = 15 := (flush1_2 t).mp hf
  show (cfg1.win 2).cut (grid1.coords t) ((dat1 (F := Ideal) V c).after 2 t) = _
  rw [after1_2]
  obtain ⟨e0, e1, e2, e3⟩ := block_index1 t
  funext j
  show (outsAt1 (F := Ideal) V c t.val t.isLt).o2 j = colOf L2 (((cfg1.win 2).blk t).view.emb j)
  refine col_block_apply L2 _ (rowBlock t) (fun r => (hout t h15 r).1) j _ ?_
  show win1_2.index t (0 : Fin 2) * 2048 + 1 * (j 0).val = t.val / 16 * 2048 + (j 0).val
  omega

/-- The same for the second column. -/
theorem flushed_col3 (t : Fin cfg1.N) (hf : (cfg1.win 3).flush t = true) :
    (dat1 (F := Ideal) V c).flushed 3 t = ((cfg1.win 3).blk t).view.read (Elt Ideal) (colOf L3) := by
  have h15 : t.val % 16 = 15 := (flush1_3 t).mp hf
  show (cfg1.win 3).cut (grid1.coords t) ((dat1 (F := Ideal) V c).after 3 t) = _
  rw [after1_3]
  obtain ⟨e0, e1, e2, e3⟩ := block_index1 t
  funext j
  show (outsAt1 (F := Ideal) V c t.val t.isLt).o3 j = colOf L3 (((cfg1.win 3).blk t).view.emb j)
  refine col_block_apply L3 _ (rowBlock t) (fun r => (hout t h15 r).2) j _ ?_
  show win1_3.index t (0 : Fin 2) * 2048 + 1 * (j 0).val = t.val / 16 * 2048 + (j 0).val
  omega

end Columns

/-- An entry of the first column is in point t's block iff each coordinate is in the block's range on its axis. -/
theorem mem_rows2 (t : Fin cfg1.N) (i : S8192x1.Idx) :
    i ∈ ((cfg1.win 2).blk t).view.set ↔ ∀ a : Fin 2, win1_2.index t a * S2048x1.size a ≤ (i a).val ∧ (i a).val < win1_2.index t a * S2048x1.size a + S2048x1.size a := by
  show i ∈ ((View.whole main_v1_0).slice (win1_2.rect t)).set ↔ _
  rw [View.set_slice_whole, Rect.mem_set_unit]
  exact Iff.rfl

/-- The same for the second column. -/
theorem mem_rows3 (t : Fin cfg1.N) (i : S8192x1.Idx) :
    i ∈ ((cfg1.win 3).blk t).view.set ↔ ∀ a : Fin 2, win1_3.index t a * S2048x1.size a ≤ (i a).val ∧ (i a).val < win1_3.index t a * S2048x1.size a + S2048x1.size a := by
  show i ∈ ((View.whole main_v1_1).slice (win1_3.rect t)).set ↔ _
  rw [View.set_slice_whole, Rect.mem_set_unit]
  exact Iff.rfl

/-- The point that writes back the row block of row r: the last of that row block's sixteen. -/
theorem last_point_lt (i : S8192x1.Idx) : (i 0).val / 2048 * 16 + 15 < cfg1.N := by
  have hi0 : (i 0).val < 8192 := (i 0).isLt
  have hN : cfg1.N = 64 := N_1
  omega

/-- Every entry of the first column is in the block of a point that writes it back. -/
theorem rows_cover2 (i : S8192x1.Idx) : ∃ t : Fin cfg1.N, (cfg1.win 2).flush t = true ∧ i ∈ ((cfg1.win 2).blk t).view.set := by
  have hi0 : (i 0).val < 8192 := (i 0).isLt
  have hi1 : (i 1).val < 1 := (i 1).isLt
  obtain ⟨e0, e1, e2, e3⟩ := block_index1 ⟨(i 0).val / 2048 * 16 + 15, last_point_lt i⟩
  have e0' : win1_2.index ⟨(i 0).val / 2048 * 16 + 15, last_point_lt i⟩ (0 : Fin 2) = ((i 0).val / 2048 * 16 + 15) / 16 := e0
  refine ⟨⟨(i 0).val / 2048 * 16 + 15, last_point_lt i⟩, (flush1_2 _).mpr (show ((i 0).val / 2048 * 16 + 15) % 16 = 15 by omega), ?_⟩
  rw [mem_rows2]
  intro a
  match a with
  | ⟨0, _⟩ =>
    show win1_2.index ⟨(i 0).val / 2048 * 16 + 15, last_point_lt i⟩ (0 : Fin 2) * 2048 ≤ (i 0).val ∧ (i 0).val < win1_2.index ⟨(i 0).val / 2048 * 16 + 15, last_point_lt i⟩ (0 : Fin 2) * 2048 + 2048
    omega
  | ⟨1, _⟩ =>
    show win1_2.index ⟨(i 0).val / 2048 * 16 + 15, last_point_lt i⟩ (1 : Fin 2) * 1 ≤ (i 1).val ∧ (i 1).val < win1_2.index ⟨(i 0).val / 2048 * 16 + 15, last_point_lt i⟩ (1 : Fin 2) * 1 + 1
    omega

/-- The same for the second column. -/
theorem rows_cover3 (i : S8192x1.Idx) : ∃ t : Fin cfg1.N, (cfg1.win 3).flush t = true ∧ i ∈ ((cfg1.win 3).blk t).view.set := by
  have hi0 : (i 0).val < 8192 := (i 0).isLt
  have hi1 : (i 1).val < 1 := (i 1).isLt
  obtain ⟨e0, e1, e2, e3⟩ := block_index1 ⟨(i 0).val / 2048 * 16 + 15, last_point_lt i⟩
  have e2' : win1_3.index ⟨(i 0).val / 2048 * 16 + 15, last_point_lt i⟩ (0 : Fin 2) = ((i 0).val / 2048 * 16 + 15) / 16 := e2
  refine ⟨⟨(i 0).val / 2048 * 16 + 15, last_point_lt i⟩, (flush1_3 _).mpr (show ((i 0).val / 2048 * 16 + 15) % 16 = 15 by omega), ?_⟩
  rw [mem_rows3]
  intro a
  match a with
  | ⟨0, _⟩ =>
    show win1_3.index ⟨(i 0).val / 2048 * 16 + 15, last_point_lt i⟩ (0 : Fin 2) * 2048 ≤ (i 0).val ∧ (i 0).val < win1_3.index ⟨(i 0).val / 2048 * 16 + 15, last_point_lt i⟩ (0 : Fin 2) * 2048 + 2048
    omega
  | ⟨1, _⟩ =>
    show win1_3.index ⟨(i 0).val / 2048 * 16 + 15, last_point_lt i⟩ (1 : Fin 2) * 1 ≤ (i 1).val ∧ (i 1).val < win1_3.index ⟨(i 0).val / 2048 * 16 + 15, last_point_lt i⟩ (1 : Fin 2) * 1 + 1
    omega

/-! ## The arrays after the region -/

theorem final1 (V : (c : Dev nD) → (b : Ref sig .tc) → Buf (Elt Ideal) ((c : Thread nD τ).loc b)) (c : Dev nD) (L2 L3 : Fin 8192 → EReal)
    (hout : ∀ (t : Fin cfg1.N) (h15 : t.val % 16 = 15) (r : Fin 2048),
      (outsAt1 (F := Ideal) V c t.val t.isLt).o2 (ix2 r 0) = L2 (rowOf ⟨t.val / 16, by have := t.isLt; have : cfg1.N = 64 := N_1; omega⟩ r)
      ∧ (outsAt1 (F := Ideal) V c t.val t.isLt).o3 (ix2 r 0) = L3 (rowOf ⟨t.val / 16, by have := t.isLt; have : cfg1.N = 64 := N_1; omega⟩ r))
    (i : Fin 8192) :
    ((dat1 (F := Ideal) V c).arrAt 2 cfg1.N : S8192x1.Idx → EReal) (ix2 i 0) = L2 i
    ∧ ((dat1 (F := Ideal) V c).arrAt 3 cfg1.N : S8192x1.Idx → EReal) (ix2 i 0) = L3 i := by
  have h2 : (dat1 (F := Ideal) V c).arrAt 2 cfg1.N = colOf L2 :=
    (dat1 (F := Ideal) V c).arrAt_eq_of_cover 2 (colOf L2) (fun t hf => flushed_col2 V c L2 L3 hout t hf) rows_cover2
  have h3 : (dat1 (F := Ideal) V c).arrAt 3 cfg1.N = colOf L3 :=
    (dat1 (F := Ideal) V c).arrAt_eq_of_cover 3 (colOf L3) (fun t hf => flushed_col3 V c L2 L3 hout t hf) rows_cover3
  exact ⟨(congrFun h2 (ix2 i 0)).trans (colOf_apply L2 i 0), (congrFun h3 (ix2 i 0)).trans (colOf_apply L3 i 0)⟩

/-- The array behind the first input window ends as it was entered: the region only fetches it. -/
theorem final1_in0 (V : (c : Dev nD) → (b : Ref sig .tc) → Buf (Elt Ideal) ((c : Thread nD τ).loc b)) (c : Dev nD) :
    (dat1 (F := Ideal) V c).arrAt 0 cfg1.N = V c main_v0 :=
  ((dat1 (F := Ideal) V c).arrAt_in 0 rfl _).trans (A_eq1 V c 0)

/-- And so does the array behind the second: the same array. -/
theorem final1_in1 (V : (c : Dev nD) → (b : Ref sig .tc) → Buf (Elt Ideal) ((c : Thread nD τ).loc b)) (c : Dev nD) :
    (dat1 (F := Ideal) V c).arrAt 1 cfg1.N = V c main_v0 :=
  ((dat1 (F := Ideal) V c).arrAt_in 1 rfl _).trans (A_eq1 V c 1)

end Cert.KernelIdeal.Hand

end
-- ==== Proof.Acc1.lean ====
/-
  The second region's buffers, point by point, are the specification's running triple.

  Point t of the grid is row block t / 16 and column block t % 16. Whatever the case of the point, the three scratch
  columns it leaves are the kernel's three stored values over the point's two input blocks and the triple it started
  from: the reset values at column block 0, what the point before left otherwise. The input blocks are rows
  (t / 16) * 2048 + r and (t % 16) * 512 + b of the normalised array, so at row r the three values are one step of
  the specification's running triple of row (t / 16) * 2048 + r at column block t % 16; by induction over the points
  the scratch columns after point t hold that row's triple after t % 16 + 1 blocks. At column block 15 the two
  output columns are m + log l and the partner's score of the triple after all sixteen blocks.
-/
import proofs.«169672_j32564442038466_2_alg».proof.Proof.R1
import proofs.«169672_j32564442038466_2_alg».proof.Proof.StepAt
import proofs.«169672_j32564442038466_2_alg».proof.Proof.PayAt
import proofs.«169672_j32564442038466_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.StepAt

/-! ## The pieces each case stores, as values -/

section pieces

variable {F : FTy → Type} [FloatOps F] [Named F]

theorem hz2 : (![0, 0] : Fin 2 → Nat) = fun _ => 0 := funext fun a => by fin_cases a <;> rfl

/-- Column blocks 1 to 14: each scratch column is stored once, the stored value computed from the loaded blocks and
    the columns as found. -/
theorem pieceB (c : Dev nD) (i : grid1.Coords) (arg2 : Memref sig .tc .vmem S2048x1024 .bf16) (harg2 : arg2.IsWhole) (arg3 : Memref sig .tc .vmem S512x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (hc0 : ¬cond1_0 i) (hc1 : ¬cond1_1 i)
    (x0 : Vec F S2048x1024 .bf16) (x1 : Vec F S512x1024 .bf16) (xs0 xs1 xs2 : Vec F S2048x1 .f32) :
    View.canon (kernelRun1_B (F := F) c i arg2 harg2 arg3 harg3 arg4 harg4 arg5 harg5 arg6 harg6 arg7 harg7 arg8 harg8 hc0 hc1 x0 x1 xs0 xs1 xs2).1 = k1_pay4 (k1_pay12 i x0 x1) xs0
    ∧ View.canon (kernelRun1_B (F := F) c i arg2 harg2 arg3 harg3 arg4 harg4 arg5 harg5 arg6 harg6 arg7 harg7 arg8 harg8 hc0 hc1 x0 x1 xs0 xs1 xs2).2.1 = k1_pay3 (k1_pay12 i x0 x1) xs0 xs0 xs1
    ∧ View.canon (kernelRun1_B (F := F) c i arg2 harg2 arg3 harg3 arg4 harg4 arg5 harg5 arg6 harg6 arg7 harg7 arg8 harg8 hc0 hc1 x0 x1 xs0 xs1 xs2).2.2.1 = k1_pay1 (k1_pay13 i x0 x1 xs2) := by
  unfold kernelRun1_B
  dsimp only
  sl_unfold_words
  refine ⟨?_, ?_, ?_⟩
  all_goals (rw [View.canon_unit_zero hz2])
  all_goals (simp only [View.readAt_eq_ld, harg2.read_unread, harg3.read_unread, harg4.read_unread, harg5.read_unread, harg6.read_unread, harg7.read_unread, harg8.read_unread, View.ld_unit_zero (S := S2048x1) hz2, View.ld_unit_zero (S := S2048x1024) hz2, View.ld_unit_zero (S := S512x1024) hz2])
  all_goals (first | rfl | trivial)

/-- Column block 0: each scratch column is first reset, then read back and stored as at any other point; the last
    store is what the column holds. -/
theorem pieceA (c : Dev nD) (i : grid1.Coords) (arg2 : Memref sig .tc .vmem S2048x1024 .bf16) (harg2 : arg2.IsWhole) (arg3 : Memref sig .tc .vmem S512x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (hc0 : cond1_0 i) (hc1 : ¬cond1_1 i)
    (x0 : Vec F S2048x1024 .bf16) (x1 : Vec F S512x1024 .bf16) :
    View.canon (kernelRun1_A (F := F) c i arg2 harg2 arg3 harg3 arg4 harg4 arg5 harg5 arg6 harg6 arg7 harg7 arg8 harg8 hc0 hc1 x0 x1).1 = k1_pay4 (k1_pay12 i x0 x1) k1_pay6
    ∧ View.canon (kernelRun1_A (F := F) c i arg2 harg2 arg3 harg3 arg4 harg4 arg5 harg5 arg6 harg6 arg7 harg7 arg8 harg8 hc0 hc1 x0 x1).2.1 = k1_pay3 (k1_pay12 i x0 x1) k1_pay6 k1_pay6 k1_pay7
    ∧ View.canon (kernelRun1_A (F := F) c i arg2 harg2 arg3 harg3 arg4 harg4 arg5 harg5 arg6 harg6 arg7 harg7 arg8 harg8 hc0 hc1 x0 x1).2.2.1 = k1_pay1 (k1_pay13 i x0 x1 k1_pay8) := by
  unfold kernelRun1_A
  dsimp only
  sl_unfold_words
  refine ⟨?_, ?_, ?_⟩
  all_goals (rw [View.canon_cons_unit_zero (S := S2048x1) hz2])
  all_goals (try simp only [View.readCov_unit_zero (S := S2048x1) _ hz2])
  all_goals (simp only [View.readAt_eq_ld, harg2.read_unread, harg3.read_unread, harg4.read_unread, harg5.read_unread, harg6.read_unread, harg7.read_unread, harg8.read_unread, View.ld_unit_zero (S := S2048x1) hz2, View.ld_unit_zero (S := S2048x1024) hz2, View.ld_unit_zero (S := S512x1024) hz2])
  all_goals (first | rfl | trivial)

/-- Column block 15: the scratch columns as at column blocks 1 to 14, and the two output columns from the scratch
    columns read back after their stores. -/
theorem pieceC (c : Dev nD) (i : grid1.Coords) (arg2 : Memref sig .tc .vmem S2048x1024 .bf16) (harg2 : arg2.IsWhole) (arg3 : Memref sig .tc .vmem S512x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (hc0 : ¬cond1_0 i) (hc1 : cond1_1 i)
    (x0 : Vec F S2048x1024 .bf16) (x1 : Vec F S512x1024 .bf16) (xs0 xs1 xs2 : Vec F S2048x1 .f32) :
    View.canon (kernelRun1_C (F := F) c i arg2 harg2 arg3 harg3 arg4 harg4 arg5 harg5 arg6 harg6 arg7 harg7 arg8 harg8 hc0 hc1 x0 x1 xs0 xs1 xs2).1 = k1_pay5 (k1_pay4 (k1_pay12 i x0 x1) xs0) (k1_pay3 (k1_pay12 i x0 x1) xs0 xs0 xs1)
    ∧ View.canon (kernelRun1_C (F := F) c i arg2 harg2 arg3 harg3 arg4 harg4 arg5 harg5 arg6 harg6 arg7 harg7 arg8 harg8 hc0 hc1 x0 x1 xs0 xs1 xs2).2.1 = k1_pay1 (k1_pay13 i x0 x1 xs2)
    ∧ View.canon (kernelRun1_C (F := F) c i arg2 harg2 arg3 harg3 arg4 harg4 arg5 harg5 arg6 harg6 arg7 harg7 arg8 harg8 hc0 hc1 x0 x1 xs0 xs1 xs2).2.2.1 = k1_pay4 (k1_pay12 i x0 x1) xs0
    ∧ View.canon (kernelRun1_C (F := F) c i arg2 harg2 arg3 harg3 arg4 harg4 arg5 harg5 arg6 harg6 arg7 harg7 arg8 harg8 hc0 hc1 x0 x1 xs0 xs1 xs2).2.2.2.1 = k1_pay3 (k1_pay12 i x0 x1) xs0 xs0 xs1
    ∧ View.canon (kernelRun1_C (F := F) c i arg2 harg2 arg3 harg3 arg4 harg4 arg5 harg5 arg6 harg6 arg7 harg7 arg8 harg8 hc0 hc1 x0 x1 xs0 xs1 xs2).2.2.2.2.1 = k1_pay1 (k1_pay13 i x0 x1 xs2) := by
  unfold kernelRun1_C
  dsimp only
  sl_unfold_words
  refine ⟨?_, ?_, ?_, ?_, ?_⟩
  all_goals (rw [View.canon_unit_zero hz2])
  all_goals (try simp only [View.readCov_unit_zero (S := S2048x1) _ hz2])
  all_goals (simp only [View.readAt_eq_ld, harg2.read_unread, harg3.read_unread, harg4.read_unread, harg5.read_unread, harg6.read_unread, harg7.read_unread, harg8.read_unread, View.ld_unit_zero (S := S2048x1) hz2, View.ld_unit_zero (S := S2048x1024) hz2, View.ld_unit_zero (S := S512x1024) hz2])
  all_goals (first | rfl | trivial)

end pieces

/-! ## The grid's arithmetic -/

theorem coords1 : ∀ t : Fin cfg1.N, ((grid1.coords t) 0).val = t.val / 16 ∧ ((grid1.coords t) 1).val = t.val % 16 :=
  (by decide +kernel : ∀ t : Fin grid1.N, ((grid1.coords t) 0).val = t.val / 16 ∧ ((grid1.coords t) 1).val = t.val % 16)

theorem idx1_0 : ∀ t : Fin cfg1.N, win1_0.index t 0 = t.val / 16 ∧ win1_0.index t 1 = 0 :=
  (by decide +kernel : ∀ t : Fin grid1.N, win1_0.index t 0 = t.val / 16 ∧ win1_0.index t 1 = 0)

theorem idx1_1 : ∀ t : Fin cfg1.N, win1_1.index t 0 = t.val % 16 ∧ win1_1.index t 1 = 0 :=
  (by decide +kernel : ∀ t : Fin grid1.N, win1_1.index t 0 = t.val % 16 ∧ win1_1.index t 1 = 0)

section value

variable (V : (c : Dev nD) → (b : Ref sig .tc) → Buf (Elt Ideal) ((c : Thread nD τ).loc b)) (c : Dev nD)

/-- The row block at point t. -/
abbrev Qb (t : Fin cfg1.N) : Vec Ideal S2048x1024 .bf16 := iblk1 (F := Ideal) V c 0 t
/-- The column block at point t. -/
abbrev Kb (t : Fin cfg1.N) : Vec Ideal S512x1024 .bf16 := iblk1 (F := Ideal) V c 1 t

/-- Row r of the row block at point t is row (t / 16) * 2048 + r of the array. -/
theorem iblk0_at (t : Fin cfg1.N) (r : Fin 2048) (k : Fin 1024) :
    Qb V c t (ix2 r k)
      = (V c main_v0 : S8192x1024.Idx → EReal) (ix2 ⟨t.val / 16 * 2048 + r.val, by have := t.isLt; have : cfg1.N = 64 := N_1; omega⟩ k) := by
  unfold Qb iblk1
  rw [View.read_apply]
  show V c main_v0 _ = V c main_v0 _
  congr 1
  funext a
  apply Fin.ext
  match a with
  | ⟨0, _⟩ =>
    show win1_0.index t 0 * 2048 + 1 * r.val = t.val / 16 * 2048 + r.val
    rw [(idx1_0 t).1]; omega
  | ⟨1, _⟩ =>
    show win1_0.index t 1 * 1024 + 1 * k.val = k.val
    rw [(idx1_0 t).2]; omega

/-- Row b of the column block at point t is row (t % 16) * 512 + b of the array. -/
theorem iblk1_at (t : Fin cfg1.N) (b : Fin 512) (k : Fin 1024) :
    Kb V c t (ix2 b k)
      = (V c main_v0 : S8192x1024.Idx → EReal) (ix2 ⟨t.val % 16 * 512 + b.val, by omega⟩ k) := by
  unfold Kb iblk1
  rw [View.read_apply]
  show V c main_v0 _ = V c main_v0 _
  congr 1
  funext a
  apply Fin.ext
  match a with
  | ⟨0, _⟩ =>
    show win1_1.index t 0 * 512 + 1 * b.val = t.val % 16 * 512 + b.val
    rw [(idx1_1 t).1]; omega
  | ⟨1, _⟩ =>
    show win1_1.index t 1 * 1024 + 1 * k.val = k.val
    rw [(idx1_1 t).2]; omega

/-! ## What each case leaves, as values of the point's blocks -/

theorem outA_vals (t : Fin cfg1.N) (h0 : t.val % 16 = 0) (h1 : ¬t.val % 16 = 15) :
    (outA (F := Ideal) V c t h0 h1).s0 = k1_pay4 (F := Ideal) (k1_pay12 (F := Ideal) (grid1.coords t) (Qb V c t) (Kb V c t)) (k1_pay6 (F := Ideal))
    ∧ (outA (F := Ideal) V c t h0 h1).s1 = k1_pay3 (F := Ideal) (k1_pay12 (F := Ideal) (grid1.coords t) (Qb V c t) (Kb V c t)) (k1_pay6 (F := Ideal)) (k1_pay6 (F := Ideal)) (k1_pay7 (F := Ideal))
    ∧ (outA (F := Ideal) V c t h0 h1).s2 = k1_pay1 (F := Ideal) (k1_pay13 (F := Ideal) (grid1.coords t) (Qb V c t) (Kb V c t) (k1_pay8 (F := Ideal))) := by
  have h := pieceA (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (Qb V c t) (Kb V c t)
  unfold outA
  dsimp only
  refine ⟨?_, ?_, ?_⟩
  · refine (View.read_writes_junk_eq_canon VS1_0 _).trans ?_
    exact h.1
  · refine (View.read_writes_junk_eq_canon VS1_1 _).trans ?_
    exact h.2.1
  · refine (View.read_writes_junk_eq_canon VS1_2 _).trans ?_
    exact h.2.2

theorem outB_vals (t : Fin cfg1.N) (h0 : ¬t.val % 16 = 0) (h1 : ¬t.val % 16 = 15) (p : Outs1 Ideal) :
    (outB (F := Ideal) V c t h0 h1 p).s0 = k1_pay4 (F := Ideal) (k1_pay12 (F := Ideal) (grid1.coords t) (Qb V c t) (Kb V c t)) p.s0
    ∧ (outB (F := Ideal) V c t h0 h1 p).s1 = k1_pay3 (F := Ideal) (k1_pay12 (F := Ideal) (grid1.coords t) (Qb V c t) (Kb V c t)) p.s0 p.s0 p.s1
    ∧ (outB (F := Ideal) V c t h0 h1 p).s2 = k1_pay1 (F := Ideal) (k1_pay13 (F := Ideal) (grid1.coords t) (Qb V c t) (Kb V c t) p.s2) := by
  have h := pieceB (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (Qb V c t) (Kb V c t) p.s0 p.s1 p.s2
  unfold outB
  dsimp only
  refine ⟨?_, ?_, ?_⟩
  · refine (View.read_writes_junk_eq_canon VS1_0 _).trans ?_
    exact h.1
  · refine (View.read_writes_junk_eq_canon VS1_1 _).trans ?_
    exact h.2.1
  · refine (View.read_writes_junk_eq_canon VS1_2 _).trans ?_
    exact h.2.2

theorem outC_vals (t : Fin cfg1.N) (h0 : ¬t.val % 16 = 0) (h1 : t.val % 16 = 15) (p : Outs1 Ideal) :
    (outC (F := Ideal) V c t h0 h1 p).o2 = k1_pay5 (F := Ideal) (k1_pay4 (F := Ideal) (k1_pay12 (F := Ideal) (grid1.coords t) (Qb V c t) (Kb V c t)) p.s0) (k1_pay3 (F := Ideal) (k1_pay12 (F := Ideal) (grid1.coords t) (Qb V c t) (Kb V c t)) p.s0 p.s0 p.s1)
    ∧ (outC (F := Ideal) V c t h0 h1 p).o3 = k1_pay1 (F := Ideal) (k1_pay13 (F := Ideal) (grid1.coords t) (Qb V c t) (Kb V c t) p.s2)
    ∧ (outC (F := Ideal) V c t h0 h1 p).s0 = k1_pay4 (F := Ideal) (k1_pay12 (F := Ideal) (grid1.coords t) (Qb V c t) (Kb V c t)) p.s0
    ∧ (outC (F := Ideal) V c t h0 h1 p).s1 = k1_pay3 (F := Ideal) (k1_pay12 (F := Ideal) (grid1.coords t) (Qb V c t) (Kb V c t)) p.s0 p.s0 p.s1
    ∧ (outC (F := Ideal) V c t h0 h1 p).s2 = k1_pay1 (F := Ideal) (k1_pay13 (F := Ideal) (grid1.coords t) (Qb V c t) (Kb V c t) p.s2) := by
  have h := pieceC (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (Qb V c t) (Kb V c t) p.s0 p.s1 p.s2
  unfold outC
  dsimp only
  refine ⟨?_, ?_, ?_, ?_, ?_⟩
  · refine (View.read_writes_junk_eq_canon VO1_2 _).trans ?_
    exact h.1
  · refine (View.read_writes_junk_eq_canon VO1_3 _).trans ?_
    exact h.2.1
  · refine (View.read_writes_junk_eq_canon VS1_0 _).trans ?_
    exact h.2.2.1
  · refine (View.read_writes_junk_eq_canon VS1_1 _).trans ?_
    exact h.2.2.2.1
  · refine (View.read_writes_junk_eq_canon VS1_2 _).trans ?_
    exact h.2.2.2.2

/-! ## One point is one step of the running triple -/

variable (x : Cert.Spec.Arr)
  (hV : ∀ (i : Fin 8192) (k : Fin 1024), (V c main_v0 : S8192x1024.Idx → EReal) (ix2 i k) = Cert.Spec.fn x i k)

include hV in
theorem hQ_of (t : Fin cfg1.N) (a : Fin 4) (ha : a.val = t.val / 16) (r : Fin 2048) (k : Fin 1024) :
    Qb V c t (ix2 r k) = Cert.Spec.fn x (rowOf a r) k := by
  have e : ∀ hb, (⟨t.val / 16 * 2048 + r.val, hb⟩ : Fin 8192) = rowOf a r := fun hb =>
    Fin.ext (by show t.val / 16 * 2048 + r.val = a.val * 2048 + r.val; rw [ha])
  rw [iblk0_at V c t r k, hV, e]

include hV in
theorem hK_of (t : Fin cfg1.N) (kb : Fin 16) (hk : kb.val = t.val % 16) (b : Fin 512) (k : Fin 1024) :
    Kb V c t (ix2 b k) = Cert.Spec.fn x (Cert.Spec.col kb b) k := by
  have e : ∀ hb, (⟨t.val % 16 * 512 + b.val, hb⟩ : Fin 8192) = Cert.Spec.col kb b := fun hb =>
    Fin.ext (by show t.val % 16 * 512 + b.val = kb.val * 512 + b.val; rw [hk])
  rw [iblk1_at V c t b k, hV, e]

include hV in
/-- The three stored values at point t over a triple s, at row r: the step of row (t / 16) * 2048 + r at column
    block t % 16 from s. -/
theorem point_step (t : Fin cfg1.N) (a : Fin 4) (kb : Fin 16) (ha : a.val = t.val / 16) (hk : kb.val = t.val % 16)
    (M L P : Vec Ideal S2048x1 .f32) (s : Cert.Spec.St) (r : Fin 2048)
    (hM : M (ix2 r 0) = s.m) (hL : L (ix2 r 0) = s.l) (hP : P (ix2 r 0) = s.p) :
    k1_pay4 (F := Ideal) (k1_pay12 (F := Ideal) (grid1.coords t) (Qb V c t) (Kb V c t)) M (ix2 r 0) = (Cert.Spec.step x (rowOf a r) kb s).m
    ∧ k1_pay3 (F := Ideal) (k1_pay12 (F := Ideal) (grid1.coords t) (Qb V c t) (Kb V c t)) M M L (ix2 r 0) = (Cert.Spec.step x (rowOf a r) kb s).l
    ∧ k1_pay1 (F := Ideal) (k1_pay13 (F := Ideal) (grid1.coords t) (Qb V c t) (Kb V c t) P) (ix2 r 0) = (Cert.Spec.step x (rowOf a r) kb s).p :=
  Cert.StepAt.step_at x (grid1.coords t) a kb ((coords1 t).1.trans ha.symm) ((coords1 t).2.trans hk.symm)
    (Qb V c t) (Kb V c t) (hQ_of V c x hV t a ha) (hK_of V c x hV t kb hk) M L P s r hM hL hP

/-- The running triple after one more block. -/
theorem st_succ (i : Fin 8192) (kb : Fin 16) :
    Cert.Spec.st x i (kb.val + 1) = Cert.Spec.step x i kb (Cert.Spec.st x i kb.val) := by
  show (if h : kb.val < 16 then Cert.Spec.step x i ⟨kb.val, h⟩ (Cert.Spec.st x i kb.val) else Cert.Spec.st x i kb.val) = _
  rw [dif_pos kb.isLt]

/-- The scratch columns after a point, at row r, are a running triple s. -/
def Holds (o : Outs1 Ideal) (r : Fin 2048) (s : Cert.Spec.St) : Prop :=
  o.s0 (ix2 r 0) = s.m ∧ o.s1 (ix2 r 0) = s.l ∧ o.s2 (ix2 r 0) = s.p

include hV in
/-- A point of column block 0 leaves the triple after one block. -/
theorem accA (t : Fin cfg1.N) (h0 : t.val % 16 = 0) (a : Fin 4) (ha : a.val = t.val / 16) (r : Fin 2048) :
    Holds (outsAt1 (F := Ideal) V c t.val t.isLt) r (Cert.Spec.st x (rowOf a r) (0 + 1)) := by
  have h1 : ¬t.val % 16 = 15 := by omega
  obtain ⟨e0, e1, e2⟩ := outA_vals V c t h0 h1
  have hs := point_step V c x hV t a ⟨0, by omega⟩ ha h0.symm (k1_pay6 (F := Ideal)) (k1_pay7 (F := Ideal)) (k1_pay8 (F := Ideal))
    Cert.Spec.st0 r (Cert.PayAt.pay6 r) (Cert.PayAt.pay7 r) (Cert.PayAt.pay8 r)
  rw [outsAt1_A V c t h0 h1]
  unfold Holds
  rw [e0, e1, e2]
  exact hs

include hV in
/-- A later point carries the triple one block further. -/
theorem accBC (t : Fin cfg1.N) (h0 : ¬t.val % 16 = 0) (a : Fin 4) (ha : a.val = t.val / 16) (kb : Fin 16)
    (hk : kb.val = t.val % 16) (r : Fin 2048)
    (ih : Holds (outsAt1 (F := Ideal) V c (t.val - 1) (Nat.lt_of_le_of_lt (Nat.sub_le _ _) t.isLt)) r
      (Cert.Spec.st x (rowOf a r) kb.val)) :
    Holds (outsAt1 (F := Ideal) V c t.val t.isLt) r (Cert.Spec.st x (rowOf a r) (kb.val + 1)) := by
  obtain ⟨i0, i1, i2⟩ := ih
  rw [st_succ]
  by_cases h1 : t.val % 16 = 15
  · obtain ⟨_, _, e0, e1, e2⟩ := outC_vals V c t h0 h1 (outsAt1 (F := Ideal) V c (t.val - 1) (Nat.lt_of_le_of_lt (Nat.sub_le _ _) t.isLt))
    rw [outsAt1_C V c t h0 h1]
    unfold Holds
    rw [e0, e1, e2]
    exact point_step V c x hV t a kb ha hk _ _ _ _ r i0 i1 i2
  · obtain ⟨e0, e1, e2⟩ := outB_vals V c t h0 h1 (outsAt1 (F := Ideal) V c (t.val - 1) (Nat.lt_of_le_of_lt (Nat.sub_le _ _) t.isLt))
    rw [outsAt1_B V c t h0 h1]
    unfold Holds
    rw [e0, e1, e2]
    exact point_step V c x hV t a kb ha hk _ _ _ _ r i0 i1 i2

include hV in
theorem acc1_aux (r : Fin 2048) : ∀ (n : ℕ) (hn : n < cfg1.N) (a : Fin 4) (k : ℕ), a.val = n / 16 → k = n % 16 →
    Holds (outsAt1 (F := Ideal) V c n hn) r (Cert.Spec.st x (rowOf a r) (k + 1)) := by
  intro n
  induction n with
  | zero =>
    intro hn a k ha hk
    obtain rfl : k = 0 := hk
    exact accA V c x hV ⟨0, hn⟩ rfl a ha r
  | succ n ih =>
    intro hn a k ha hk
    have hN : cfg1.N = 64 := N_1
    by_cases h0 : (n + 1) % 16 = 0
    · obtain rfl : k = 0 := by omega
      exact accA V c x hV ⟨n + 1, hn⟩ h0 a ha r
    · have hk16 : k < 16 := by omega
      have ih' := ih (Nat.lt_of_succ_lt hn) a (k - 1) (by rw [ha]; omega) (by omega)
      have e : k - 1 + 1 = k := by omega
      rw [e] at ih'
      exact accBC V c x hV ⟨n + 1, hn⟩ h0 a ha ⟨k, hk16⟩ hk r ih'

end value

/-- After point n the three scratch columns hold, at row r, the running triple of row (n / 16) * 2048 + r after
    n % 16 + 1 column blocks. -/
theorem acc1 (V : (c : Dev nD) → (b : Ref sig .tc) → Buf (Elt Ideal) ((c : Thread nD τ).loc b)) (c : Dev nD) (x : Cert.Spec.Arr)
    (hV : ∀ (i : Fin 8192) (k : Fin 1024), (V c main_v0 : S8192x1024.Idx → EReal) (ix2 i k) = Cert.Spec.fn x i k)
    (n : ℕ) (hn : n < cfg1.N) (r : Fin 2048) :
    (outsAt1 (F := Ideal) V c n hn).s0 (ix2 r 0)
        = (Cert.Spec.st x (rowOf ⟨n / 16, by have : cfg1.N = 64 := N_1; omega⟩ r) (n % 16 + 1)).m
    ∧ (outsAt1 (F := Ideal) V c n hn).s1 (ix2 r 0)
        = (Cert.Spec.st x (rowOf ⟨n / 16, by have : cfg1.N = 64 := N_1; omega⟩ r) (n % 16 + 1)).l
    ∧ (outsAt1 (F := Ideal) V c n hn).s2 (ix2 r 0)
        = (Cert.Spec.st x (rowOf ⟨n / 16, by have : cfg1.N = 64 := N_1; omega⟩ r) (n % 16 + 1)).p :=
  acc1_aux V c x hV r n hn ⟨n / 16, by have : cfg1.N = 64 := N_1; omega⟩ (n % 16) rfl rfl

/-- At a point of column block 15 the two output columns hold, at row r, the log of the normaliser and the partner's
    score of row (t / 16) * 2048 + r. -/
theorem out1 (V : (c : Dev nD) → (b : Ref sig .tc) → Buf (Elt Ideal) ((c : Thread nD τ).loc b)) (c : Dev nD) (x : Cert.Spec.Arr)
    (hV : ∀ (i : Fin 8192) (k : Fin 1024), (V c main_v0 : S8192x1024.Idx → EReal) (ix2 i k) = Cert.Spec.fn x i k)
    (t : Fin cfg1.N) (h15 : t.val % 16 = 15) (r : Fin 2048) :
    (outsAt1 (F := Ideal) V c t.val t.isLt).o2 (ix2 r 0)
        = Cert.Spec.lse x (rowOf ⟨t.val / 16, by have := t.isLt; have : cfg1.N = 64 := N_1; omega⟩ r)
    ∧ (outsAt1 (F := Ideal) V c t.val t.isLt).o3 (ix2 r 0)
        = Cert.Spec.lpos x (rowOf ⟨t.val / 16, by have := t.isLt; have : cfg1.N = 64 := N_1; omega⟩ r) := by
  have h0 : ¬t.val % 16 = 0 := by omega
  obtain ⟨hm, hl, hp⟩ := acc1 V c x hV t.val t.isLt r
  rw [h15] at hm hl hp
  rw [outsAt1_C V c t h0 h15] at hm hl hp ⊢
  obtain ⟨e2, e3, e0, e1, es2⟩ := outC_vals V c t h0 h15 (outsAt1 (F := Ideal) V c (t.val - 1) (Nat.lt_of_le_of_lt (Nat.sub_le _ _) t.isLt))
  rw [e0] at hm
  rw [e1] at hl
  rw [es2] at hp
  rw [e2, e3]
  refine ⟨?_, ?_⟩
  · rw [Cert.PayAt.pay5, hm, hl]
    rfl
  · rw [hp]
    rfl

end Cert.KernelIdeal.Hand

end
-- ==== Proof.Tail.lean ====
/-
  The end of the program: the mean of the rows' differences, negated.

  After the two regions the program subtracts the first result column from the second, sums the differences over
  all 8192 rows from zero, divides by 8192 and negates. Read on the extended reals this is minus the quotient of
  zero plus the sum over the rows by the divisor's value.
-/
import proofs.«169672_j32564442038466_2_alg».proof.Proof.Gen.KernelIdeal
import proofs.«169672_j32564442038466_2_alg».proof.Proof.Spec
import Idealize.ShloMosaic.Lib.ValueIdx
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-- The sum of a one-column array over both its axes is the sum over its rows. -/
theorem sum_column (f : S8192x1.Idx → EReal) : ∑ j : S8192x1.Idx, f j = ∑ i : Fin 8192, f (ix2 i 0) := by
  rw [sum_idx2]
  exact Finset.sum_congr rfl fun i _ => Fin.sum_univ_one _

theorem tail_eq (lseA lposA : FVec Ideal S8192x1 .f32) (L2 L3 : Fin 8192 → EReal)
    (h2 : ∀ i : Fin 8192, lseA (ix2 i 0) = L2 i) (h3 : ∀ i : Fin 8192, lposA (ix2 i 0) = L3 i) :
    Host.negf (F := Ideal) (Host.divf (F := Ideal) (Host.reduceAdd (F := Ideal) (subf lposA lseA) (constant (F := Ideal) S_ .f32 0x00000000#32) reducesTo_S8192x1_S_d0_1 h_S_)
        (constant (F := Ideal) S_ .f32 0x46000000#32))
      = (fun _ => -(Ideal.div (0 + ∑ i : Fin 8192, (L3 i - L2 i)) (Ideal.ofBits .f32 0x46000000#32)) : FVec Ideal S_ .f32) := by
  funext j
  show -(Ideal.div (Ideal.hostReduceAdd reducesTo_S8192x1_S_d0_1 (subf lposA lseA) (Ideal.ofBits .f32 0x00000000#32) j)
    (Ideal.ofBits .f32 0x46000000#32)) = _
  rw [Ideal.hostReduceAdd_total reducesTo_S8192x1_S_d0_1 (fun b => b.elim0), Ideal.ofBits_zero_f32, sum_column]
  refine congrArg (fun t => -(Ideal.div (0 + t) (Ideal.ofBits .f32 0x46000000#32))) ?_
  refine Finset.sum_congr rfl fun i _ => ?_
  show lposA (ix2 i 0) - lseA (ix2 i 0) = _
  rw [h2, h3]

/-- With the two columns holding each row's log-normaliser and partner's score, the program ends at the loss. -/
theorem tail_kloss (x : Cert.Spec.Arr) (lseA lposA : FVec Ideal S8192x1 .f32)
    (h2 : ∀ i : Fin 8192, lseA (ix2 i 0) = Cert.Spec.lse x i) (h3 : ∀ i : Fin 8192, lposA (ix2 i 0) = Cert.Spec.lpos x i) :
    Host.negf (F := Ideal) (Host.divf (F := Ideal) (Host.reduceAdd (F := Ideal) (subf lposA lseA) (constant (F := Ideal) S_ .f32 0x00000000#32) reducesTo_S8192x1_S_d0_1 h_S_)
        (constant (F := Ideal) S_ .f32 0x46000000#32))
      = (fun _ => Cert.Spec.kloss x : FVec Ideal S_ .f32) :=
  tail_eq lseA lposA (Cert.Spec.lse x) (Cert.Spec.lpos x) h2 h3

end Cert.KernelIdeal.Hand

end
-- ==== Proof.KernelValue.lean ====
/-
  The idealized kernel's result is the block-by-block loss of its argument.

  After the first region the normalised-rows buffer holds, entry by entry, the specification's normalised array of the
  argument; after the second region the two result columns hold, row by row, what the running triple leaves after its
  sixteen column blocks; the host operations then take minus the mean of their difference. So the result buffer ends
  at the specification's block-by-block loss, and the argument buffer as launched.
-/
import proofs.«169672_j32564442038466_2_alg».proof.Proof.Run
import proofs.«169672_j32564442038466_2_alg».proof.Proof.Final0
import proofs.«169672_j32564442038466_2_alg».proof.Proof.Final1
import proofs.«169672_j32564442038466_2_alg».proof.Proof.Acc1
import proofs.«169672_j32564442038466_2_alg».proof.Proof.Tail

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.StepAt

variable (m : (ℓ : Loc nD τ sig) → Buf (Elt Ideal) ℓ) (ρ : Dev nD → PrngReg)

/-- The argument array of core c as a function of two coordinates. -/
def xOf (c : Dev nD) : Cert.Spec.Arr := fun i k => (m ((c : Thread nD τ).loc main_arg0) : S8192x1024.Idx → EReal) (ix2 i k)

/-- What the second region is entered with in the normalised-rows buffer: the specification's normalised array. -/
theorem rows_eq (c : Dev nD) (i : Fin 8192) (k : Fin 1024) :
    (VV1 (F := Ideal) m c main_v0 : S8192x1024.Idx → EReal) (ix2 i k) = Cert.Spec.fn (xOf m c) i k :=
  (congrFun (W1_arr (F := Ideal) m c 1) (ix2 i k)).trans (final0_apply (VV0 (F := Ideal) m) c i k)

/-- The two result columns after the second region, row by row. -/
theorem cols_eq (c : Dev nD) (i : Fin 8192) :
    ((dat1 (F := Ideal) (VV1 m) c).arrAt 2 cfg1.N : S8192x1.Idx → EReal) (ix2 i 0) = Cert.Spec.lse (xOf m c) i
    ∧ ((dat1 (F := Ideal) (VV1 m) c).arrAt 3 cfg1.N : S8192x1.Idx → EReal) (ix2 i 0) = Cert.Spec.lpos (xOf m c) i :=
  final1 (VV1 m) c (Cert.Spec.lse (xOf m c)) (Cert.Spec.lpos (xOf m c))
    (fun t h15 r => out1 (VV1 m) c (xOf m c) (rows_eq m c) t h15 r) i

/-- The result buffer after the host operations: the block-by-block loss. -/
theorem result_eq (c : Dev nD) :
    W3 (F := Ideal) m c (Proc.devRef .tc main_v5) = (fun _ => Cert.Spec.kloss (xOf m c)) := by
  have e : W3 (F := Ideal) m c (Proc.devRef .tc main_v5)
      = Host.negf (F := Ideal) (Host.divf (F := Ideal) (Host.reduceAdd (F := Ideal)
          (subf (W2 (F := Ideal) m c (Proc.devRef .tc main_v1_1)) (W2 (F := Ideal) m c (Proc.devRef .tc main_v1_0)))
          (constant (F := Ideal) S_ .f32 0x00000000#32) reducesTo_S8192x1_S_d0_1 h_S_) (constant (F := Ideal) S_ .f32 0x46000000#32)) := by
    dsimp only [W3, hostOps2]; after_results
  rw [e, W2_v1_0, W2_v1_1]
  exact tail_kloss (xOf m c) _ _ (fun i => (cols_eq m c i).1) (fun i => (cols_eq m c i).2)

/-- THE KERNEL'S RUN WITH ITS VALUE: every weakly fair execution terminates with the result buffer at the block-by-block
    loss of the argument and the argument buffer as launched. -/
theorem run_value : θ_run defs (onTc (τ := τ) (main (F := Ideal))) ⟨m, fun _ => 0, ρ⟩ (fun r => ∀ c : Dev nD,
      r.2.mem ((c.tc : Thread nD τ).loc main_v5) = (fun _ => Cert.Spec.kloss (xOf m c))
      ∧ r.2.mem ((c.tc : Thread nD τ).loc main_arg0) = m ((c.tc : Thread nD τ).loc main_arg0)) :=
  (θ_run defs _ _).mono (fun _ h c =>
    ⟨(h c _ (mem_uc main_v5 (by decide))).trans (result_eq m c),
     (h c _ (mem_uc main_arg0 (by decide))).trans (W3_main_arg0 m c)⟩) (run_all (F := Ideal) m ρ)

end Cert.KernelIdeal.Hand

end
-- ==== Proof.KR0.lean ====
/-
  (The program as printed, before idealization: the same statements and proofs as for the idealized program, which differs
  from it only in two named constants. Stated for any float instance.)

  The first region: the rows of the argument array are normalised, 1024 rows at a grid point.

  At grid point t the body loads the t-th block of 1024 rows of the argument array, and stores, as the t-th block
  of the region's result, every entry divided by the floored norm of its row. Nothing is kept between points, and
  every point fetches its input block and writes its output block back; so what the output's staging buffer holds
  after the body is one function of the input block, and the region's invariant is the untouched rest of the core.
  Everything here is stated at the contents V the region is entered with, for any float instance.
-/
import proofs.«169672_j32564442038466_2_alg».proof.Proof.Gen.Kernel.Launch
import proofs.«169672_j32564442038466_2_alg».proof.Proof.Gen.Kernel.Skeleton
import proofs.«169672_j32564442038466_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w at point t, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's current staging buffer holds the point's block of rows, for any proof data over the entry contents
    whose body leaves that block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body reads and writes: the whole 1024 × 1024 block. -/
abbrev r0_0 : Rect S1024x1024 := Rect.unit (s := S1024x1024) ![0, 0] S1024x1024.size inb_S1024x1024_S1024x1024_0_0

/-- What the body leaves in the output's staging buffer: its one store, of the normalised block. -/
def out0_1 (x0 : Vec F S1024x1024 .f32) : Vec F S1024x1024 .bf16 :=
  View.canon [⟨r0_0, k0_pay1 (View.ld x0 r0_0)⟩]

/-- That store covers the buffer. -/
theorem cover0_1 (p0 : Vec F S1024x1024 .bf16) (y : S1024x1024.Idx) :
    ∃ pc ∈ ([⟨r0_0, p0⟩] : List (View.Piece (Elt F) S1024x1024 .bf16)), y ∈ pc.1.set :=
  View.cover_of_tiled [⟨r0_0, p0⟩] S1024x1024.size (by rfl) y

set_option maxHeartbeats 1000000 in
/-- The body on whole staging buffers: the input's contents stay, the output's become the normalised block. -/
theorem sound_kernel0 (c : Dev nD) (E : Set ℕ) (i : grid0.Coords) (arg1 : Memref sig .tc .vmem S1024x1024 .f32) (harg1 : arg1.IsWhole) (arg2 : Memref sig .tc .vmem S1024x1024 .bf16) (harg2 : arg2.IsWhole)
    (x0 : Vec F S1024x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The first region's proof data on core c: the arrays as the region finds them; after the body the input's buffer
    still at its block and the output's at the normalised block; the rest of the core untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds the point's block, the rest passes through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the first region, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KR1Runs.lean ====
/-
  (The program as printed, before idealization: the same statements and proofs as for the idealized program, which differs
  from it only in two named constants. Stated for any float instance.)

  The second region, what its three cases share.

  The grid is 4 row blocks of 2048 rows by 16 column blocks of 512 columns, the column block running fastest: point t
  is row block t / 16 and column block t % 16. At every point the body takes the row block's normalised rows (window 0,
  fetched when the row block changes) and the column block's normalised rows (window 1, fetched at every point), and
  updates three scratch columns of 2048 entries, carried from point to point: a running maximum, a running normaliser
  and a running partner score. At column block 0 it first resets them; at column block 15 it also stores the two output
  columns (windows 2 and 3), which are idle and not written back at every other point. So there are three cases:
  A (column block 0), B (column blocks 1 to 14), C (column block 15).
-/
import proofs.«169672_j32564442038466_2_alg».proof.Proof.KR0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w at point t, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block's staging buffer holds the point's row block at every point, fetched there or not: between two
    fetches the row block does not change. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The column block's staging buffer holds the point's column block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions of the body, over the grid -/

/-- "This is column block 0": the condition under which the scratch columns are reset. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- "This is column block 15": the condition under which the two output columns are stored. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_2 : ∀ t : Fin cfg1.N, cond1_1 (grid1.coords t) → cfg1.idle 2 (grid1.coords t) = false := by decide +kernel
theorem liveAt1_3 : ∀ t : Fin cfg1.N, cond1_1 (grid1.coords t) → cfg1.idle 3 (grid1.coords t) = false := by decide +kernel

/-! ## The memrefs the body is called with -/

/-- One staging buffer of each output window, through which its contents are stated. -/
abbrev VO1_2 : View sig .tc .vmem S2048x1 .f32 := (Memref.whole cc1_stg2_0 : Memref sig .tc .vmem S2048x1 .f32).view
abbrev VO1_3 : View sig .tc .vmem S2048x1 .f32 := (Memref.whole cc1_stg3_0 : Memref sig .tc .vmem S2048x1 .f32).view
abbrev ms1_0 (t : Fin cfg1.N) : Memref sig .tc .vmem S2048x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1 .f32 := win1_3.stage (cfg1.slots t 3)
abbrev hs1_3 (t : Fin cfg1.N) : (ms1_3 t).IsWhole := hstage1_3 ((cfg1.slots t 3).cast nbuf1_3)
/-- The three scratch columns: the running maximum, the running normaliser, the running partner score. -/
abbrev scM1_0 : Memref sig .tc .vmem S2048x1 .f32 := Memref.whole cc1_scratch0
abbrev scM1_1 : Memref sig .tc .vmem S2048x1 .f32 := Memref.whole cc1_scratch1
abbrev scM1_2 : Memref sig .tc .vmem S2048x1 .f32 := Memref.whole cc1_scratch2
abbrev VS1_0 : View sig .tc .vmem S2048x1 .f32 := scM1_0.view
abbrev VS1_1 : View sig .tc .vmem S2048x1 .f32 := scM1_1.view
abbrev VS1_2 : View sig .tc .vmem S2048x1 .f32 := scM1_2.view

/-- The scoped buffers of the core that the second region never touches: the first region's four staging buffers,
    each whole at some contents. -/
abbrev rb0 (c : Dev nD) : sProp 𝕄 := iprop(∃ f : Buf (Elt F) ((c : Thread nD τ).loc cc0_stg0_0), ((c : Thread nD τ).loc cc0_stg0_0) ↦{fullShare} f)
abbrev rb1 (c : Dev nD) : sProp 𝕄 := iprop(∃ f : Buf (Elt F) ((c : Thread nD τ).loc cc0_stg0_1), ((c : Thread nD τ).loc cc0_stg0_1) ↦{fullShare} f)
abbrev rb2 (c : Dev nD) : sProp 𝕄 := iprop(∃ f : Buf (Elt F) ((c : Thread nD τ).loc cc0_stg1_0), ((c : Thread nD τ).loc cc0_stg1_0) ↦{fullShare} f)
abbrev rb3 (c : Dev nD) : sProp 𝕄 := iprop(∃ f : Buf (Elt F) ((c : Thread nD τ).loc cc0_stg1_1), ((c : Thread nD τ).loc cc0_stg1_1) ↦{fullShare} f)

/-- The class invariant of the second region with the scratch columns as memrefs owned at some contents. -/
theorem PhiA1_eq (c : Dev nD) :
    (Pipeline.ΦA spec1 c : sProp 𝕄)
      = iprop(iprop(rb0 (F := F) c ∗ rb1 (F := F) c ∗ rb2 (F := F) c ∗ rb3 (F := F) c ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.Kernel.Hand

end
-- ==== Proof.KR1RunA.lean ====
/-
  (The program as printed, before idealization: the same statements and proofs as for the idealized program, which differs
  from it only in two named constants. Stated for any float instance.)

  The second region's body at a point of case A (column block 0, not the last): the three scratch columns are reset,
  then updated from the point's row block and column block; the two output buffers are not touched.
  What each scratch column ends with is found by running the body: a list of stored pieces, last first.
-/
import proofs.«169672_j32564442038466_2_alg».proof.Proof.KR1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case A: from the two input buffers at their contents, the two output buffers at contents handed back untouched, and
    the scratch columns at anything, the body runs to the continuation with the scratch columns at their pieces. -/
noncomputable def kernelRun1_A (c : Dev nD) (i : grid1.Coords) (arg2 : Memref sig .tc .vmem S2048x1024 .bf16) (harg2 : arg2.IsWhole) (arg3 : Memref sig .tc .vmem S512x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (hc0 : cond1_0 i) (hc1 : ¬cond1_1 i)
    (x0 : Vec F S2048x1024 .bf16) (x1 : Vec F S512x1024 .bf16) :
    Σ' (LS0 : List (View.Piece (Elt F) S2048x1 .f32)) (LS1 : List (View.Piece (Elt F) S2048x1 .f32)), { LS2 : List (View.Piece (Elt F) S2048x1 .f32) //
      ∀ (xi2 xi3 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨?_, ?_, ?_, fun xi2 xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.KR1RunB.lean ====
/-
  (The program as printed, before idealization: the same statements and proofs as for the idealized program, which differs
  from it only in two named constants. Stated for any float instance.)

  The second region's body at a point of case B (column blocks 1 to 14): the three scratch columns, at what the point
  before left, are updated from the point's row block and column block; the two output buffers are not touched.
-/
import proofs.«169672_j32564442038466_2_alg».proof.Proof.KR1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case B: from the two input buffers at their contents, the two output buffers at contents handed back untouched, and
    the scratch columns at the contents xs·, the body runs to the continuation with the scratch columns at their pieces. -/
noncomputable def kernelRun1_B (c : Dev nD) (i : grid1.Coords) (arg2 : Memref sig .tc .vmem S2048x1024 .bf16) (harg2 : arg2.IsWhole) (arg3 : Memref sig .tc .vmem S512x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (hc0 : ¬cond1_0 i) (hc1 : ¬cond1_1 i)
    (x0 : Vec F S2048x1024 .bf16) (x1 : Vec F S512x1024 .bf16) (xs0 xs1 xs2 : Vec F S2048x1 .f32) :
    Σ' (LS0 : List (View.Piece (Elt F) S2048x1 .f32)) (LS1 : List (View.Piece (Elt F) S2048x1 .f32)), { LS2 : List (View.Piece (Elt F) S2048x1 .f32) //
      ∀ (xi2 xi3 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare xi2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨?_, ?_, ?_, fun xi2 xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.KR1RunC.lean ====
/-
  (The program as printed, before idealization: the same statements and proofs as for the idealized program, which differs
  from it only in two named constants. Stated for any float instance.)

  The second region's body at a point of case C (column block 15): the three scratch columns, at what the point before
  left, are updated from the point's row block and column block, and the two output columns are stored from them.
-/
import proofs.«169672_j32564442038466_2_alg».proof.Proof.KR1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case C: from the two input buffers at their contents, the two output buffers at anything, and the scratch columns
    at the contents xs·, the body runs to the continuation with the outputs and the scratch columns at their pieces. -/
noncomputable def kernelRun1_C (c : Dev nD) (i : grid1.Coords) (arg2 : Memref sig .tc .vmem S2048x1024 .bf16) (harg2 : arg2.IsWhole) (arg3 : Memref sig .tc .vmem S512x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (hc0 : ¬cond1_0 i) (hc1 : cond1_1 i)
    (x0 : Vec F S2048x1024 .bf16) (x1 : Vec F S512x1024 .bf16) (xs0 xs1 xs2 : Vec F S2048x1 .f32) :
    Σ' (L2 : List (View.Piece (Elt F) S2048x1 .f32)) (L3 : List (View.Piece (Elt F) S2048x1 .f32)) (LS0 : List (View.Piece (Elt F) S2048x1 .f32)) (LS1 : List (View.Piece (Elt F) S2048x1 .f32)), { LS2 : List (View.Piece (Elt F) S2048x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨?_, ?_, ?_, ?_, ?_, fun E K => ?run⟩
  case run =>
    simp only [cc1_kernel_eq_skeleton]; unfold cc1_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    isplitl [HS1]; · iexists _; iexact HS1
    iexists _; iexact HS2

end Cert.Kernel.Hand

end
-- ==== Proof.KR1.lean ====
/-
  (The program as printed, before idealization: the same statements and proofs as for the idealized program, which differs
  from it only in two named constants. Stated for any float instance.)

  The second region: what its buffers hold point by point, its proof data and its body obligation.

  The scratch columns are followed through the grid: after point t they hold what the case of t leaves, computed from
  the point's two input blocks and, except at a column block 0 (which resets them), from what point t - 1 left. The two
  output buffers are named only at the points that store them (column block 15), which are the points that write them
  back. The region's two input windows read one array, the normalised rows; the region holds it once, split in two
  half shares.
-/
import proofs.«169672_j32564442038466_2_alg».proof.Proof.KR1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three cases at a grid point -/

/-- Case A at point t: the run at the point's memrefs and input blocks. -/
abbrev caseA (c : Dev nD) (t : Fin cfg1.N) (h0 : t.val % 16 = 0) (h1 : ¬t.val % 16 = 15) :=
  kernelRun1_A (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t)
/-- Case B at point t, over the scratch contents xs· the point before left. -/
abbrev caseB (c : Dev nD) (t : Fin cfg1.N) (h0 : ¬t.val % 16 = 0) (h1 : ¬t.val % 16 = 15) (xs0 xs1 xs2 : Vec F S2048x1 .f32) :=
  kernelRun1_B (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) xs0 xs1 xs2
/-- Case C at point t, over the scratch contents xs· the point before left. -/
abbrev caseC (c : Dev nD) (t : Fin cfg1.N) (h0 : ¬t.val % 16 = 0) (h1 : t.val % 16 = 15) (xs0 xs1 xs2 : Vec F S2048x1 .f32) :=
  kernelRun1_C (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) xs0 xs1 xs2

/-- A list of pieces read back through a scratch column's view (or an output buffer's) over unnamed contents. -/
abbrev rd (v : View sig .tc .vmem S2048x1 .f32) (L : List (View.Piece (Elt F) S2048x1 .f32)) : Vec F S2048x1 .f32 := v.read (Elt F) (v.writes (Elt F) v.junk L)

/-! The pieces each case stores cover the column they are stored into (every store is of the whole column). -/
theorem scoverA0 (c : Dev nD) (t : Fin cfg1.N) (h0 : t.val % 16 = 0) (h1 : ¬t.val % 16 = 15) (y : S2048x1.Idx) : ∃ pc ∈ (caseA V c t h0 h1).1, y ∈ pc.1.set :=
  View.cover_of_tiledL (caseA V c t h0 h1).1 S2048x1.size (by sl_kernel_rfl) y
theorem scoverA1 (c : Dev nD) (t : Fin cfg1.N) (h0 : t.val % 16 = 0) (h1 : ¬t.val % 16 = 15) (y : S2048x1.Idx) : ∃ pc ∈ (caseA V c t h0 h1).2.1, y ∈ pc.1.set :=
  View.cover_of_tiledL (caseA V c t h0 h1).2.1 S2048x1.size (by sl_kernel_rfl) y
theorem scoverA2 (c : Dev nD) (t : Fin cfg1.N) (h0 : t.val % 16 = 0) (h1 : ¬t.val % 16 = 15) (y : S2048x1.Idx) : ∃ pc ∈ (caseA V c t h0 h1).2.2.1, y ∈ pc.1.set :=
  View.cover_of_tiledL (caseA V c t h0 h1).2.2.1 S2048x1.size (by sl_kernel_rfl) y
theorem scoverB0 (c : Dev nD) (t : Fin cfg1.N) (h0 : ¬t.val % 16 = 0) (h1 : ¬t.val % 16 = 15) (xs0 xs1 xs2 : Vec F S2048x1 .f32) (y : S2048x1.Idx) : ∃ pc ∈ (caseB V c t h0 h1 xs0 xs1 xs2).1, y ∈ pc.1.set :=
  View.cover_of_tiledL (caseB V c t h0 h1 xs0 xs1 xs2).1 S2048x1.size (by sl_kernel_rfl) y
theorem scoverB1 (c : Dev nD) (t : Fin cfg1.N) (h0 : ¬t.val % 16 = 0) (h1 : ¬t.val % 16 = 15) (xs0 xs1 xs2 : Vec F S2048x1 .f32) (y : S2048x1.Idx) : ∃ pc ∈ (caseB V c t h0 h1 xs0 xs1 xs2).2.1, y ∈ pc.1.set :=
  View.cover_of_tiledL (caseB V c t h0 h1 xs0 xs1 xs2).2.1 S2048x1.size (by sl_kernel_rfl) y
theorem scoverB2 (c : Dev nD) (t : Fin cfg1.N) (h0 : ¬t.val % 16 = 0) (h1 : ¬t.val % 16 = 15) (xs0 xs1 xs2 : Vec F S2048x1 .f32) (y : S2048x1.Idx) : ∃ pc ∈ (caseB V c t h0 h1 xs0 xs1 xs2).2.2.1, y ∈ pc.1.set :=
  View.cover_of_tiledL (caseB V c t h0 h1 xs0 xs1 xs2).2.2.1 S2048x1.size (by sl_kernel_rfl) y
theorem coverC2 (c : Dev nD) (t : Fin cfg1.N) (h0 : ¬t.val % 16 = 0) (h1 : t.val % 16 = 15) (xs0 xs1 xs2 : Vec F S2048x1 .f32) (y : S2048x1.Idx) : ∃ pc ∈ (caseC V c t h0 h1 xs0 xs1 xs2).1, y ∈ pc.1.set :=
  View.cover_of_tiledL (caseC V c t h0 h1 xs0 xs1 xs2).1 S2048x1.size (by sl_kernel_rfl) y
theorem coverC3 (c : Dev nD) (t : Fin cfg1.N) (h0 : ¬t.val % 16 = 0) (h1 : t.val % 16 = 15) (xs0 xs1 xs2 : Vec F S2048x1 .f32) (y : S2048x1.Idx) : ∃ pc ∈ (caseC V c t h0 h1 xs0 xs1 xs2).2.1, y ∈ pc.1.set :=
  View.cover_of_tiledL (caseC V c t h0 h1 xs0 xs1 xs2).2.1 S2048x1.size (by sl_kernel_rfl) y
theorem scoverC0 (c : Dev nD) (t : Fin cfg1.N) (h0 : ¬t.val % 16 = 0) (h1 : t.val % 16 = 15) (xs0 xs1 xs2 : Vec F S2048x1 .f32) (y : S2048x1.Idx) : ∃ pc ∈ (caseC V c t h0 h1 xs0 xs1 xs2).2.2.1, y ∈ pc.1.set :=
  View.cover_of_tiledL (caseC V c t h0 h1 xs0 xs1 xs2).2.2.1 S2048x1.size (by sl_kernel_rfl) y
theorem scoverC1 (c : Dev nD) (t : Fin cfg1.N) (h0 : ¬t.val % 16 = 0) (h1 : t.val % 16 = 15) (xs0 xs1 xs2 : Vec F S2048x1 .f32) (y : S2048x1.Idx) : ∃ pc ∈ (caseC V c t h0 h1 xs0 xs1 xs2).2.2.2.1, y ∈ pc.1.set :=
  View.cover_of_tiledL (caseC V c t h0 h1 xs0 xs1 xs2).2.2.2.1 S2048x1.size (by sl_kernel_rfl) y
theorem scoverC2 (c : Dev nD) (t : Fin cfg1.N) (h0 : ¬t.val % 16 = 0) (h1 : t.val % 16 = 15) (xs0 xs1 xs2 : Vec F S2048x1 .f32) (y : S2048x1.Idx) : ∃ pc ∈ (caseC V c t h0 h1 xs0 xs1 xs2).2.2.2.2.1, y ∈ pc.1.set :=
  View.cover_of_tiledL (caseC V c t h0 h1 xs0 xs1 xs2).2.2.2.2.1 S2048x1.size (by sl_kernel_rfl) y

/-! ## What the buffers hold after each point -/

/-- The two output buffers and the three scratch columns after a point. -/
structure Outs1 (F : FTy → Type) where
  o2 : Vec F S2048x1 .f32
  o3 : Vec F S2048x1 .f32
  s0 : Vec F S2048x1 .f32
  s1 : Vec F S2048x1 .f32
  s2 : Vec F S2048x1 .f32

/-- What case A leaves at point t (the outputs unnamed: nothing consults them at such a point). -/
def outA (c : Dev nD) (t : Fin cfg1.N) (h0 : t.val % 16 = 0) (h1 : ¬t.val % 16 = 15) : Outs1 F :=
  ⟨rd VO1_2 [], rd VO1_3 [], rd VS1_0 (caseA V c t h0 h1).1, rd VS1_1 (caseA V c t h0 h1).2.1, rd VS1_2 (caseA V c t h0 h1).2.2.1⟩
/-- What case B leaves at point t over what the point before left. -/
def outB (c : Dev nD) (t : Fin cfg1.N) (h0 : ¬t.val % 16 = 0) (h1 : ¬t.val % 16 = 15) (p : Outs1 F) : Outs1 F :=
  ⟨rd VO1_2 [], rd VO1_3 [], rd VS1_0 (caseB V c t h0 h1 p.s0 p.s1 p.s2).1, rd VS1_1 (caseB V c t h0 h1 p.s0 p.s1 p.s2).2.1, rd VS1_2 (caseB V c t h0 h1 p.s0 p.s1 p.s2).2.2.1⟩
/-- What case C leaves at point t over what the point before left. -/
def outC (c : Dev nD) (t : Fin cfg1.N) (h0 : ¬t.val % 16 = 0) (h1 : t.val % 16 = 15) (p : Outs1 F) : Outs1 F :=
  ⟨rd VO1_2 (caseC V c t h0 h1 p.s0 p.s1 p.s2).1, rd VO1_3 (caseC V c t h0 h1 p.s0 p.s1 p.s2).2.1, rd VS1_0 (caseC V c t h0 h1 p.s0 p.s1 p.s2).2.2.1, rd VS1_1 (caseC V c t h0 h1 p.s0 p.s1 p.s2).2.2.2.1, rd VS1_2 (caseC V c t h0 h1 p.s0 p.s1 p.s2).2.2.2.2.1⟩

/-- THE ACCUMULATION: what the buffers hold after the body at position n, by recursion on the position. -/
def outsAt1 (c : Dev nD) : (n : ℕ) → n < cfg1.N → Outs1 F
  | 0, hn => outA V c ⟨0, hn⟩ (Nat.zero_mod _) (show ¬(0 : ℕ) % 16 = 15 by decide)
  | n + 1, hn =>
    if h0 : (n + 1) % 16 = 0 then
      if h1 : (n + 1) % 16 = 15 then
        False.elim (by omega)
      else outA V c ⟨n + 1, hn⟩ h0 h1
    else
      if h1 : (n + 1) % 16 = 15 then outC V c ⟨n + 1, hn⟩ h0 h1 (outsAt1 c n (Nat.lt_of_succ_lt hn))
      else outB V c ⟨n + 1, hn⟩ h0 h1 (outsAt1 c n (Nat.lt_of_succ_lt hn))

theorem outsAt1_A (c : Dev nD) (t : Fin cfg1.N) (h0 : t.val % 16 = 0) (h1 : ¬t.val % 16 = 15) :
    outsAt1 V c t.val t.isLt = outA V c t h0 h1 := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = outB V c t h0 h1 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = outC V c t h0 h1 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region's invariant before position n: before the first point the class's (every scratch column at anything);
    afterwards the untouched buffers, each scratch column at what the point before left, and the generator register. -/
def PhiS (c : Dev nD) : (n : ℕ) → n ≤ cfg1.N → sProp 𝕄
  | 0, _ => Pipeline.ΦA spec1 c
  | n + 1, hn => iprop(iprop(rb0 (F := F) c ∗ rb1 (F := F) c ∗ rb2 (F := F) c ∗ rb3 (F := F) c ∗ owns (c : Thread nD τ) scM1_0 fullShare ((outsAt1 V c n hn).s0) ∗ owns (c : Thread nD τ) scM1_1 fullShare ((outsAt1 V c n hn).s1) ∗ owns (c : Thread nD τ) scM1_2 fullShare ((outsAt1 V c n hn).s2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(rb0 (F := F) c ∗ rb1 (F := F) c ∗ rb2 (F := F) c ∗ rb3 (F := F) c ∗ owns (c : Thread nD τ) scM1_0 fullShare ((outsAt1 V c n hn).s0) ∗ owns (c : Thread nD τ) scM1_1 fullShare ((outsAt1 V c n hn).s1) ∗ owns (c : Thread nD τ) scM1_2 fullShare ((outsAt1 V c n hn).s2)) ∗ (∃ r, prngReg c r)) := rfl

theorem PhiS_pos (c : Dev nD) (n : ℕ) (h : n ≤ cfg1.N) (hz : n ≠ 0) :
    PhiS V c n h = iprop(iprop(rb0 (F := F) c ∗ rb1 (F := F) c ∗ rb2 (F := F) c ∗ rb3 (F := F) c ∗ owns (c : Thread nD τ) scM1_0 fullShare ((outsAt1 V c (n - 1) (by omega)).s0) ∗ owns (c : Thread nD τ) scM1_1 fullShare ((outsAt1 V c (n - 1) (by omega)).s1) ∗ owns (c : Thread nD τ) scM1_2 fullShare ((outsAt1 V c (n - 1) (by omega)).s2)) ∗ (∃ r, prngReg c r)) := by
  cases n with
  | zero => exact absurd rfl hz
  | succ n => rfl

/-! ## The proof data -/

/-- The second region's proof data on core c: the arrays as the region finds them; after the body each input's buffer
    at its block and the outputs' at the accumulation's; the invariant above; the one array behind the two input windows
    held in two half shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).o2
    | ⟨3, _⟩ => (outsAt1 V c t.val t.isLt).o3
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).o2 := by dsimp only [dat1]
theorem after1_3 (c : Dev nD) (t : Fin cfg1.N) : (dat1 V c).after 3 t = (outsAt1 V c t.val t.isLt).o3 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 8000000 in
/-- The body at any point. The two input buffers hold the point's blocks; the point's position in its row block says
    which case it is; the invariant hands the body the scratch columns at what the point before left (at anything at the
    very first point) and takes them back at this point's contents; an output buffer is handed back as found at a point
    that does not store it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 64 := lt_of_lt_of_eq t.isLt (show cfg1.N = 64 from N_1)
  by_cases h0 : t.val % 16 = 0
  · by_cases h1 : t.val % 16 = 15
    · exfalso; omega
    · have hc1 : ¬cond1_1 (grid1.coords t) := fun h => h1 ((hcond1_1 t).mp h)
      rw [Dat.leavesExact_idle (dat1 V c) 2 t (idleAt1_2 t hc1) (noFlush1_2 t hc1),
        Dat.leavesExact_idle (dat1 V c) 3 t (idleAt1_3 t hc1) (noFlush1_3 t hc1)]
      rw [outsAt1_A V c t h0 h1]
      unfold outA; (try dsimp only)
      by_cases hz : t.val = 0
      · rw [PhiS_castSucc V c t, PhiS_zero V c _ _ hz, PhiA1_eq]
        iintro ⟨⟨⟨Hr0, Hr1, Hr2, Hr3, HS0, HS1, HS2⟩, Hg⟩, Ho, ⟨%d0, H0⟩, ⟨%d1, H1⟩, ⟨%d2, H2⟩, ⟨%d3, H3⟩⟩
        iapply ((caseA V c t h0 h1).2.2.2 _ _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [Hr0 Hr1 Hr2 Hr3 HS0 HS1 HS2 Hg]
        · isplitl [Hr0 Hr1 Hr2 Hr3 HS0 HS1 HS2]
          · isplitl [Hr0]; · iexact Hr0
            isplitl [Hr1]; · iexact Hr1
            isplitl [Hr2]; · iexact Hr2
            isplitl [Hr3]; · iexact Hr3
            isplitl [HS0]
            · unfold owns; iexists _; isplitr
              swap; · iexact HS0
              ipureintro; exact View.read_writes_of_cover _ _ _ _ _ (scoverA0 V c t h0 h1)
            isplitl [HS1]
            · unfold owns; iexists _; isplitr
              swap; · iexact HS1
              ipureintro; exact View.read_writes_of_cover _ _ _ _ _ (scoverA1 V c t h0 h1)
            · unfold owns; iexists _; isplitr
              swap; · iexact HS2
              ipureintro; exact View.read_writes_of_cover _ _ _ _ _ (scoverA2 V c t h0 h1)
          iexact Hg
        isplitl [Ho]; · iexact Ho
        isplitl [H0]; · iexact H0
        isplitl [H1]; · iexact H1
        isplitl [H2]; · iexists _; iexact H2
        iexists _; iexact H3
      · rw [PhiS_castSucc V c t, PhiS_pos V c _ _ hz]
        iintro ⟨⟨⟨Hr0, Hr1, Hr2, Hr3, HS0, HS1, HS2⟩, Hg⟩, Ho, ⟨%d0, H0⟩, ⟨%d1, H1⟩, ⟨%d2, H2⟩, ⟨%d3, H3⟩⟩
        iapply ((caseA V c t h0 h1).2.2.2 _ _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [Hr0 Hr1 Hr2 Hr3 HS0 HS1 HS2 Hg]
        · isplitl [Hr0 Hr1 Hr2 Hr3 HS0 HS1 HS2]
          · isplitl [Hr0]; · iexact Hr0
            isplitl [Hr1]; · iexact Hr1
            isplitl [Hr2]; · iexact Hr2
            isplitl [Hr3]; · iexact Hr3
            isplitl [HS0]
            · unfold owns; iexists _; isplitr
              swap; · iexact HS0
              ipureintro; exact View.read_writes_of_cover _ _ _ _ _ (scoverA0 V c t h0 h1)
            isplitl [HS1]
            · unfold owns; iexists _; isplitr
              swap; · iexact HS1
              ipureintro; exact View.read_writes_of_cover _ _ _ _ _ (scoverA1 V c t h0 h1)
            · unfold owns; iexists _; isplitr
              swap; · iexact HS2
              ipureintro; exact View.read_writes_of_cover _ _ _ _ _ (scoverA2 V c t h0 h1)
          iexact Hg
        isplitl [Ho]; · iexact Ho
        isplitl [H0]; · iexact H0
        isplitl [H1]; · iexact H1
        isplitl [H2]; · iexists _; iexact H2
        iexists _; iexact H3
  · have hz : t.val ≠ 0 := fun e => h0 (by rw [e])
    by_cases h1 : t.val % 16 = 15
    · have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2 t hc1], after1_2]
      rw [show (dat1 V c).leavesExact 3 t = owns (c : Thread nD τ) (ms1_3 t) fullShare ((dat1 V c).after 3 t) from by
        unfold Dat.leavesExact; rw [liveAt1_3 t hc1], after1_3]
      rw [outsAt1_C V c t h0 h1]
      unfold outC; (try dsimp only)
      rw [PhiS_castSucc V c t, PhiS_pos V c _ _ hz]
      iintro ⟨⟨⟨Hr0, Hr1, Hr2, Hr3, HS0, HS1, HS2⟩, Hg⟩, Ho, ⟨%d0, H0⟩, ⟨%d1, H1⟩, ⟨%d2, H2⟩, ⟨%d3, H3⟩⟩
      iapply ((caseC V c t h0 h1 _ _ _).2.2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      isplitl [HS2]; · iexact HS2
      iintro ⟨H0, H1, ⟨%e2, H2⟩, ⟨%e3, H3⟩, ⟨%es0, HS0⟩, ⟨%es1, HS1⟩, ⟨%es2, HS2⟩⟩
      isplitl [Hr0 Hr1 Hr2 Hr3 HS0 HS1 HS2 Hg]
      · isplitl [Hr0 Hr1 Hr2 Hr3 HS0 HS1 HS2]
        · isplitl [Hr0]; · iexact Hr0
          isplitl [Hr1]; · iexact Hr1
          isplitl [Hr2]; · iexact Hr2
          isplitl [Hr3]; · iexact Hr3
          isplitl [HS0]
          · unfold owns; iexists _; isplitr
            swap; · iexact HS0
            ipureintro; exact View.read_writes_of_cover _ _ _ _ _ (scoverC0 V c t h0 h1 _ _ _)
          isplitl [HS1]
          · unfold owns; iexists _; isplitr
            swap; · iexact HS1
            ipureintro; exact View.read_writes_of_cover _ _ _ _ _ (scoverC1 V c t h0 h1 _ _ _)
          · unfold owns; iexists _; isplitr
            swap; · iexact HS2
            ipureintro; exact View.read_writes_of_cover _ _ _ _ _ (scoverC2 V c t h0 h1 _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverC2 V c t h0 h1 _ _ _)
      unfold owns; iexists _; isplitr
      swap; · iexact H3
      ipureintro; exact View.read_writes_of_cover _ _ _ _ _ (coverC3 V c t h0 h1 _ _ _)
    · have hc1 : ¬cond1_1 (grid1.coords t) := fun h => h1 ((hcond1_1 t).mp h)
      rw [Dat.leavesExact_idle (dat1 V c) 2 t (idleAt1_2 t hc1) (noFlush1_2 t hc1),
        Dat.leavesExact_idle (dat1 V c) 3 t (idleAt1_3 t hc1) (noFlush1_3 t hc1)]
      rw [outsAt1_B V c t h0 h1]
      unfold outB; (try dsimp only)
      rw [PhiS_castSucc V c t, PhiS_pos V c _ _ hz]
      iintro ⟨⟨⟨Hr0, Hr1, Hr2, Hr3, HS0, HS1, HS2⟩, Hg⟩, Ho, ⟨%d0, H0⟩, ⟨%d1, H1⟩, ⟨%d2, H2⟩, ⟨%d3, H3⟩⟩
      iapply ((caseB V c t h0 h1 _ _ _).2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [Hr0 Hr1 Hr2 Hr3 HS0 HS1 HS2 Hg]
      · isplitl [Hr0 Hr1 Hr2 Hr3 HS0 HS1 HS2]
        · isplitl [Hr0]; · iexact Hr0
          isplitl [Hr1]; · iexact Hr1
          isplitl [Hr2]; · iexact Hr2
          isplitl [Hr3]; · iexact Hr3
          isplitl [HS0]
          · unfold owns; iexists _; isplitr
            swap; · iexact HS0
            ipureintro; exact View.read_writes_of_cover _ _ _ _ _ (scoverB0 V c t h0 h1 _ _ _)
          isplitl [HS1]
          · unfold owns; iexists _; isplitr
            swap; · iexact HS1
            ipureintro; exact View.read_writes_of_cover _ _ _ _ _ (scoverB1 V c t h0 h1 _ _ _)
          · unfold owns; iexists _; isplitr
            swap; · iexact HS2
            ipureintro; exact View.read_writes_of_cover _ _ _ _ _ (scoverB2 V c t h0 h1 _ _ _)
        iexact Hg
      isplitl [Ho]; · iexact Ho
      isplitl [H0]; · iexact H0
      isplitl [H1]; · iexact H1
      isplitl [H2]; · iexists _; iexact H2
      iexists _; iexact H3

/-- The body obligation of the second region, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the scratch columns' named contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA1_eq]
  iintro ⟨⟨Hr0, Hr1, Hr2, Hr3, HS0, HS1, HS2⟩, Hg⟩
  isplitl [Hr0 Hr1 Hr2 Hr3 HS0 HS1 HS2]
  · isplitl [Hr0]; · iexact Hr0
    isplitl [Hr1]; · iexact Hr1
    isplitl [Hr2]; · iexact Hr2
    isplitl [Hr3]; · iexact Hr3
    isplitl [HS0]; · iexists _; iexact HS0
    isplitl [HS1]; · iexists _; iexact HS1
    iexists _; iexact HS2
  iexact Hg

end Cert.Kernel.Hand

end
-- ==== Proof.KRun.lean ====
/-
  (The program as printed, before idealization: the same statements and proofs as for the idealized program, which differs
  from it only in two named constants. Stated for any float instance.)

  The whole run: @main is the first region, the second region, then six host operations.

  The contents of the core's unscoped buffers are followed through the three segments: at launch the memory's; after the
  first region the same but for the normalised rows, which hold what the region's write-backs left; after the second
  region the same but for the two result columns; after the host operations what those compute. Each region is entered
  from the state "every unscoped buffer at the boundary's contents, the generator register at some state, nothing owed"
  and left at the next such state. The second region reads the normalised rows through two windows: it takes that one
  buffer split in two half shares and gives it back whole.
-/
import proofs.«169672_j32564442038466_2_alg».proof.Proof.KR1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => m (c, b)
/-- The same read at the TensorCore's references: what the first region is entered with. -/
abbrev VV0 : (c : Dev nD) → (b : Ref sig .tc) → Buf (Elt F) ((c : Thread nD τ).loc b) := fun c b => W0 m c b
/-- After the first region: its arrays at what the pipeline leaves, every other buffer as entered. -/
def W1 (c : Dev nD) : Valuation τ sig (Elt F) :=
  Pipeline.withArrays spec0 c (W0 m c) fun w => (dat0 (VV0 m) c).arrAt w cfg0.N
theorem W1_arr (c : Dev nD) (w : Fin cfg0.W) :
    W1 m c (Proc.devRef .tc (Pipeline.arrRef spec0 w)) = (dat0 (VV0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references: what the second region is entered with. -/
abbrev VV1 : (c : Dev nD) → (b : Ref sig .tc) → Buf (Elt F) ((c : Thread nD τ).loc b) := fun c b => W1 m c b
theorem hF0 (c : Dev nD) (w : Fin cfg0.W) : (dat0 (VV0 m) c).arrAt w cfg0.N = VV1 m c (Pipeline.arrRef spec0 w) :=
  (W1_arr m c w).symm
theorem hrest0 (c : Dev nD) : ∀ b, b ∉ Finset.univ.image (Pipeline.arrRef spec0) → VV1 m c b = VV0 m c b :=
  fun b hb => W1_of_ne m c b fun w e => hb (Finset.mem_image.mpr ⟨w, Finset.mem_univ _, e⟩)

/-- After the second region: the two result columns at what the pipeline leaves, every other buffer as entered. -/
def W2 (c : Dev nD) : Valuation τ sig (Elt F) :=
  Function.update (Function.update (W1 m c) (Proc.devRef .tc main_v1_0) ((dat1 (VV1 m) c).arrAt 2 cfg1.N))
    (Proc.devRef .tc main_v1_1) ((dat1 (VV1 m) c).arrAt 3 cfg1.N)
/-- After the host operations. -/
abbrev W3 (c : Dev nD) : Valuation τ sig (Elt F) := StableHlo.after hostOps2 (W2 m c)

theorem W2_v1_1 (c : Dev nD) : W2 m c (Proc.devRef .tc main_v1_1) = (dat1 (VV1 m) c).arrAt 3 cfg1.N := by
  unfold W2; exact Function.update_self ..
theorem W2_v1_0 (c : Dev nD) : W2 m c (Proc.devRef .tc main_v1_0) = (dat1 (VV1 m) c).arrAt 2 cfg1.N := by
  unfold W2
  rw [Function.update_of_ne (StableHlo.devRef_ne_of_ne (by decide) : (Proc.devRef .tc main_v1_0 : DevRef τ sig) ≠ Proc.devRef .tc main_v1_1)]
  exact Function.update_self ..
theorem W2_of_ne (c : Dev nD) (b : Ref sig .tc) (h0 : b ≠ main_v1_0) (h1 : b ≠ main_v1_1) :
    W2 m c (Proc.devRef .tc b) = W1 m c (Proc.devRef .tc b) := by
  unfold W2
  rw [Function.update_of_ne (StableHlo.devRef_ne_of_ne h1 : (Proc.devRef .tc b : DevRef τ sig) ≠ Proc.devRef .tc main_v1_1),
    Function.update_of_ne (StableHlo.devRef_ne_of_ne h0 : (Proc.devRef .tc b : DevRef τ sig) ≠ Proc.devRef .tc main_v1_0)]

/-! ## The proof data family and the thread state -/

abbrev admH : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) admH p) c
  | ⟨0, _⟩ => fun c => dat0 (VV0 m) c
  | ⟨1, _⟩ => fun c => dat1 (VV1 m) c
abbrev 𝒱₀ : Variants := Variants.none
abbrev LL : GSem nD τ sig → Finset Unit := fun _ => ∅
abbrev lvv : GSem nD τ sig → Unit → ℕ := fun _ _ => 0
/-- What rides beside the buffers through every segment: the generator register at some state, nothing owed. -/
abbrev RR (c : Dev nD) : sProp 𝕄 := iprop((∃ r, prngReg c r) ∗ ∃ W, owes (c : Thread nD τ) (0 : CellTallies nD τ sig Unit) W)

theorem hostOps2_fresh : (hostOps2 : List (HloOp τ sig (Elt F))).Forall fun op => op.fresh = ∅ := by
  simp only [List.Forall]; repeat' constructor

/-- The host operations as a segment, from the contents the second region leaves. -/
abbrev hseg2 : Pipeline.HostSeg (Name := ℕ) (U := UR sig nD τ) (pcfgs (F := F)) defs₀ 𝒱₀ LL lvv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m) RR

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The first region as a segment -/

set_option backward.isDefEq.respectTransparency.types false in
/-- The first region: entered from every unscoped buffer at the launch contents, left at W1. Its two arrays are split
    out of the unscoped buffers and put back at the exit contents; the generator register goes into the class invariant
    and comes back; nothing is owed. -/
def reg0 : Pipeline.RegionSeg (pcfgs (F := F)) admH (pdats m) () defs₀ 𝒱₀ LL lvv 0 where
  win := launch0.win.to₀
  block_pos := launch0.block_pos
  stage_whole := launch0.stage_whole
  K := PEmpty
  osem k := k.elim
  ho := Pipeline.OwnSemFacts.none _
  hbody c := (body_obligation0 (VV0 m) c).loose
  hwaits := Pipeline.hwaits_of_owed_zero _ _ _ _ LL lvv 0 fun _ _ => rfl
  pre c := iprop(StableHlo.held (c : Thread nD τ) (Pipeline.ucRefs τ sig) (W0 m c) ∗ RR c)
  post c := iprop(StableHlo.held (c : Thread nD τ) (Pipeline.ucRefs τ sig) (W1 m c) ∗ RR c)
  X c := iprop(∃ r, prngReg c r)
  Y c := iprop(∃ r, prngReg c r)
  Z c := Pipeline.unscopedRest (Ix := Unit) (Name := ℕ) (U := UR sig nD τ) (Lvl := ℕ) spec0 c (VV0 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (VV0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (VV0 m c) (VV1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region as a segment -/

/-- The core's ten unscoped buffers, one by one: the three the second region's windows read or write, then the rest. -/
theorem ub_eq (c : Dev nD) (Vb : (b : Ref sig .tc) → Buf (Elt F) ((c : Thread nD τ).loc b)) :
    (unscopedBufs c Vb : sProp 𝕄)
      = iprop((((c : Thread nD τ).loc main_v0) ↦{fullShare} Vb main_v0) ∗ (((c : Thread nD τ).loc main_v1_0) ↦{fullShare} Vb main_v1_0) ∗ (((c : Thread nD τ).loc main_v1_1) ↦{fullShare} Vb main_v1_1)
          ∗ (((c : Thread nD τ).loc main_arg0) ↦{fullShare} Vb main_arg0) ∗ (((c : Thread nD τ).loc main_v2) ↦{fullShare} Vb main_v2) ∗ (((c : Thread nD τ).loc main_cst) ↦{fullShare} Vb main_cst) ∗ (((c : Thread nD τ).loc main_v3) ↦{fullShare} Vb main_v3) ∗ (((c : Thread nD τ).loc main_cst_0) ↦{fullShare} Vb main_cst_0) ∗ (((c : Thread nD τ).loc main_v4) ↦{fullShare} Vb main_v4) ∗ (((c : Thread nD τ).loc main_v5) ↦{fullShare} Vb main_v5)) := by
  unfold unscopedBufs
  exact bigSep_eq_bigSepL_of_eq [main_v0, main_v1_0, main_v1_1, main_arg0, main_v2, main_cst, main_v3, main_cst_0, main_v4, main_v5] (by decide) (by decide) _

/-- The second region's arrays: the normalised rows twice, in two half shares, and the two result columns whole. -/
theorem arrays1_eq (Vb : (c : Dev nD) → (b : Ref sig .tc) → Buf (Elt F) ((c : Thread nD τ).loc b)) (c : Dev nD)
    (Fa : (w : Fin cfg1.W) → Buf (Elt F) ((cfg1.win w).arr.view.loc (c : Thread nD τ))) :
    ((dat1 Vb c).arrays Fa : sProp 𝕄)
      = iprop((((c : Thread nD τ).loc main_v0) ↦{fullShare.left} Fa 0) ∗ (((c : Thread nD τ).loc main_v0) ↦{fullShare.right} Fa 1) ∗ (((c : Thread nD τ).loc main_v1_0) ↦{fullShare} Fa 2) ∗ (((c : Thread nD τ).loc main_v1_1) ↦{fullShare} Fa 3)) := by
  unfold Dat.arrays
  rw [bigSep_W1, (arr_whole1 0).set_eq_univ, (arr_whole1 2).set_eq_univ, (arr_whole1 3).set_eq_univ]
  rfl

set_option backward.isDefEq.respectTransparency.types false in
/-- The second region: entered from every unscoped buffer at W1, left at W2. The normalised rows are split in two half
    shares for the two input windows and joined again at the exit; the two result columns go in at their entry contents
    and come out at what the write-backs left. -/
def reg1 : Pipeline.RegionSeg (pcfgs (F := F)) admH (pdats m) () defs₀ 𝒱₀ LL lvv 1 where
  win := winFacts₀1
  block_pos := block_pos1
  stage_whole := stage_whole1
  K := PEmpty
  osem k := k.elim
  ho := Pipeline.OwnSemFacts.none _
  hbody c := (body_obligation1 (VV1 m) c).loose
  hwaits := Pipeline.hwaits_of_owed_zero _ _ _ _ LL lvv 1 fun _ _ => rfl
  pre c := iprop(StableHlo.held (c : Thread nD τ) (Pipeline.ucRefs τ sig) (W1 m c) ∗ RR c)
  post c := iprop(StableHlo.held (c : Thread nD τ) (Pipeline.ucRefs τ sig) (W2 m c) ∗ RR c)
  X c := iprop(∃ r, prngReg c r)
  Y c := iprop(∃ r, prngReg c r)
  Z c := Pipeline.unscopedRest (Ix := Unit) (Name := ℕ) (U := UR sig nD τ) (Lvl := ℕ) spec1 c (VV1 m c)
  hentry c := by
    rw [Pipeline.ownSems0_none, ← Pipeline.unscopedBufs_held c (W1 m c), ub_eq c (VV1 m c),
      show (pdats m 1 c) = dat1 (VV1 m) c from rfl, arrays1_eq, unscopedRest1_eq]
    iintro ⟨⟨⟨Hv0, Hv10, Hv11, Hrest⟩, Hp, HO⟩, -, -⟩
    ihave Hh := (pointsTo_share (PosShare.mem_left_op_right fullShare)).1 $$ Hv0
    icases Hh with ⟨HvL, HvR⟩
    imodintro
    isplitl [HvL HvR Hv10 Hv11]
    · isplitl [HvL]; · iexact HvL
      isplitl [HvR]; · iexact HvR
      isplitl [Hv10]; · iexact Hv10
      iexact Hv11
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (admH (F := F) 1).1 ∗ Pipeline.scopedRest spec1 c) : sProp 𝕄)
        ⊢ Pipeline.ΦA spec1 c := by
      unfold Pipeline.ΦA
      iintro ⟨Hp, -, Hr⟩
      isplitl [Hr]; · iexact Hr
      iexact Hp
    exact h.trans (hin1 (VV1 m) c)
  hout c := by
    rw [Pipeline.ownSems0_none]
    have h : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (VV1 m) c).trans h
  hexit c := by
    rw [← Pipeline.unscopedBufs_held c (W2 m c), ub_eq c (fun b => W2 m c b),
      show (pdats m 1 c) = dat1 (VV1 m) c from rfl, arrays1_eq, unscopedRest1_eq,
      (dat1 (VV1 m) c).arrAt_in 0 rfl, (dat1 (VV1 m) c).arrAt_in 1 rfl, A_eq1, A_eq1,
      W2_v1_0, W2_v1_1, W2_of_ne m c main_v0 (by decide) (by decide), W2_of_ne m c main_arg0 (by decide) (by decide), W2_of_ne m c main_v2 (by decide) (by decide), W2_of_ne m c main_cst (by decide) (by decide), W2_of_ne m c main_v3 (by decide) (by decide), W2_of_ne m c main_cst_0 (by decide) (by decide), W2_of_ne m c main_v4 (by decide) (by decide), W2_of_ne m c main_v5 (by decide) (by decide)]
    iintro ⟨⟨HvL, HvR, Hv10, Hv11⟩, HO, HY, Hrest⟩
    ihave Hv0 := (pointsTo_share (PosShare.mem_left_op_right fullShare)).2 $$ [HvL HvR]
    · isplitl [HvL] <;> iassumption
    imodintro
    isplitl [Hv0 Hv10 Hv11 Hrest]
    · isplitl [Hv0]; · iexact Hv0
      isplitl [Hv10]; · iexact Hv10
      isplitl [Hv11]; · iexact Hv11
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) admH (pdats m) () defs₀ 𝒱₀ LL lvv) :=
  [ .region (reg0 m), .region (reg1 m), .host (hseg2 m) ]

theorem main_run (c : Dev nD) : main (F := F) c = Pipeline.Seg.run (segs m) := (main_chain c).trans (by chain_rfl)

set_option backward.isDefEq.respectTransparency.types false in
/-- THE RUN. From any memory with zero counters every weakly fair execution of @main terminates, nothing faulting, and
    every final state holds every unscoped buffer of every core at the last boundary's contents W3. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) admH (pdats m) () cellOf_inj emb₁ defs₀ 𝒱₀ LL lvv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RR c))
    (Tₙ := fun c => StableHlo.held (c : Thread nD τ) (Pipeline.ucRefs τ sig) (W3 m c))
    (hch := ⟨fun _ => .rfl, fun _ => .rfl, fun _ => .rfl, fun c => sep_mono .rfl (by iintro ⟨-, HO⟩; iexact HO)⟩)
    (hinit := by
      refine Pipeline.initEach LL lvv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨Hh, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: the argument array ends as launched. No host operation and no region writes it. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg0) := W2_of_ne m c main_arg0 (by decide) (by decide)
    _ = W0 m c (Proc.devRef .tc main_arg0) := (W1_arr m c 0).trans (((dat0 (VV0 m) c).arrAt_in 0 rfl _).trans (A_eq0 (VV0 m) c 0))
    _ = m ((c : Thread nD τ).loc main_arg0) := rfl

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (W3_main_arg0 m c)) (run_all m ρ)

end Cert.Kernel.Hand

end
-- ==== Proof.RefValue.lean ====
/-
  The reference's value, index by index.

  The reference normalises each row of the argument by its floored norm, takes all inner products of normalised
  rows, divides them by the temperature, puts minus infinity on the diagonal, takes the log-softmax of every row
  (shifting by the row's maximum), picks in row i the entry of its partner row half the array away, and returns
  minus the mean of the picked entries. Each stage is read here at an index, on the extended reals, until the
  result is the mathematics' loss taken a whole row at a time.
-/
import proofs.«169672_j32564442038466_2_alg».proof.Proof.RefOpsP
import proofs.«169672_j32564442038466_2_alg».proof.Proof.RefReadP
import proofs.«169672_j32564442038466_2_alg».proof.Proof.Spec
import proofs.«169672_j32564442038466_2_alg».proof.Proof.LibRowOps
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.RefValue

open Cert.ReferenceIdeal Cert.ReferenceIdeal.Gen Cert.ReferenceIdeal.ReadP
open Idealize.ShloMosaic Idealize.ShloMosaic.TcCoe Idealize.ShloMosaic.ValueIdx

/-- the argument array as a function of two coordinates -/
def arr (X : FVec Ideal Cert.ReferenceIdeal.S8192x1024 .f32) : Cert.Spec.Arr := fun i k => X (Idealize.ShloMosaic.ValueIdx.ix2 i k)

/-! ## Constants -/

/-- The word of minus infinity is the bottom extended real. -/
theorem ofBits_neg_inf : Ideal.ofBits .f32 0xFF800000#32 = (⊥ : EReal) := by
  simp [Ideal.ofBits, Ideal.ieee]

/-- The temperature's word is the real 9395241 / 134217728. -/
theorem ofBits_temp : Ideal.ofBits .f32 0x3D8F5C29#32 = ((9395241 / 134217728 : ℝ) : EReal) := by
  simp [Ideal.ofBits, Ideal.ieee, -EReal.coe_mul]; norm_num

/-- Dividing by the temperature is multiplying by its reciprocal, at the infinities too. -/
theorem div_temp (y : EReal) : Ideal.div y (Ideal.ofBits .f32 0x3D8F5C29#32) = y * Cert.Spec.invTemp := by
  rw [ofBits_temp, Ideal.div_coe (by norm_num)]
  unfold Cert.Spec.invTemp
  norm_num

/-! ## The indices the stages read, at coordinates -/

theorem idx_call0_v2 (i : Fin 8192) (u : Fin 1) : idx_main_call0_v2 (ix2 i u) = ix1 i :=
  funext fun a => Fin.ext (by match a with | ⟨0, _⟩ => rfl)
theorem idx_call0_v1 (i : Fin 8192) (k : Fin 1024) : idx_main_call0_v1 (ix1 i) k = ix2 i k :=
  funext fun a => Fin.ext (by match a with | ⟨0, _⟩ => rfl | ⟨1, _⟩ => rfl)
theorem idx_v3 (i : Fin 8192) (k : Fin 1024) : idx_main_v3 (ix2 i k) = ix2 i (0 : Fin 1) :=
  funext fun a => Fin.ext (by match a with | ⟨0, _⟩ => rfl | ⟨1, _⟩ => rfl)
theorem lidx_v6 (i j : Fin 8192) (k : Fin 1024) : lidx_main_v6 (ix2 i j) k = ix2 i k :=
  funext fun a => Fin.ext (by match a with | ⟨0, _⟩ => rfl | ⟨1, _⟩ => rfl)
theorem ridx_v6 (i j : Fin 8192) (k : Fin 1024) : idx_main_v5 (ridx_main_v6 (ix2 i j) k) = ix2 j k :=
  funext fun a => Fin.ext (by match a with | ⟨0, _⟩ => rfl | ⟨1, _⟩ => rfl)

/-! ## The normalised rows -/

variable (x0 : (⟨S8192x1024, .f32⟩ : BufTy).Contents (Elt Ideal))

/-- The floored norm of row i. -/
theorem nrm_at (i : Fin 8192) (u : Fin 1) : val_main_v2 (F := Ideal) x0 (ix2 i u) = Cert.Spec.nrm (arr x0) i := by
  rw [val_main_v2_apply, val_main_v0_apply, val_main_call0_v2_apply, idx_call0_v2, val_main_call0_v1_apply,
    val_main_v1_apply, val_main_cst_apply, val_main_call0_cst_apply]
  simp only [val_main_call0_v0_apply, idx_call0_v1]
  show max (Ideal.sqrt (Ideal.ofBits .f32 0x00000000#32 + ∑ k : Fin 1024, x0 (ix2 i k) * x0 (ix2 i k)))
    (Ideal.ofBits .f32 0x322BCC77#32) = _
  rw [Ideal.ofBits_zero_f32, zero_add]
  rfl

/-- The normalised entry (i, k). -/
theorem fn_at (i : Fin 8192) (k : Fin 1024) : val_main_v4 (F := Ideal) x0 (ix2 i k) = Cert.Spec.fn (arr x0) i k := by
  rw [val_main_v4_apply, val_main_v3_apply, idx_v3, nrm_at]
  rfl

/-! ## The scores -/

/-- The inner product of normalised rows i and j. -/
theorem dot_at (i j : Fin 8192) : val_main_v6 (F := Ideal) x0 (ix2 i j) = Cert.Spec.dot (arr x0) i j := by
  rw [val_main_v6_apply]
  unfold Cert.Spec.dot
  refine Finset.sum_congr rfl fun k _ => ?_
  rw [val_main_v5_apply, lidx_v6, ridx_v6, fn_at, fn_at]

/-- The score of row i against row j. -/
theorem sco_at (i j : Fin 8192) : val_main_v8 (F := Ideal) x0 (ix2 i j) = Cert.Spec.sco (arr x0) i j := by
  rw [val_main_v8_apply, val_main_v7_apply, val_main_cst_0_apply, dot_at]
  exact div_temp _

/-! ## Words of small numbers -/

/-- Two words of numbers below 2³² are equal only if the numbers are. -/
theorem ofNat_inj32 {x y : ℕ} (hx : x < 2 ^ 32) (hy : y < 2 ^ 32) (h : BitVec.ofNat 32 x = BitVec.ofNat 32 y) : x = y := by
  have := congrArg BitVec.toNat h
  rwa [BitVec.toNat_ofNat, BitVec.toNat_ofNat, Nat.mod_eq_of_lt hx, Nat.mod_eq_of_lt hy] at this

/-- A select on the equality of two such words is the `if` on the equality of the numbers. -/
theorem select_eq_ofNat {α : Type} {x y : ℕ} (hx : x < 2 ^ 32) (hy : y < 2 ^ 32) (A B : α) :
    Scalar.select (IntOp.cmpi .eq (BitVec.ofNat 32 x) (BitVec.ofNat 32 y)) A B = if x = y then A else B := by
  by_cases h : x = y
  · subst h
    have hc : IntOp.cmpi .eq (BitVec.ofNat 32 x) (BitVec.ofNat 32 x) = 1#1 := by
      show BitVec.ofBool (BitVec.ofNat 32 x == BitVec.ofNat 32 x) = 1#1
      rw [beq_self_eq_true]; rfl
    rw [hc, select_one, if_pos rfl]
  · have h' : ¬BitVec.ofNat 32 x = BitVec.ofNat 32 y := fun e => h (ofNat_inj32 hx hy e)
    have hc : IntOp.cmpi .eq (BitVec.ofNat 32 x) (BitVec.ofNat 32 y) = 0#1 := by
      show BitVec.ofBool (BitVec.ofNat 32 x == BitVec.ofNat 32 y) = 0#1
      rw [beq_eq_false_iff_ne.mpr h']; rfl
    rw [hc, select_zero, if_neg h]

/-- The word of a number below 2³¹ is not negative: a select on "below zero" takes its second operand. -/
theorem select_slt_zero {α : Type} {x : ℕ} (hx : x < 2 ^ 31) (A B : α) :
    Scalar.select (IntOp.cmpi .slt (BitVec.ofNat 32 x) 0#32) A B = B := by
  have hnx : (BitVec.ofNat 32 x).toNat = x := by rw [BitVec.toNat_ofNat, Nat.mod_eq_of_lt (by omega)]
  have htx : (BitVec.ofNat 32 x).toInt = (x : ℤ) := by
    rw [BitVec.toInt_eq_toNat_of_lt (by rw [hnx]; omega), hnx]
  have hc : IntOp.cmpi .slt (BitVec.ofNat 32 x) 0#32 = 0#1 := by
    show BitVec.ofBool ((BitVec.ofNat 32 x).slt 0#32) = 0#1
    rw [BitVec.slt_eq_decide, htx, show (0#32 : BitVec 32).toInt = 0 from by decide, decide_eq_false (by omega)]; rfl
  rw [hc, select_zero]

/-- The number a word of a number below 2³¹ denotes, read signed. -/
theorem toInt_toNat_ofNat {x : ℕ} (hx : x < 2 ^ 31) : (BitVec.ofNat 32 x).toInt.toNat = x := by
  have hnx : (BitVec.ofNat 32 x).toNat = x := by rw [BitVec.toNat_ofNat, Nat.mod_eq_of_lt (by omega)]
  rw [BitVec.toInt_eq_toNat_of_lt (by rw [hnx]; omega), hnx]
  rfl

/-! ## The masked scores and the row's maximum -/

/-- The masked score of row i against row j: minus infinity on the diagonal. -/
theorem msk_at (i j : Fin 8192) : val_main_v14 (F := Ideal) x0 (ix2 i j) = Cert.Spec.msk (arr x0) i j := by
  rw [val_main_v14_apply, val_main_v13_apply, val_main_v12_apply, val_main_v9_apply, val_main_v10_apply, val_main_v11_apply,
    val_main_c_apply, val_main_call1_v1_apply, val_main_call1_v0_apply, val_main_cst_1_apply, sco_at]
  show Scalar.select (IntOp.cmpi .eq (BitVec.ofNat 32 i.val + 0#32) (BitVec.ofNat 32 j.val)) (Ideal.ofBits .f32 0xFF800000#32)
    (Cert.Spec.sco (arr x0) i j) = _
  rw [BitVec.add_zero, ofBits_neg_inf, select_eq_ofNat (by have := i.isLt; omega) (by have := j.isLt; omega)]
  unfold Cert.Spec.msk
  by_cases h : i = j
  · rw [if_pos h, if_pos (congrArg Fin.val h)]
  · rw [if_neg h, if_neg (fun e => h (Fin.ext e))]

/-- The facts of the row reductions, at the literal shapes. -/
theorem reduces_rows : S8192x8192.Reduces [1] S8192 := by decide

/-- The host's maximum over the second axis of an `[a, b]` array reads, at row i, the fold of `max` over the row from
    the initial value. -/
theorem hostRowMax2_apply {a b : ℕ} {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduce FloatOps.maximumf x init h' hu (ix1 i)
      = (Finset.univ : Finset (Fin b)).fold max (init (Shape.Idx.first hu)) (fun k => x (ix2 i k)) :=
  (Host.reduce_eq_fold_single FloatOps.maximumf x init h' h hu (ix1 i)).trans
    (congrArg (fun f => Finset.fold max (init (Shape.Idx.first hu)) f (Finset.univ : Finset (Fin b)))
      (funext fun k => congrArg x (Cert.RowOps.lift_row h i k)))

/-- The maximum of row i of the masked scores, as the reduction takes it. -/
theorem rowFold_at (i : Fin 8192) : val_main_call2_v0 (F := Ideal) x0 (ix1 i)
    = (Finset.univ : Finset (Fin 8192)).fold max (⊥ : EReal) (fun k => Cert.Spec.msk (arr x0) i k) :=
  (hostRowMax2_apply (val_main_v14 (F := Ideal) x0) (val_main_call2_cst (F := Ideal)) reducesTo_S8192x8192_S8192_d1
    reduces_rows h_S_ i).trans (by
      rw [show val_main_call2_cst (F := Ideal) (Shape.Idx.first h_S_) = (⊥ : EReal) from ofBits_neg_inf]
      exact congrArg (fun f => Finset.fold max (⊥ : EReal) f (Finset.univ : Finset (Fin 8192))) (funext fun k => msk_at x0 i k))

/-- The maximum of row i of the masked scores. -/
theorem rowMax_at (i : Fin 8192) : val_main_call2_v2 (F := Ideal) x0 (ix1 i) = Cert.Spec.rowMax (arr x0) i := by
  rw [val_main_call2_v2_apply, val_main_call2_v1_apply, val_main_call2_cst_0_apply, rowFold_at]
  show max (Ideal.ofBits .f32 0xFF800000#32) _ = _
  rw [ofBits_neg_inf, max_eq_right bot_le]
  rfl

/-! ## The log-probabilities -/

theorem idx_call2_v4 (i j : Fin 8192) : idx_main_call2_v4 (ix2 i j) = ix2 i (0 : Fin 1) :=
  funext fun a => Fin.ext (by match a with | ⟨0, _⟩ => rfl | ⟨1, _⟩ => rfl)
theorem idx_call2_v3 (i : Fin 8192) (u : Fin 1) : idx_main_call2_v3 (ix2 i u) = ix1 i :=
  funext fun a => Fin.ext (by match a with | ⟨0, _⟩ => rfl)
theorem idx_call2_v10 (i j : Fin 8192) : idx_main_call2_v10 (ix2 i j) = ix2 i (0 : Fin 1) :=
  funext fun a => Fin.ext (by match a with | ⟨0, _⟩ => rfl | ⟨1, _⟩ => rfl)
theorem idx_call2_v8 (i : Fin 8192) (u : Fin 1) : idx_main_call2_v8 (ix2 i u) = ix1 i :=
  funext fun a => Fin.ext (by match a with | ⟨0, _⟩ => rfl)
theorem idx_call2_v7 (i k : Fin 8192) : idx_main_call2_v7 (ix1 i) k = ix2 i k :=
  funext fun a => Fin.ext (by match a with | ⟨0, _⟩ => rfl | ⟨1, _⟩ => rfl)

/-- The masked score shifted by its row's maximum. -/
theorem shifted_at (i j : Fin 8192) :
    val_main_call2_v5 (F := Ideal) x0 (ix2 i j) = Cert.Spec.msk (arr x0) i j - Cert.Spec.rowMax (arr x0) i := by
  rw [val_main_call2_v5_apply, val_main_call2_v4_apply, idx_call2_v4, val_main_call2_v3_apply, idx_call2_v3, rowMax_at, msk_at]
  rfl

/-- The log-probability of column j in row i. -/
theorem logp_at (i j : Fin 8192) : val_main_v20 (F := Ideal) x0 (ix2 i j) = Cert.Spec.logp (arr x0) i j := by
  rw [val_main_v20_apply, shifted_at, val_main_call2_v10_apply, idx_call2_v10, val_main_call2_v9_apply,
    val_main_call2_v8_apply, idx_call2_v8, val_main_call2_v7_apply, val_main_call2_cst_1_apply]
  simp only [val_main_call2_v6_apply, idx_call2_v7, shifted_at]
  show (Cert.Spec.msk (arr x0) i j - Cert.Spec.rowMax (arr x0) i)
    - Ideal.log (Ideal.ofBits .f32 0x00000000#32
        + ∑ k : Fin 8192, Ideal.exp (Cert.Spec.msk (arr x0) i k - Cert.Spec.rowMax (arr x0) i)) = _
  rw [Ideal.ofBits_zero_f32]
  rfl

/-! ## The partner's column -/

/-- The partner of a row in the lower half is the row 4096 further on … -/
theorem lab_lo (i : Fin 8192) (h : i.val < 4096) : (Cert.Spec.lab i).val = i.val + 4096 := by
  unfold Cert.Spec.lab
  rw [dif_pos h]
/-- … and of a row in the upper half the row 4096 before. -/
theorem lab_hi (i : Fin 8192) (h : ¬i.val < 4096) : (Cert.Spec.lab i).val = i.val - 4096 := by
  unfold Cert.Spec.lab
  rw [dif_neg h]

/-- The row numbers 0 … 8191, as words: the wrap of a negative number never fires. -/
theorem row_word (i : Fin 8192) : val_main_v26 (F := Ideal) (ix1 i) = BitVec.ofNat 32 i.val := by
  rw [val_main_v26_apply, val_main_v23_apply, val_main_v21_apply, val_main_v22_apply, val_main_c_3_apply]
  exact select_slt_zero (x := i.val) (by have := i.isLt; omega) _ _

/-- The two halves' numbers joined: the partner's row number, as a word. -/
theorem joined_word (i : Fin 8192) : val_main_v19 (F := Ideal) (ix1 i) = BitVec.ofNat 32 (Cert.Spec.lab i).val := by
  unfold val_main_v19
  by_cases h : i.val < 4096
  · refine (concatenate_pair_apply_left _ _ _ concatenates_S4096_S4096_S8192_d0 (ix1 i) rfl (ix1 (⟨i.val, h⟩ : Fin 4096))
      (fun b => by match b with | ⟨0, _⟩ => rfl)).trans ?_
    rw [val_main_v17_apply, val_main_v15_apply, val_main_v16_apply, val_main_c_2_apply, lab_lo i h]
    show BitVec.ofNat 32 i.val + BitVec.ofNat 32 4096 = _
    rw [← BitVec.ofNat_add]
  · refine (concatenate_pair_apply_right _ _ _ concatenates_S4096_S4096_S8192_d0 (ix1 i) rfl rfl
      (ix1 (⟨i.val - 4096, by have := i.isLt; omega⟩ : Fin 4096)) (fun b hb => ?_) ?_).trans ?_
    · exfalso
      apply hb
      apply Fin.ext
      have h1 : b.val < 1 := b.isLt
      show b.val = 0
      omega
    · show i.val - 4096 + 4096 = i.val
      omega
    · rw [val_main_v18_apply, lab_hi i h]

/-- The partner's row number, as a word: the wrap of a negative number never fires. -/
theorem partner_word (i : Fin 8192) : val_main_v31 (F := Ideal) (ix1 i) = BitVec.ofNat 32 (Cert.Spec.lab i).val := by
  rw [val_main_v31_apply, val_main_v28_apply, val_main_v27_apply, val_main_c_5_apply, joined_word]
  exact select_slt_zero (by have := (Cert.Spec.lab i).isLt; omega) _ _

theorem idx_v32 (i : Fin 8192) (u : Fin 1) : idx_main_v32 (ix2 i u) = ix1 i :=
  funext fun a => Fin.ext (by match a with | ⟨0, _⟩ => rfl)
theorem idx_v33 (i : Fin 8192) (u : Fin 1) : idx_main_v33 (ix2 i u) = ix1 i :=
  funext fun a => Fin.ext (by match a with | ⟨0, _⟩ => rfl)

/-- The pair of numbers the pick reads for row i: first the row itself … -/
theorem pick_row (i : Fin 8192) : val_main_v34 (F := Ideal) (ix2 i (0 : Fin 2)) = BitVec.ofNat 32 i.val := by
  unfold val_main_v34
  refine (concatenate_pair_apply_left _ _ _ concatenates_S8192x1_S8192x1_S8192x2_d1 (ix2 i (0 : Fin 2)) rfl (ix2 i (0 : Fin 1))
    (fun b => by match b with | ⟨0, _⟩ => rfl | ⟨1, _⟩ => rfl)).trans ?_
  rw [val_main_v32_apply, idx_v32, row_word]

/-- … then its partner. -/
theorem pick_col (i : Fin 8192) : val_main_v34 (F := Ideal) (ix2 i (1 : Fin 2)) = BitVec.ofNat 32 (Cert.Spec.lab i).val := by
  unfold val_main_v34
  refine (concatenate_pair_apply_right _ _ _ concatenates_S8192x1_S8192x1_S8192x2_d1 (ix2 i (1 : Fin 2)) rfl rfl (ix2 i (0 : Fin 1))
    (fun b hb => ?_) ?_).trans ?_
  · match b with
    | ⟨0, _⟩ => rfl
    | ⟨1, _⟩ => exact absurd rfl hb
  · rfl
  · rw [val_main_v33_apply, idx_v33, partner_word]

/-! ## The pick, and the mean -/

/-- The pick of one entry per row out of a square array: when the pair of numbers read for row i are the words of
    p and q, the picked entry is the array's at (p, q). -/
theorem gather_pair_apply {α : Type} (x : S8192x8192.Idx → α) (idx : IVec S8192x2 32) (i p q : Fin 8192)
    (h0 : idx (ix2 i (0 : Fin 2)) = BitVec.ofNat 32 p.val) (h1 : idx (ix2 i (1 : Fin 2)) = BitVec.ofNat 32 q.val) :
    Host.gather gather_S8192x8192_S8192x2_S8192_n_01_n_n_01_1_11 x idx (ix1 i) = x (ix2 p q) := by
  unfold Host.gather
  congr 1
  funext a
  refine Fin.ext ?_
  match a with
  | ⟨0, _⟩ =>
    show gather_S8192x8192_S8192x2_S8192_n_01_n_n_01_1_11.start (ix1 i) idx (0 : Fin 2)
      + gather_S8192x8192_S8192x2_S8192_n_01_n_n_01_1_11.batchCoord (ix1 i) (0 : Fin 2)
      + gather_S8192x8192_S8192x2_S8192_n_01_n_n_01_1_11.offCoord (ix1 i) (0 : Fin 2) = p.val
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 2) ∈ gather_S8192x8192_S8192x2_S8192_n_01_n_n_01_1_11.startIndexMap by decide)]
    have hsi : gather_S8192x8192_S8192x2_S8192_n_01_n_n_01_1_11.siIdx (ix1 i)
        ⟨List.idxOf (0 : Fin 2) gather_S8192x8192_S8192x2_S8192_n_01_n_n_01_1_11.startIndexMap,
          List.idxOf_lt_length_iff.2 (by decide)⟩ = ix2 i (0 : Fin 2) := by
      funext b; refine Fin.ext ?_
      match b with
      | ⟨0, _⟩ => rfl
      | ⟨1, _⟩ => rfl
    rw [hsi, h0, toInt_toNat_ofNat (by have := p.isLt; omega)]
    show min p.val (8192 - 1) = p.val
    have := p.isLt
    omega
  | ⟨1, _⟩ =>
    show gather_S8192x8192_S8192x2_S8192_n_01_n_n_01_1_11.start (ix1 i) idx (1 : Fin 2)
      + gather_S8192x8192_S8192x2_S8192_n_01_n_n_01_1_11.batchCoord (ix1 i) (1 : Fin 2)
      + gather_S8192x8192_S8192x2_S8192_n_01_n_n_01_1_11.offCoord (ix1 i) (1 : Fin 2) = q.val
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 2) ∈ gather_S8192x8192_S8192x2_S8192_n_01_n_n_01_1_11.startIndexMap by decide)]
    have hsi : gather_S8192x8192_S8192x2_S8192_n_01_n_n_01_1_11.siIdx (ix1 i)
        ⟨List.idxOf (1 : Fin 2) gather_S8192x8192_S8192x2_S8192_n_01_n_n_01_1_11.startIndexMap,
          List.idxOf_lt_length_iff.2 (by decide)⟩ = ix2 i (1 : Fin 2) := by
      funext b; refine Fin.ext ?_
      match b with
      | ⟨0, _⟩ => rfl
      | ⟨1, _⟩ => rfl
    rw [hsi, h1, toInt_toNat_ofNat (by have := q.isLt; omega)]
    show min q.val (8192 - 1) = q.val
    have := q.isLt
    omega

/-- The entry picked in row i: the log-probability of its partner's column. -/
theorem picked_at (i : Fin 8192) :
    val_main_v35 (F := Ideal) x0 (ix1 i) = Cert.Spec.logp (arr x0) i (Cert.Spec.lab i) := by
  unfold val_main_v35
  rw [gather_pair_apply _ _ i i (Cert.Spec.lab i) (pick_row i) (pick_col i), logp_at]

/-- A sum over a one-axis index set is the sum over the coordinate. -/
theorem sum_idx1 {M : Type*} [AddCommMonoid M] {n : ℕ} (f : (⟨1, ![n]⟩ : Shape).Idx → M) :
    ∑ j, f j = ∑ a : Fin n, f (ix1 a) :=
  Fintype.sum_equiv ⟨fun j => j 0, fun a => ix1 a, fun j => (eq_ix1 j).symm, fun _ => rfl⟩ _ _
    (fun j => congrArg f (eq_ix1 j))

/-- The reference's result: the loss taken a whole row at a time. -/
theorem loss_eq : val_main_v38 (F := Ideal) x0 = fun _ => Cert.Spec.rloss (arr x0) := by
  funext j
  rw [val_main_v38_apply, val_main_v37_apply, val_main_v36_apply, val_main_cst_7_apply, val_main_cst_8_apply, sum_idx1]
  simp only [picked_at]
  show -(Ideal.div (Ideal.ofBits .f32 0x00000000#32 + ∑ i : Fin 8192, Cert.Spec.logp (arr x0) i (Cert.Spec.lab i))
    (Ideal.ofBits .f32 0x46000000#32)) = _
  rw [Ideal.ofBits_zero_f32]
  rfl

theorem res_eq (m : (ℓ : Loc Cert.ReferenceIdeal.nD Cert.ReferenceIdeal.τ Cert.ReferenceIdeal.sig) → Buf (Elt Ideal) ℓ) (c : Dev Cert.ReferenceIdeal.nD) :
    Cert.ReferenceIdeal.ValueP.res_main_v38 (F := Ideal) m c
      = (fun _ => Cert.Spec.rloss (arr (m ((c.tc : Thread Cert.ReferenceIdeal.nD Cert.ReferenceIdeal.τ).loc Cert.ReferenceIdeal.main_arg0)))) :=
  (val_main_v38_eq m c).trans (loss_eq _)

end Cert.RefValue

end
-- ==== Proof.LibIsReal.lean ====
/-
  Extended reals that are real numbers.

  On the extended reals the field laws (distributivity, cancelling, moving a factor across a sum) fail at the
  infinities, so a value proof that needs one first shows its operands are real. `IsReal a` says `a` is the image of a
  real number; it is closed under sums, differences, products, finite sums and quotients by a nonzero real, holds of
  every integer-valued float, and holds of every IEEE word whose exponent field is not all ones (a zero, a subnormal or
  a normal number: everything but the infinities and the NaN patterns). With operands real, an identity of the real
  field transfers by pushing the coercion out (`← EReal.coe_add`, `← EReal.coe_mul`, …) and `ring`.
-/
import Idealize.ShloMosaic.PureOps.Ideal

noncomputable section

namespace Cert

open Idealize.ShloMosaic

/-- `a` is a real number. -/
def IsReal (a : EReal) : Prop := ∃ r : ℝ, a = (r : EReal)

theorem IsReal.coe (r : ℝ) : IsReal (r : EReal) := ⟨r, rfl⟩
theorem IsReal.zero : IsReal 0 := ⟨0, rfl⟩
theorem IsReal.add {a b : EReal} (ha : IsReal a) (hb : IsReal b) : IsReal (a + b) := by
  obtain ⟨x, rfl⟩ := ha; obtain ⟨y, rfl⟩ := hb; exact ⟨x + y, (EReal.coe_add x y).symm⟩
theorem IsReal.sub {a b : EReal} (ha : IsReal a) (hb : IsReal b) : IsReal (a - b) := by
  obtain ⟨x, rfl⟩ := ha; obtain ⟨y, rfl⟩ := hb; exact ⟨x - y, (EReal.coe_sub x y).symm⟩
theorem IsReal.mul {a b : EReal} (ha : IsReal a) (hb : IsReal b) : IsReal (a * b) := by
  obtain ⟨x, rfl⟩ := ha; obtain ⟨y, rfl⟩ := hb; exact ⟨x * y, (EReal.coe_mul x y).symm⟩
theorem IsReal.sum {ι : Type} (s : Finset ι) (f : ι → EReal) (h : ∀ i, IsReal (f i)) : IsReal (∑ i ∈ s, f i) := by
  classical
  induction s using Finset.induction_on with
  | empty => simpa using IsReal.zero
  | insert a s ha ih => rw [Finset.sum_insert ha]; exact (h a).add ih
/-- A quotient by a nonzero real. -/
theorem IsReal.div {a : EReal} (ha : IsReal a) {y : ℝ} (hy : y ≠ 0) : IsReal (Ideal.div a (y : EReal)) := by
  rw [Ideal.div_coe hy]; exact ha.mul (IsReal.coe _)

/-- A word of an IEEE format with `e` exponent bits and `mm` fraction bits whose exponent field is not all ones denotes
    a real number (for a literal word the side condition is decided: `isReal_ieee 8 23 _ (by decide)`). -/
theorem isReal_ieee (e mm : Nat) {w : Nat} (b : BitVec w) (h : (b.extractLsb' mm e).toNat ≠ 2 ^ e - 1) :
    IsReal (Ideal.ieee e mm b) := by
  unfold Ideal.ieee
  simp only []
  rw [if_neg h]
  split <;> exact ⟨_, rfl⟩

end Cert

end
-- ==== Proof.Softmax.lean ====
/-
  The block-by-block log-softmax agrees with the whole-row one.

  With every entry of the array a real number, every score is a real number, and a row of masked scores is
  the real scores with -∞ on the diagonal. Relative to a real reference point M a column weighs
  exp (score - M), the masked column weighs 0. The running triple after n column blocks holds the maximum
  of the masked scores of the columns seen so far, their total weight relative to that maximum, and the
  partner's score if its column was seen. Moving the reference point from M to M' multiplies every weight
  by exp (M - M'), which is what one step does before it adds the new block's weights. After the sixteenth
  block the columns seen are all the columns, so the triple is the row's maximum, the row's total weight and
  the partner's score, and m + log l is the log of the row's normaliser.
-/
import proofs.«169672_j32564442038466_2_alg».proof.Proof.Spec
import proofs.«169672_j32564442038466_2_alg».proof.Proof.LibIsReal

noncomputable section

namespace Cert.Spec

open Idealize.ShloMosaic
open scoped BigOperators

/-! ### Every score is a real number -/

/-- A finite sum of reals, read in the extended reals, is the sum of the readings. -/
theorem coe_sum {ι : Type} (s : Finset ι) (f : ι → ℝ) :
    ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- The floor under a norm is a positive real. -/
theorem eps_pos : ∃ r : ℝ, 0 < r ∧ eps = (r : EReal) := by
  unfold eps
  refine ⟨((2 ^ 23 + 2870391 : ℕ) : ℝ) * (2 : ℝ) ^ ((100 : ℤ) - 127 - 23), by positivity, ?_⟩
  simp [Ideal.ofBits, Ideal.ieee, -EReal.coe_mul]

/-- A row's floored norm is a positive real. -/
theorem nrm_pos (x : Arr) (hx : ∀ i k, ∃ r : ℝ, x i k = (r : EReal)) (i : Fin 8192) :
    ∃ r : ℝ, 0 < r ∧ nrm x i = (r : EReal) := by
  choose f hf using hx
  obtain ⟨e, he, hee⟩ := eps_pos
  have hsum : ∑ k : Fin 1024, x i k * x i k = ((∑ k : Fin 1024, f i k * f i k : ℝ) : EReal) := by
    rw [coe_sum]
    refine Finset.sum_congr rfl fun k _ => ?_
    rw [hf i k, EReal.coe_mul]
  have hnn : ¬ (∑ k : Fin 1024, f i k * f i k) < 0 :=
    not_lt.2 (Finset.sum_nonneg fun k _ => mul_self_nonneg _)
  refine ⟨max (Real.sqrt (∑ k : Fin 1024, f i k * f i k)) e, lt_max_of_lt_right he, ?_⟩
  unfold nrm
  rw [hsum, Ideal.sqrt_coe, if_neg hnn, hee]
  exact (EReal.coe_strictMono.monotone.map_max).symm

theorem fn_real (x : Arr) (hx : ∀ i k, ∃ r : ℝ, x i k = (r : EReal)) (i : Fin 8192) (k : Fin 1024) :
    IsReal (fn x i k) := by
  obtain ⟨r, hr, hn⟩ := nrm_pos x hx i
  unfold fn
  rw [hn]
  exact IsReal.div (hx i k) hr.ne'

theorem sco_real (x : Arr) (hx : ∀ i k, ∃ r : ℝ, x i k = (r : EReal)) (i j : Fin 8192) :
    ∃ r : ℝ, sco x i j = (r : EReal) := by
  unfold sco dot invTemp
  exact IsReal.mul (IsReal.sum _ _ fun k => (fn_real x hx i k).mul (fn_real x hx j k)) (IsReal.coe _)

/-- The partner of a row is another row. -/
theorem lab_ne (i : Fin 8192) : i ≠ lab i := by
  intro h
  have h' := congrArg Fin.val h
  unfold lab at h'
  split at h' <;> simp at h' <;> omega

/-! ### The columns seen after n blocks -/

/-- The columns of the first n blocks. -/
def seen (n : ℕ) : Finset (Fin 8192) := Finset.univ.filter (fun j => j.val < n * 512)

/-- The columns of block n. -/
def blk (n : Fin 16) : Finset (Fin 8192) := Finset.univ.image (col n)

theorem col_inj (n : Fin 16) : Function.Injective (col n) := by
  intro a b h
  have h' := congrArg Fin.val h
  simp only [col] at h'
  exact Fin.ext (by omega)

theorem seen_zero : seen 0 = ∅ := by
  ext j; simp [seen]

theorem seen_all : seen 16 = Finset.univ := by
  ext j
  simp only [seen, Finset.mem_filter, Finset.mem_univ, true_and, iff_true]
  have := j.isLt
  omega

theorem seen_succ (n : ℕ) (h : n < 16) : seen (n + 1) = seen n ∪ blk ⟨n, h⟩ := by
  ext j
  simp only [seen, blk, Finset.mem_union, Finset.mem_filter, Finset.mem_univ, true_and, Finset.mem_image]
  constructor
  · intro hj
    by_cases h1 : j.val < n * 512
    · exact Or.inl h1
    · refine Or.inr ⟨⟨j.val - n * 512, by omega⟩, ?_⟩
      apply Fin.ext
      simp only [col]
      omega
  · rintro (hj | ⟨b, rfl⟩)
    · omega
    · have := b.isLt
      simp only [col]
      omega

theorem seen_disj (n : ℕ) (h : n < 16) : Disjoint (seen n) (blk ⟨n, h⟩) := by
  rw [Finset.disjoint_left]
  intro j hj hb
  simp only [seen, blk, Finset.mem_filter, Finset.mem_univ, true_and, Finset.mem_image] at hj hb
  obtain ⟨b, rfl⟩ := hb
  simp only [col] at hj
  omega

/-- A sum over a block's columns, by the block's own index. -/
theorem sum_blk {M : Type} [AddCommMonoid M] (n : Fin 16) (g : Fin 8192 → M) :
    ∑ b : Fin 512, g (col n b) = ∑ j ∈ blk n, g j := by
  unfold blk
  rw [Finset.sum_image fun a _ b _ h => col_inj n h]

/-- Every block has a column off the diagonal. -/
theorem blk_off (i : Fin 8192) (n : Fin 16) : ∃ j ∈ blk n, i ≠ j := by
  by_cases h : i = col n ⟨0, by omega⟩
  · refine ⟨col n ⟨1, by omega⟩, Finset.mem_image_of_mem _ (Finset.mem_univ _), ?_⟩
    rw [h]
    intro h'
    have := congrArg Fin.val (col_inj n h')
    simp at this
  · exact ⟨_, Finset.mem_image_of_mem _ (Finset.mem_univ _), h⟩

/-! ### A row of masked scores, and the weights of its columns -/

section row

variable (i : Fin 8192) (c : Fin 8192 → ℝ)

/-- The masked row: -∞ on the diagonal, the real score elsewhere. -/
def ms (j : Fin 8192) : EReal := if i = j then ⊥ else (c j : EReal)

/-- The weight of column j relative to the reference point M: nothing on the diagonal. -/
def ex (j : Fin 8192) (M : ℝ) : ℝ := if i = j then 0 else Real.exp (c j - M)

theorem exp_ms (j : Fin 8192) (M : ℝ) : Ideal.exp (ms i c j - (M : EReal)) = (ex i c j M : EReal) := by
  unfold ms ex
  split_ifs
  · rw [EReal.bot_sub, Ideal.exp_bot, EReal.coe_zero]
  · rw [← EReal.coe_sub, Ideal.exp_coe]

/-- Moving the reference point multiplies a weight by the exponential of the move. -/
theorem ex_shift (j : Fin 8192) (M M' : ℝ) : Real.exp (M - M') * ex i c j M = ex i c j M' := by
  unfold ex
  split_ifs
  · rw [mul_zero]
  · rw [← Real.exp_add]; congr 1; ring

theorem ex_nonneg (j : Fin 8192) (M : ℝ) : 0 ≤ ex i c j M := by
  unfold ex
  split_ifs
  · exact le_refl _
  · exact (Real.exp_pos _).le

/-- The total weight of a set of columns relative to M. -/
def tot (A : Finset (Fin 8192)) (M : ℝ) : ℝ := ∑ j ∈ A, ex i c j M

theorem tot_shift (A : Finset (Fin 8192)) (M M' : ℝ) : Real.exp (M - M') * tot i c A M = tot i c A M' := by
  unfold tot
  rw [Finset.mul_sum]
  exact Finset.sum_congr rfl fun j _ => ex_shift i c j M M'

theorem tot_pos (A : Finset (Fin 8192)) (hA : ∃ j ∈ A, i ≠ j) (M : ℝ) : 0 < tot i c A M := by
  obtain ⟨j, hj, hij⟩ := hA
  unfold tot
  refine Finset.sum_pos' (fun k _ => ex_nonneg i c k M) ⟨j, hj, ?_⟩
  unfold ex
  rw [if_neg hij]
  exact Real.exp_pos _

/-- A fold of max is the supremum. -/
theorem fold_max {ι : Type} (A : Finset ι) (f : ι → EReal) : A.fold max ⊥ f = A.sup f := rfl

/-- The maximum of a set of columns with one off the diagonal is a real number. -/
theorem sup_real (A : Finset (Fin 8192)) (hA : ∃ j ∈ A, i ≠ j) :
    ∃ M : ℝ, A.sup (ms i c) = (M : EReal) := by
  have h1 : A.sup (ms i c) ≠ ⊤ := by
    refine ne_of_lt ((Finset.sup_lt_iff bot_lt_top).2 fun j _ => ?_)
    unfold ms
    split_ifs
    · exact bot_lt_top
    · exact EReal.coe_lt_top _
  have h2 : A.sup (ms i c) ≠ ⊥ := by
    obtain ⟨j, hj, hij⟩ := hA
    have hle : ms i c j ≤ A.sup (ms i c) := Finset.le_sup hj
    unfold ms at hle
    rw [if_neg hij] at hle
    exact ne_of_gt (lt_of_lt_of_le (EReal.bot_lt_coe _) hle)
  exact ⟨_, (EReal.coe_toReal h1 h2).symm⟩

end row

/-! ### The running triple -/

section run

variable (x : Arr) (i : Fin 8192) (c : Fin 8192 → ℝ)

theorem msk_eq (hc : ∀ j, sco x i j = (c j : EReal)) (j : Fin 8192) : msk x i j = ms i c j := by
  unfold msk ms
  rw [hc j]

theorem blkMax_eq (hc : ∀ j, sco x i j = (c j : EReal)) (n : Fin 16) :
    blkMax x i n = (blk n).sup (ms i c) := by
  unfold blkMax blk
  rw [fold_max, Finset.sup_image]
  exact Finset.sup_congr rfl fun b _ => msk_eq x i c hc _

/-- After n blocks: the maximum of the columns seen, the partner's score if seen, and the total weight of the
    columns seen, relative to any reference point once the running normaliser is moved there. -/
theorem st_inv (hc : ∀ j, sco x i j = (c j : EReal)) (n : ℕ) (hn : n ≤ 16) :
    (st x i n).m = (seen n).sup (ms i c) ∧
    (st x i n).p = ∑ j ∈ seen n, (if lab i = j then (c j : EReal) else 0) ∧
    ∀ M' : ℝ, Ideal.exp ((st x i n).m - (M' : EReal)) * (st x i n).l = (tot i c (seen n) M' : EReal) := by
  induction n with
  | zero =>
    refine ⟨?_, ?_, fun M' => ?_⟩
    · rw [seen_zero, Finset.sup_empty]; rfl
    · rw [seen_zero, Finset.sum_empty]; rfl
    · rw [seen_zero]
      unfold tot
      rw [Finset.sum_empty]
      show Ideal.exp (⊥ - _) * 0 = _
      rw [mul_zero, EReal.coe_zero]
  | succ n ih =>
    have h : n < 16 := by omega
    obtain ⟨hm, hp, hl⟩ := ih (by omega)
    have hst : st x i (n + 1) = step x i ⟨n, h⟩ (st x i n) := by
      show (if h : n < 16 then step x i ⟨n, h⟩ (st x i n) else st x i n) = _
      rw [dif_pos h]
    have hm' : max (st x i n).m (blkMax x i ⟨n, h⟩) = (seen (n + 1)).sup (ms i c) := by
      rw [hm, blkMax_eq x i c hc, seen_succ n h, Finset.sup_union]
    obtain ⟨M, hM⟩ := sup_real i c (seen (n + 1)) (by
      obtain ⟨j, hj, hij⟩ := blk_off i ⟨n, h⟩
      exact ⟨j, by rw [seen_succ n h]; exact Finset.mem_union_right _ hj, hij⟩)
    have hblk : ∑ b : Fin 512, Ideal.exp (msk x i (col ⟨n, h⟩ b) - (M : EReal))
        = (tot i c (blk ⟨n, h⟩) M : EReal) := by
      unfold tot
      rw [coe_sum, ← sum_blk]
      exact Finset.sum_congr rfl fun b _ => by rw [msk_eq x i c hc, exp_ms]
    have hl' : (st x i (n + 1)).l = (tot i c (seen (n + 1)) M : EReal) := by
      rw [hst]
      show Ideal.exp ((st x i n).m - max (st x i n).m (blkMax x i ⟨n, h⟩)) * (st x i n).l
        + ∑ b : Fin 512, Ideal.exp (msk x i (col ⟨n, h⟩ b) - max (st x i n).m (blkMax x i ⟨n, h⟩)) = _
      rw [hm', hM, hl M, hblk, ← EReal.coe_add]
      congr 1
      unfold tot
      rw [seen_succ n h, Finset.sum_union (seen_disj n h)]
    have hmM : (st x i (n + 1)).m = (M : EReal) := by
      rw [hst]; exact hm'.trans hM
    refine ⟨?_, ?_, fun M' => ?_⟩
    · rw [hst]; exact hm'
    · rw [hst]
      show (st x i n).p + ∑ b : Fin 512, (if lab i = col ⟨n, h⟩ b then sco x i (col ⟨n, h⟩ b) else 0) = _
      rw [hp, seen_succ n h, Finset.sum_union (seen_disj n h), ← sum_blk]
      congr 1
      exact Finset.sum_congr rfl fun b _ => by rw [hc]
    · rw [hl', hmM, ← EReal.coe_sub, Ideal.exp_coe, ← EReal.coe_mul, tot_shift]

/-- One row: the block-by-block log-probability of the partner is the whole-row one. -/
theorem term_eq (hx : ∀ i k, ∃ r : ℝ, x i k = (r : EReal)) :
    lpos x i - lse x i = logp x i (lab i) := by
  choose c hc using sco_real x hx i
  obtain ⟨hm, hp, hl⟩ := st_inv x i c hc 16 (le_refl _)
  rw [seen_all] at hm hp hl
  have hoff : ∃ j ∈ (Finset.univ : Finset (Fin 8192)), i ≠ j := ⟨lab i, Finset.mem_univ _, lab_ne i⟩
  obtain ⟨M, hM⟩ := sup_real i c Finset.univ hoff
  have hT := tot_pos i c Finset.univ hoff M
  have hm16 : (st x i 16).m = (M : EReal) := hm.trans hM
  have hl16 : (st x i 16).l = (tot i c Finset.univ M : EReal) := by
    have := hl M
    rw [hm16, ← EReal.coe_sub, sub_self, Ideal.exp_coe, Real.exp_zero, EReal.coe_one, one_mul] at this
    exact this
  have hp16 : (st x i 16).p = (c (lab i) : EReal) := by
    rw [hp, Finset.sum_ite_eq, if_pos (Finset.mem_univ _)]
  have hrow : rowMax x i = (M : EReal) := by
    unfold rowMax
    rw [fold_max, ← hM]
    exact Finset.sup_congr rfl fun j _ => msk_eq x i c hc j
  have hsum : ∑ j' : Fin 8192, Ideal.exp (msk x i j' - (M : EReal)) = (tot i c Finset.univ M : EReal) := by
    unfold tot
    rw [coe_sum]
    exact Finset.sum_congr rfl fun j _ => by rw [msk_eq x i c hc, exp_ms]
  have hlog : Ideal.log ((tot i c Finset.univ M : ℝ) : EReal)
      = (Real.log (tot i c Finset.univ M) : EReal) := by
    rw [Ideal.log_coe, if_neg (not_le.2 hT)]
  unfold lpos lse logp
  rw [hm16, hl16, hp16, hrow, zero_add, hsum, hlog, msk_eq x i c hc, ms, if_neg (lab_ne i)]
  rw [← EReal.coe_add, ← EReal.coe_sub, ← EReal.coe_sub, ← EReal.coe_sub]
  congr 1
  ring

end run

/-- The loss computed block by block is the loss computed a whole row at a time. -/
theorem kloss_eq_rloss (x : Arr) (hx : ∀ i k, ∃ r : ℝ, x i k = (r : EReal)) : kloss x = rloss x := by
  unfold kloss rloss
  rw [Finset.sum_congr rfl fun i _ => term_eq x i hx]

end Cert.Spec

end
-- ==== Proof.Finite.lean ====
/-
  The precondition, decoded: every entry of the input array is a real number.

  The precondition compares the absolute value of every entry with the word for +∞ and takes the conjunction over
  both axes. The word denotes ⊤, the absolute value of x is max x (-x), and max x (-x) < ⊤ excludes both
  infinities: at -∞ the negation is +∞. What is left is a real number.
-/
import proofs.«169672_j32564442038466_2_alg».proof.Pre_finite_inputs
import proofs.«169672_j32564442038466_2_alg».proof.Proof.Gen.Pre_finite_inputs
import Idealize.ShloMosaic.Lib.ReduceAll
import Idealize.ShloMosaic.Lib.ValueIdx
import Idealize.ShloMosaic.PureOps.Ideal

noncomputable section

namespace Cert.Finite

open Idealize.ShloMosaic

/-- The shape with no axes has one index. -/
instance : Subsingleton Cert.Pre_finite_inputs.S_.Idx := ⟨fun a b => funext fun d => d.elim0⟩

/-- The word the entries are compared with denotes +∞. -/
theorem top_word : Ideal.ofBits .f32 0x7F800000#32 = (⊤ : EReal) := by
  simp [Ideal.ofBits, Ideal.ieee]

/-- An extended real whose absolute value is below +∞ is a real number. -/
theorem real_of_abs_lt_top (x : EReal) (h : max x (-x) < ⊤) : ∃ r : ℝ, x = (r : EReal) := by
  induction x using EReal.rec with
  | bot => simp at h
  | top => simp at h
  | coe r => exact ⟨r, rfl⟩

theorem real_of_pre [hP : Cert.Pre_finite_inputs.Facts] (X : FVec Ideal Cert.Pre_finite_inputs.S8192x1024 .f32)
    (h : Cert.Pre_finite_inputs.fn (F := Ideal) X = fun _ => 1#1) :
    ∀ (i : Fin 8192) (k : Fin 1024), ∃ r : ℝ, X (Idealize.ShloMosaic.ValueIdx.ix2 i k) = (r : EReal) := by
  intro i k
  have h0 := congrFun h ValueIdx.ix0
  dsimp only [Cert.Pre_finite_inputs.fn] at h0
  have he := Host.reduce_andi_all _ _ _ _ _ h0 (ValueIdx.ix2 i k)
  have he' : Ideal.cmp .olt (max (X (ValueIdx.ix2 i k)) (-(X (ValueIdx.ix2 i k))))
      (Ideal.ofBits .f32 0x7F800000#32) = 1#1 := he
  rw [top_word] at he'
  refine real_of_abs_lt_top _ ?_
  by_contra hn
  simp [Ideal.cmp, hn] at he'

end Cert.Finite

end
-- ==== Proof.Claims.lean ====
/-
  The five claims.

  The two kernel programs' frames are the run through both regions and the host operations, read at the argument buffer.
  The reference's frame is its run with the result dropped. The idealized kernel differs from the printed one in two
  named constants: the reciprocal temperature, read as the exact reciprocal of the reference's temperature word, and the
  mask's fill, read as -∞. And the two idealized programs end with equal results: the kernel's is the loss computed block
  by block, the reference's the loss computed a whole row at a time, and on an array of real numbers — which the
  precondition gives — the two are one number.
-/
import proofs.«169672_j32564442038466_2_alg».proof.Defs
import proofs.«169672_j32564442038466_2_alg».proof.Proof.KernelValue
import proofs.«169672_j32564442038466_2_alg».proof.Proof.KRun
import proofs.«169672_j32564442038466_2_alg».proof.Proof.RefValue
import proofs.«169672_j32564442038466_2_alg».proof.Proof.RefRunP
import proofs.«169672_j32564442038466_2_alg».proof.Proof.Softmax
import proofs.«169672_j32564442038466_2_alg».proof.Proof.Finite
import proofs.«169672_j32564442038466_2_alg».proof.Proof.Gen.Kernel
import proofs.«169672_j32564442038466_2_alg».proof.Proof.Gen.KernelIdeal
import proofs.«169672_j32564442038466_2_alg».proof.Proof.Gen.ReferenceIdeal
import proofs.«169672_j32564442038466_2_alg».proof.Proof.Gen.Pre_finite_inputs

noncomputable section

namespace Cert.Proof.Claims

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- The two named constants denote, at the ideal instance, what the certificate's table gives them. -/
theorem preserves : Cert.preserves_Kernel_KernelIdeal :=
  ⟨IdealRules.named_const.statement Cert.KernelIdeal.κ "inv_temp" .f32 0x41649249#32 ((134217728 / 9395241 : ℝ) : EReal) rfl,
   IdealRules.named_const.statement Cert.KernelIdeal.κ "neg_big" .f32 0xFF333332#32 ⊥ rfl⟩

/-- Both idealized programs end at the whole-row loss of the argument. -/
theorem algebraic : Cert.algebraic_KernelIdeal_ReferenceIdeal := by
  intro m ρ m' ρ' hpre hagree
  refine ⟨fun c => (fun _ => Cert.Spec.rloss (Cert.KernelIdeal.Hand.xOf m c)), ?_, ?_⟩
  · refine (θ_run Cert.KernelIdeal.defs _ _).mono (fun _ h c => ⟨(h c).1.trans ?_, (h c).2⟩) (Cert.KernelIdeal.Hand.run_value m ρ)
    exact funext fun _ => Cert.Spec.kloss_eq_rloss _ (Cert.Finite.real_of_pre _ (hpre c))
  · refine (θ_run Cert.ReferenceIdeal.defs _ _).mono (fun _ h c => ⟨(h c).1.trans ?_, (h c).2⟩) (Cert.ReferenceIdeal.ValueP.run (F := Ideal) m' ρ')
    rw [Cert.RefValue.res_eq, hagree c]
    rfl

end Cert.Proof.Claims

end
-- ==== Proof.lean ====
/-
  The certificate of a contrastive loss over 8192 rows of 1024 features: a two-region kernel (rows normalised; then scores
  against every other row, 512 columns at a time, folded into a running log-sum-exp and the partner's score) against a
  reference that forms the whole 8192 × 8192 score matrix and takes a row-wise log-softmax.

  Proof/Spec.lean states the mathematics; Proof/Softmax.lean proves the block-by-block loss equal to the whole-row loss on
  real arrays; Proof/R0.lean, R1*.lean and Run.lean run the idealized kernel through its two regions (their K-prefixed
  twins run the kernel as printed); Proof/PayAt.lean, StepAt.lean, Acc1.lean, Final0.lean, Final1.lean, Tail.lean and
  KernelValue.lean read what the kernel's buffers end with; Proof/RefValue.lean reads the reference's result;
  Proof/Finite.lean decodes the precondition; Proof/Claims.lean states the five claims.
-/
import proofs.«169672_j32564442038466_2_alg».proof.Defs
import proofs.«169672_j32564442038466_2_alg».proof.Proof.Claims
import proofs.«169672_j32564442038466_2_alg».proof.Proof.Gen.Kernel
import proofs.«169672_j32564442038466_2_alg».proof.Proof.Gen.KernelIdeal
import proofs.«169672_j32564442038466_2_alg».proof.Proof.Gen.ReferenceIdeal
import proofs.«169672_j32564442038466_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
